-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v39_0)) (v2 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v39_0) = v1 c
          ∧ r.2.mem ((c.tc : Thread Cert.KernelIdeal.nD Cert.KernelIdeal.τ).loc Cert.KernelIdeal.main_v39_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S131072x64 : Shape := ⟨2, ![131072, 64]⟩
abbrev S3x128 : Shape := ⟨2, ![3, 128]⟩
abbrev S128 : Shape := ⟨1, ![128]⟩
abbrev S128x128 : Shape := ⟨2, ![128, 128]⟩
abbrev S64x128 : Shape := ⟨2, ![64, 128]⟩
abbrev S128x3 : Shape := ⟨2, ![128, 3]⟩
abbrev S3 : Shape := ⟨1, ![3]⟩
abbrev S2x2097152 : Shape := ⟨2, ![2, 2097152]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S128 .f32) (main_arg8 : FVec F S128x3 .f32) (main_arg9 : FVec F S3 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x3 .f32 := Host.absf main_arg8
  let main_cst_14 : FVec F S_ .f32 := constant S_ .f32 0x7F800000#32
  let main_v40 : FVec F S128x3 .f32 := broadcastInDim S128x3 ![] bcast_S_S128x3 main_cst_14
  let main_v41 : IVec S128x3 1 := cmpf .olt main_v39 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S64x128 .f32) (main_arg7 : FVec F S128 .f32) (main_arg8 : FVec F S128x3 .f32) (main_arg9 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S131072x3 .f32) (main_arg1 : FVec F S131072x64 .f32) (main_arg2 : FVec F S3x128 .f32) (main_arg3 : FVec F S128 .f32) (main_arg4 : FVec F S128x128 .f32) (main_arg5 : FVec F S128 .f32) (main_arg6 : FVec F S64x128 .f32) (main_arg7 : FVec F S128 .f32) (main_arg8 : FVec F S128x3 .f32) (main_arg9 : FVec F S3 .f32) (main_arg10 : IVec S2x2097152 32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S131072x3 : Shape := ⟨2, ![131072, 3]⟩
abbrev S131072x64 : Shape := ⟨2, ![131072, 64]⟩
abbrev S3x128 : Shape := ⟨2, ![3, 128]⟩
abbrev S128 : Shape := ⟨1, ![128]⟩
abbrev S128x128 : Shape := ⟨2, ![128, 128]⟩
abbrev S64x128 : Shape := ⟨2, ![64, 128]⟩
abbrev S128x3 : Shape := ⟨2, ![128, 3]⟩
abbrev S3 : Shape := ⟨1, ![3]⟩
abbrev S2x2097152 : Shape := ⟨2, ![2, 2097152]⟩
abbrev S1x2097152 : Shape := ⟨2, ![1, 2097152]⟩
abbrev S2097152 : Shape := ⟨1, ![2097152]⟩
abbrev S_ : Shape := ⟨0, ![]⟩
abbrev S131072 : Shape := ⟨1, ![131072]⟩
abbrev S2097152x1 : Shape := ⟨2, ![2097152, 1]⟩
abbrev S131072x1 : Shape := ⟨2, ![131072, 1]⟩
abbrev S2097152x3 : Shape := ⟨2, ![2097152, 3]⟩
abbrev S131072x128 : Shape := ⟨2, ![131072, 128]⟩
abbrev S4096x3 : Shape := ⟨2, ![4096, 3]⟩
abbrev S4096x1 : Shape := ⟨2, ![4096, 1]⟩
abbrev S4096x128 : Shape := ⟨2, ![4096, 128]⟩
abbrev S1x128 : Shape := ⟨2, ![1, 128]⟩
abbrev S2097152x128 : Shape := ⟨2, ![2097152, 128]⟩
abbrev S4096x64 : Shape := ⟨2, ![4096, 64]⟩
abbrev S1x3 : Shape := ⟨2, ![1, 3]⟩
abbrev S64x2048x3 : Shape := ⟨3, ![64, 2048, 3]⟩

abbrev nBuf : Space → Nat
  | .hbm => 64
  | .vmem => 32
  | .smem => 0
  | _ => 0

abbrev bufTy : (tb : Table) → Fin (tcTables nBuf tb) → BufTy
  | .hbm, ⟨0, _⟩ => ⟨S131072x3, .f32⟩
  | .hbm, ⟨1, _⟩ => ⟨S131072x64, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S2x2097152, .i32⟩
  | .hbm, ⟨11, _⟩ => ⟨S1x2097152, .i32⟩
  | .hbm, ⟨12, _⟩ => ⟨S2097152, .i32⟩
  | .hbm, ⟨13, _⟩ => ⟨S1x2097152, .i32⟩
  | .hbm, ⟨14, _⟩ => ⟨S2097152, .i32⟩
  | .hbm, ⟨15, _⟩ => ⟨S_, .f32⟩
  | .hbm, ⟨16, _⟩ => ⟨S2097152, .f32⟩
  | .hbm, ⟨17, _⟩ => ⟨S_, .f32⟩
  | .hbm, ⟨18, _⟩ => ⟨S131072, .f32⟩
  | .hbm, ⟨19, _⟩ => ⟨S2097152x1, .i32⟩
  | .hbm, ⟨20, _⟩ => ⟨S131072, .f32⟩
  | .hbm, ⟨21, _⟩ => ⟨S_, .f32⟩
  | .hbm, ⟨22, _⟩ => ⟨S131072, .f32⟩
  | .hbm, ⟨23, _⟩ => ⟨S131072, .f32⟩
  | .hbm, ⟨24, _⟩ => ⟨S131072, .f32⟩
  | .hbm, ⟨25, _⟩ => ⟨S131072x1, .f32⟩
  | .hbm, ⟨26, _⟩ => ⟨S131072x3, .f32⟩
  | .hbm, ⟨27, _⟩ => ⟨S131072x3, .f32⟩
  | .hbm, ⟨28, _⟩ => ⟨S_, .i32⟩
  | .hbm, ⟨29, _⟩ => ⟨S2097152, .i32⟩
  | .hbm, ⟨30, _⟩ => ⟨S2097152, .i1⟩
  | .hbm, ⟨31, _⟩ => ⟨S_, .i32⟩
  | .hbm, ⟨32, _⟩ => ⟨S2097152, .i32⟩
  | .hbm, ⟨33, _⟩ => ⟨S2097152, .i32⟩
  | .hbm, ⟨34, _⟩ => ⟨S2097152, .i32⟩
  | .hbm, ⟨35, _⟩ => ⟨S2097152x1, .i32⟩
  | .hbm, ⟨36, _⟩ => ⟨S2097152x3, .f32⟩
  | .hbm, ⟨37, _⟩ => ⟨S_, .f32⟩
  | .hbm, ⟨38, _⟩ => ⟨S131072x3, .f32⟩
  | .hbm, ⟨39, _⟩ => ⟨S2097152x1, .i32⟩
  | .hbm, ⟨40, _⟩ => ⟨S131072x3, .f32⟩
  | .hbm, ⟨41, _⟩ => ⟨S131072x3, .f32⟩
  | .hbm, ⟨42, _⟩ => ⟨S131072x3, .f32⟩
  | .hbm, ⟨43, _⟩ => ⟨S131072x128, .f32⟩
  | .hbm, ⟨44, _⟩ => ⟨S131072x128, .f32⟩
  | .hbm, ⟨45, _⟩ => ⟨S_, .i32⟩
  | .hbm, ⟨46, _⟩ => ⟨S2097152, .i32⟩
  | .hbm, ⟨47, _⟩ => ⟨S2097152, .i1⟩
  | .hbm, ⟨48, _⟩ => ⟨S_, .i32⟩
  | .hbm, ⟨49, _⟩ => ⟨S2097152, .i32⟩
  | .hbm, ⟨50, _⟩ => ⟨S2097152, .i32⟩
  | .hbm, ⟨51, _⟩ => ⟨S2097152, .i32⟩
  | .hbm, ⟨52, _⟩ => ⟨S2097152x1, .i32⟩
  | .hbm, ⟨53, _⟩ => ⟨S2097152x128, .f32⟩
  | .hbm, ⟨54, _⟩ => ⟨S_, .f32⟩
  | .hbm, ⟨55, _⟩ => ⟨S131072x128, .f32⟩
  | .hbm, ⟨56, _⟩ => ⟨S2097152x1, .i32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S131072x64, .f32⟩
  | .hbm, ⟨61, _⟩ => ⟨S131072x64, .f32⟩
  | .hbm, ⟨62, _⟩ => ⟨S131072x3, .f32⟩
  | .hbm, ⟨63, _⟩ => ⟨S64x2048x3, .f32⟩
  | .local _ .vmem, ⟨0, _⟩ => ⟨S4096x3, .f32⟩
  | .local _ .vmem, ⟨1, _⟩ => ⟨S4096x3, .f32⟩
  | .local _ .vmem, ⟨2, _⟩ => ⟨S4096x3, .f32⟩
  | .local _ .vmem, ⟨3, _⟩ => ⟨S4096x3, .f32⟩
  | .local _ .vmem, ⟨4, _⟩ => ⟨S4096x1, .f32⟩
  | .local _ .vmem, ⟨5, _⟩ => ⟨S4096x1, .f32⟩
  | .local _ .vmem, ⟨6, _⟩ => ⟨S3x128, .f32⟩
  | .local _ .vmem, ⟨7, _⟩ => ⟨S128, .f32⟩
  | .local _ .vmem, ⟨8, _⟩ => ⟨S128x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x1, .f32⟩
  | .local _ .vmem, ⟨18, _⟩ => ⟨S4096x1, .f32⟩
  | .local _ .vmem, ⟨19, _⟩ => ⟨S4096x64, .f32⟩
  | .local _ .vmem, ⟨20, _⟩ => ⟨S4096x64, .f32⟩
  | .local _ .vmem, ⟨21, _⟩ => ⟨S128, .f32⟩
  | .local _ .vmem, ⟨22, _⟩ => ⟨S64x128, .f32⟩
  | .local _ .vmem, ⟨23, _⟩ => ⟨S128, .f32⟩
  | .local _ .vmem, ⟨24, _⟩ => ⟨S128x3, .f32⟩
  | .local _ .vmem, ⟨25, _⟩ => ⟨S3, .f32⟩
  | .local _ .vmem, ⟨26, _⟩ => ⟨S4096x64, .f32⟩
  | .local _ .vmem, ⟨27, _⟩ => ⟨S4096x64, .f32⟩
  | .local _ .vmem, ⟨28, _⟩ => ⟨S4096x64, .f32⟩
  | .local _ .vmem, ⟨29, _⟩ => ⟨S4096x64, .f32⟩
  | .local _ .vmem, ⟨30, _⟩ => ⟨S4096x3, .f32⟩
  | .local _ .vmem, ⟨31, _⟩ => ⟨S4096x3, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39_0 : Ref sig .tc := ⟨.hbm, 60, rfl⟩
abbrev main_v39_1 : Ref sig .tc := ⟨.hbm, 61, rfl⟩
abbrev main_v39_2 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4096x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4096x3 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S131072x1_S131072x3_0_1 : S131072x1.BroadcastsInDim S131072x3 (![0, 1] : Fin 2 → Fin S131072x3.rank)
  bcast_S_S131072x3 : S_.BroadcastsInDim S131072x3 (![] : Fin 0 → Fin S131072x3.rank)
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x3_S4096x3_0_0 : ∀ a, (![0, 0] : Fin 2 → Nat) a + S4096x3.size a ≤ S4096x3.size a
  h_S4096x3 : 0 < S4096x3.numel
  inb_S3x128_S3x128_0_0 : ∀ a, (![0, 0] : Fin 2 → Nat) a + S3x128.size a ≤ S3x128.size a
  h_S3x128 : 0 < S3x128.numel
  shapeCasts_S4096x3_S4096x3 : S4096x3.ShapeCasts S4096x3
  broadcasts_S4096x1_S4096x128 : S4096x1.Broadcasts S4096x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  shapeCasts_S4096x128_S4096x128 : S4096x128.ShapeCasts S4096x128
  slices_S4096x128_o0_0_S4096x64 : S4096x128.Slices ![0, 0] S4096x64
  slices_S4096x128_o0_64_S4096x64 : S4096x128.Slices ![0, 64] S4096x64
  inb_S4096x64_S4096x64_0_0 : ∀ a, (![0, 0] : Fin 2 → Nat) a + S4096x64.size a ≤ S4096x64.size a
  h_S4096x64 : 0 < S4096x64.numel
  inb_S64x128_S64x128_0_0 : ∀ a, (![0, 0] : Fin 2 → Nat) a + S64x128.size a ≤ S64x128.size a
  h_S64x128 : 0 < S64x128.numel
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S4096x3 : S1x3.Broadcasts S4096x3
  shapeCasts_S131072x3_S64x2048x3 : S131072x3.ShapeCasts S64x2048x3
  scatter_S131072_S2097152x1_S2097152_n_0_0_1_wf : ScatterDims.WF S131072 S2097152x1 S2097152 [] [0] [0] 1
  gather_S131072x3_S2097152x1_S2097152x3_1_0_n_n_0_1_13_wf : GatherDims.WF S131072x3 S2097152x1 S2097152x3 [1] [0] [] [0] [] 1 ![1, 3]
  scatter_S131072x3_S2097152x1_S2097152x3_1_0_0_1_wf : ScatterDims.WF S131072x3 S2097152x1 S2097152x3 [1] [0] [0] 1
  dot_S4096x3_S3x128_S4096x128_1_0_0_1_n_n_wf : DotDims.WF S4096x3 S3x128 S4096x128 [1] [0] [0] [1] [] []
  dot_S4096x128_S128x128_S4096x128_1_0_0_1_n_n_wf : DotDims.WF S4096x128 S128x128 S4096x128 [1] [0] [0] [1] [] []
  gather_S131072x128_S2097152x1_S2097152x128_1_0_n_n_0_1_1128_wf : GatherDims.WF S131072x128 S2097152x1 S2097152x128 [1] [0] [] [0] [] 1 ![1, 128]
  scatter_S131072x128_S2097152x1_S2097152x128_1_0_0_1_wf : ScatterDims.WF S131072x128 S2097152x1 S2097152x128 [1] [0] [0] 1
  dot_S4096x64_S64x128_S4096x128_1_0_0_1_n_n_wf : DotDims.WF S4096x64 S64x128 S4096x128 [1] [0] [0] [1] [] []
  dot_S4096x128_S128x3_S4096x3_1_0_0_1_n_n_wf : DotDims.WF S4096x128 S128x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S131072x3.size a
  hwx0_0 : ∀ i : grid0.Coords, EltTy.bits .f32 = 32 ∨ (Rect.block (s := S131072x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S131072x3.size a
  hwx0_1 : ∀ i : grid0.Coords, EltTy.bits .f32 = 32 ∨ (Rect.block (s := S131072x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S131072x1.size a
  hwx0_2 : ∀ i : grid0.Coords, EltTy.bits .f32 = 32 ∨ (Rect.block (s := S131072x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S131072x128.size a
  hwx0_7 : ∀ i : grid0.Coords, EltTy.bits .f32 = 32 ∨ (Rect.block (s := S131072x128) S4096x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S131072x128.size a
  hwx1_1 : ∀ i : grid1.Coords, EltTy.bits .f32 = 32 ∨ (Rect.block (s := S131072x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S131072x1.size a
  hwx1_2 : ∀ i : grid1.Coords, EltTy.bits .f32 = 32 ∨ (Rect.block (s := S131072x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S131072x64.size a
  hwx1_3 : ∀ i : grid1.Coords, EltTy.bits .f32 = 32 ∨ (Rect.block (s := S131072x64) S4096x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x3.size a ≤ S128x3.size a
  hwx1_7 : ∀ i : grid1.Coords, EltTy.bits .f32 = 32 ∨ (Rect.block (s := S128x3) S128x3.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3.size a ≤ S3.size a
  hwx1_8 : ∀ i : grid1.Coords, EltTy.bits .f32 = 32 ∨ (Rect.block (s := S3) S3.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x64.size a ≤ S131072x64.size a
  hwx1_9 : ∀ i : grid1.Coords, EltTy.bits .f32 = 32 ∨ (Rect.block (s := S131072x64) S4096x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4096x64.size a ≤ S131072x64.size a
  hwx1_10 : ∀ i : grid1.Coords, EltTy.bits .f32 = 32 ∨ (Rect.block (s := S131072x64) S4096x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4096x3.size a ≤ S131072x3.size a
  hwx1_11 : ∀ i : grid1.Coords, EltTy.bits .f32 = 32 ∨ (Rect.block (s := S131072x3) S4096x3.size (cc1_transform_11 i) (hinb1_11 i)).WholeWords (EltTy.packing .f32)

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072x3_S2097152x1_S2097152x3_1_0_n_n_0_1_13 : GatherDims S131072x3 S2097152x1 S2097152x3 where
  offsetDims := [1]
  collapsedSliceDims := [0]
  operandBatchingDims := []
  startIndicesBatchingDims := []
  startIndexMap := [0]
  indexVectorDim := 1
  sliceSizes := ![1, 3]
  wf := gather_S131072x3_S2097152x1_S2097152x3_1_0_n_n_0_1_13_wf
def scatter_S131072x3_S2097152x1_S2097152x3_1_0_0_1 : ScatterDims S131072x3 S2097152x1 S2097152x3 where
  updateWindowDims := [1]
  insertedWindowDims := [0]
  scatterDimsToOperandDims := [0]
  indexVectorDim := 1
  wf := scatter_S131072x3_S2097152x1_S2097152x3_1_0_0_1_wf
def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x3_S4096x3_1_0_0_1_n_n : DotDims S4096x128 S128x3 S4096x3 where
  lhsContracting := [1]
  rhsContracting := [0]
  lhsNonContracting := [0]
  rhsNonContracting := [1]
  lhsBatch := []
  rhsBatch := []
  wf := dot_S4096x128_S128x3_S4096x3_1_0_0_1_n_n_wf

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S4096x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v38) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S4096x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x3.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39_0) S4096x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v39_1) S4096x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v39_2) S4096x3.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S131072x3 : Shape := ⟨2, ![131072, 3]⟩
abbrev S131072x64 : Shape := ⟨2, ![131072, 64]⟩
abbrev S3x128 : Shape := ⟨2, ![3, 128]⟩
abbrev S128 : Shape := ⟨1, ![128]⟩
abbrev S128x128 : Shape := ⟨2, ![128, 128]⟩
abbrev S64x128 : Shape := ⟨2, ![64, 128]⟩
abbrev S128x3 : Shape := ⟨2, ![128, 3]⟩
abbrev S3 : Shape := ⟨1, ![3]⟩
abbrev S2x2097152 : Shape := ⟨2, ![2, 2097152]⟩
abbrev S1x2097152 : Shape := ⟨2, ![1, 2097152]⟩
abbrev S2097152 : Shape := ⟨1, ![2097152]⟩
abbrev S_ : Shape := ⟨0, ![]⟩
abbrev S131072 : Shape := ⟨1, ![131072]⟩
abbrev S2097152x1 : Shape := ⟨2, ![2097152, 1]⟩
abbrev S131072x1 : Shape := ⟨2, ![131072, 1]⟩
abbrev S131072x128 : Shape := ⟨2, ![131072, 128]⟩
abbrev S2097152x128 : Shape := ⟨2, ![2097152, 128]⟩
abbrev S1x128 : Shape := ⟨2, ![1, 128]⟩
abbrev S1x3 : Shape := ⟨2, ![1, 3]⟩
abbrev S64x2048x3 : Shape := ⟨3, ![64, 2048, 3]⟩

abbrev nBuf : Space → Nat
  | .hbm => 115
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S131072x64, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S2x2097152, .i32⟩
  | .hbm, ⟨11, _⟩ => ⟨S1x2097152, .i32⟩
  | .hbm, ⟨12, _⟩ => ⟨S2097152, .i32⟩
  | .hbm, ⟨13, _⟩ => ⟨S1x2097152, .i32⟩
  | .hbm, ⟨14, _⟩ => ⟨S2097152, .i32⟩
  | .hbm, ⟨15, _⟩ => ⟨S_, .f32⟩
  | .hbm, ⟨16, _⟩ => ⟨S2097152, .f32⟩
  | .hbm, ⟨17, _⟩ => ⟨S_, .f32⟩
  | .hbm, ⟨18, _⟩ => ⟨S131072, .f32⟩
  | .hbm, ⟨19, _⟩ => ⟨S2097152x1, .i32⟩
  | .hbm, ⟨20, _⟩ => ⟨S131072, .f32⟩
  | .hbm, ⟨21, _⟩ => ⟨S_, .f32⟩
  | .hbm, ⟨22, _⟩ => ⟨S131072, .f32⟩
  | .hbm, ⟨23, _⟩ => ⟨S131072, .f32⟩
  | .hbm, ⟨24, _⟩ => ⟨S131072, .f32⟩
  | .hbm, ⟨25, _⟩ => ⟨S_, .i32⟩
  | .hbm, ⟨26, _⟩ => ⟨S2097152, .i32⟩
  | .hbm, ⟨27, _⟩ => ⟨S2097152, .i1⟩
  | .hbm, ⟨28, _⟩ => ⟨S_, .i32⟩
  | .hbm, ⟨29, _⟩ => ⟨S2097152, .i32⟩
  | .hbm, ⟨30, _⟩ => ⟨S2097152, .i32⟩
  | .hbm, ⟨31, _⟩ => ⟨S2097152, .i32⟩
  | .hbm, ⟨32, _⟩ => ⟨S2097152x1, .i32⟩
  | .hbm, ⟨33, _⟩ => ⟨S2097152, .f32⟩
  | .hbm, ⟨34, _⟩ => ⟨S_, .i32⟩
  | .hbm, ⟨35, _⟩ => ⟨S2097152, .i32⟩
  | .hbm, ⟨36, _⟩ => ⟨S2097152, .i1⟩
  | .hbm, ⟨37, _⟩ => ⟨S_, .i32⟩
  | .hbm, ⟨38, _⟩ => ⟨S2097152, .i32⟩
  | .hbm, ⟨39, _⟩ => ⟨S2097152, .i32⟩
  | .hbm, ⟨40, _⟩ => ⟨S2097152, .i32⟩
  | .hbm, ⟨41, _⟩ => ⟨S2097152x1, .i32⟩
  | .hbm, ⟨42, _⟩ => ⟨S2097152, .f32⟩
  | .hbm, ⟨43, _⟩ => ⟨S2097152, .f32⟩
  | .hbm, ⟨44, _⟩ => ⟨S131072, .f32⟩
  | .hbm, ⟨45, _⟩ => ⟨S131072x1, .f32⟩
  | .hbm, ⟨46, _⟩ => ⟨S131072x128, .f32⟩
  | .hbm, ⟨47, _⟩ => ⟨S_, .i32⟩
  | .hbm, ⟨48, _⟩ => ⟨S2097152, .i32⟩
  | .hbm, ⟨49, _⟩ => ⟨S2097152, .i1⟩
  | .hbm, ⟨50, _⟩ => ⟨S_, .i32⟩
  | .hbm, ⟨51, _⟩ => ⟨S2097152, .i32⟩
  | .hbm, ⟨52, _⟩ => ⟨S2097152, .i32⟩
  | .hbm, ⟨53, _⟩ => ⟨S2097152, .i32⟩
  | .hbm, ⟨54, _⟩ => ⟨S2097152x1, .i32⟩
  | .hbm, ⟨55, _⟩ => ⟨S2097152x128, .f32⟩
  | .hbm, ⟨56, _⟩ => ⟨S2097152x1, .f32⟩
  | .hbm, ⟨57, _⟩ => ⟨S2097152x128, .f32⟩
  | .hbm, ⟨58, _⟩ => ⟨S2097152x128, .f32⟩
  | .hbm, ⟨59, _⟩ => ⟨S_, .f32⟩
  | .hbm, ⟨60, _⟩ => ⟨S131072x128, .f32⟩
  | .hbm, ⟨61, _⟩ => ⟨S2097152x1, .i32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S1x128, .f32⟩
  | .hbm, ⟨67, _⟩ => ⟨S131072x128, .f32⟩
  | .hbm, ⟨68, _⟩ => ⟨S131072x128, .f32⟩
  | .hbm, ⟨69, _⟩ => ⟨S_, .f32⟩
  | .hbm, ⟨70, _⟩ => ⟨S131072x128, .f32⟩
  | .hbm, ⟨71, _⟩ => ⟨S131072x128, .f32⟩
  | .hbm, ⟨72, _⟩ => ⟨S131072x128, .f32⟩
  | .hbm, ⟨73, _⟩ => ⟨S_, .i32⟩
  | .hbm, ⟨74, _⟩ => ⟨S2097152, .i32⟩
  | .hbm, ⟨75, _⟩ => ⟨S2097152, .i1⟩
  | .hbm, ⟨76, _⟩ => ⟨S_, .i32⟩
  | .hbm, ⟨77, _⟩ => ⟨S2097152, .i32⟩
  | .hbm, ⟨78, _⟩ => ⟨S2097152, .i32⟩
  | .hbm, ⟨79, _⟩ => ⟨S2097152, .i32⟩
  | .hbm, ⟨80, _⟩ => ⟨S2097152x1, .i32⟩
  | .hbm, ⟨81, _⟩ => ⟨S2097152x128, .f32⟩
  | .hbm, ⟨82, _⟩ => ⟨S2097152x1, .f32⟩
  | .hbm, ⟨83, _⟩ => ⟨S2097152x128, .f32⟩
  | .hbm, ⟨84, _⟩ => ⟨S2097152x128, .f32⟩
  | .hbm, ⟨85, _⟩ => ⟨S_, .f32⟩
  | .hbm, ⟨86, _⟩ => ⟨S131072x128, .f32⟩
  | .hbm, ⟨87, _⟩ => ⟨S2097152x1, .i32⟩
  | .hbm, ⟨88, _⟩ => ⟨S131072x128, .f32⟩
  | .hbm, ⟨89, _⟩ => ⟨S131072x128, .f32⟩
  | .hbm, ⟨90, _⟩ => ⟨S131072x128, .f32⟩
  | .hbm, ⟨91, _⟩ => ⟨S131072x128, .f32⟩
  | .hbm, ⟨92, _⟩ => ⟨S1x128, .f32⟩
  | .hbm, ⟨93, _⟩ => ⟨S131072x128, .f32⟩
  | .hbm, ⟨94, _⟩ => ⟨S131072x128, .f32⟩
  | .hbm, ⟨95, _⟩ => ⟨S131072x64, .f32⟩
  | .hbm, ⟨96, _⟩ => ⟨S131072x64, .f32⟩
  | .hbm, ⟨97, _⟩ => ⟨S_, .f32⟩
  | .hbm, ⟨98, _⟩ => ⟨S131072x64, .f32⟩
  | .hbm, ⟨99, _⟩ => ⟨S131072x64, .f32⟩
  | .hbm, ⟨100, _⟩ => ⟨S131072x64, .f32⟩
  | .hbm, ⟨101, _⟩ => ⟨S131072x64, .f32⟩
  | .hbm, ⟨102, _⟩ => ⟨S131072x64, .f32⟩
  | .hbm, ⟨103, _⟩ => ⟨S131072x128, .f32⟩
  | .hbm, ⟨104, _⟩ => ⟨S1x128, .f32⟩
  | .hbm, ⟨105, _⟩ => ⟨S131072x128, .f32⟩
  | .hbm, ⟨106, _⟩ => ⟨S131072x128, .f32⟩
  | .hbm, ⟨107, _⟩ => ⟨S_, .f32⟩
  | .hbm, ⟨108, _⟩ => ⟨S131072x128, .f32⟩
  | .hbm, ⟨109, _⟩ => ⟨S131072x128, .f32⟩
  | .hbm, ⟨110, _⟩ => ⟨S131072x3, .f32⟩
  | .hbm, ⟨111, _⟩ => ⟨S1x3, .f32⟩
  | .hbm, ⟨112, _⟩ => ⟨S131072x3, .f32⟩
  | .hbm, ⟨113, _⟩ => ⟨S131072x3, .f32⟩
  | .hbm, ⟨114, _⟩ => ⟨S64x2048x3, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_call1_cst : Ref sig .tc := ⟨.hbm, 107, rfl⟩
abbrev main_call1_v0 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S2097152x1_S2097152x128_0_1 : S2097152x1.BroadcastsInDim S2097152x128 (![0, 1] : Fin 2 → Fin S2097152x128.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  slices_S131072x128_S131072x64_0_0 : S131072x128.Slices ![0, 0] S131072x64
  slices_S131072x128_S131072x64_0_64 : S131072x128.Slices ![0, 64] S131072x64
  bcast_S_S131072x64 : S_.BroadcastsInDim S131072x64 (![] : Fin 0 → Fin S131072x64.rank)
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  shapeCasts_S131072x3_S64x2048x3 : S131072x3.ShapeCasts S64x2048x3
  scatter_S131072_S2097152x1_S2097152_n_0_0_1_wf : ScatterDims.WF S131072 S2097152x1 S2097152 [] [0] [0] 1
  gather_S131072_S2097152x1_S2097152_n_0_n_n_0_1_1_wf : GatherDims.WF S131072 S2097152x1 S2097152 [] [0] [] [0] [] 1 ![1]
  dot_S131072x3_S3x128_S131072x128_1_0_0_1_n_n_wf : DotDims.WF S131072x3 S3x128 S131072x128 [1] [0] [0] [1] [] []
  gather_S131072x128_S2097152x1_S2097152x128_1_0_n_n_0_1_1128_wf : GatherDims.WF S131072x128 S2097152x1 S2097152x128 [1] [0] [] [0] [] 1 ![1, 128]
  scatter_S131072x128_S2097152x1_S2097152x128_1_0_0_1_wf : ScatterDims.WF S131072x128 S2097152x1 S2097152x128 [1] [0] [0] 1
  dot_S131072x128_S128x128_S131072x128_1_0_0_1_n_n_wf : DotDims.WF S131072x128 S128x128 S131072x128 [1] [0] [0] [1] [] []
  dot_S131072x64_S64x128_S131072x128_1_0_0_1_n_n_wf : DotDims.WF S131072x64 S64x128 S131072x128 [1] [0] [0] [1] [] []
  dot_S131072x128_S128x3_S131072x3_1_0_0_1_n_n_wf : DotDims.WF S131072x128 S128x3 S131072x3 [1] [0] [0] [1] [] []

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072_S2097152x1_S2097152_n_0_n_n_0_1_1 : GatherDims S131072 S2097152x1 S2097152 where
  offsetDims := []
  collapsedSliceDims := [0]
  operandBatchingDims := []
  startIndicesBatchingDims := []
  startIndexMap := [0]
  indexVectorDim := 1
  sliceSizes := ![1]
  wf := gather_S131072_S2097152x1_S2097152_n_0_n_n_0_1_1_wf
def dot_S131072x3_S3x128_S131072x128_1_0_0_1_n_n : DotDims S131072x3 S3x128 S131072x128 where
  lhsContracting := [1]
  rhsContracting := [0]
  lhsNonContracting := [0]
  rhsNonContracting := [1]
  lhsBatch := []
  rhsBatch := []
  wf := dot_S131072x3_S3x128_S131072x128_1_0_0_1_n_n_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S131072x128_S128x3_S131072x3_1_0_0_1_n_n : DotDims S131072x128 S128x3 S131072x3 where
  lhsContracting := [1]
  rhsContracting := [0]
  lhsNonContracting := [0]
  rhsNonContracting := [1]
  lhsBatch := []
  rhsBatch := []
  wf := dot_S131072x128_S128x3_S131072x3_1_0_0_1_n_n_wf

class Facts : Prop extends Facts₀ where

variable [Facts]
-- ==== Proof.KernelRun.lean ====
/-
  The idealized kernel's run with every buffer after the run NAMED: the program is five stretches (host operations,
  the first pallas_call, host operations, the second pallas_call, one reshape), and after the last stretch every
  unscoped buffer of a TensorCore holds the fold of those stretches over the launch memory.
-/
import proofs.«107887_j53420803228324_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    TensorCore ends at the last boundary's contents: the fold of the five stretches over the launch memory. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.RunValues

end
-- ==== Proof.KernelTerms.lean ====
/-
  The host side of the kernel program as named whole-array terms of the arguments: the edge list split into its
  source and destination rows, jnp's wrap of a negative index, the degree normalisation 1/sqrt(in-degree + 1) as a
  vector and as a column, and the two aggregations - scale the rows by the normalisation, gather them at the sources, sum
  them at the destinations, scale the sums by the destination's normalisation.
-/
import proofs.«107887_j53420803228324_2_alg».proof.Proof.Gen.KernelIdeal.Frame
import Idealize.ShloMosaic.Lib.StableHlo.Run
import Idealize.ShloMosaic.PureOps.Ideal

set_option maxRecDepth 16384

noncomputable section

namespace Cert.KernelIdeal.Terms

open Cert.KernelIdeal Cert.KernelIdeal.Gen
open Idealize.ShloMosaic Idealize.ShloMosaic.TcCoe Idealize.SL.Sem Idealize.ShloMosaic.StableHlo

/-- The source rows of the edges. -/
def rowT (E : IVec S2x2097152 32) : IVec S2097152 32 :=
  shapeCast _ (extractStridedSlice S1x2097152 ![0, 0] E slices_S2x2097152_S1x2097152_0_0) shapeCasts_S1x2097152_S2097152

/-- The destination rows of the edges. -/
def colT (E : IVec S2x2097152 32) : IVec S2097152 32 :=
  shapeCast _ (extractStridedSlice S1x2097152 ![1, 0] E slices_S2x2097152_S1x2097152_1_0) shapeCasts_S1x2097152_S2097152

/-- jnp's wrap of a negative index: where(r < 0, r + 131072, r). -/
def wrapT (r : IVec S2097152 32) : IVec S2097152 32 :=
  select (cmpi .slt r (broadcastInDim S2097152 ![] bcast_S_S2097152 (constantI S_ 32 0#32)))
    (addi r (broadcastInDim S2097152 ![] bcast_S_S2097152 (constantI S_ 32 131072#32))) r

/-- The degree normalisation: the reciprocal square root of the in-degree plus one. -/
def dinvT (E : IVec S2x2097152 32) : FVec Ideal S131072 .f32 :=
  Host.rsqrt (addf
    (Host.scatterAdd scatter_S131072_S2097152x1_S2097152_n_0_0_1
      (broadcastInDim S131072 ![] bcast_S_S131072 (constant S_ .f32 0x00000000#32))
      (broadcastInDim S2097152x1 ![0] bcast_S2097152_S2097152x1_0 (colT E))
      (broadcastInDim S2097152 ![] bcast_S_S2097152 (constant S_ .f32 0x3F800000#32)))
    (broadcastInDim S131072 ![] bcast_S_S131072 (constant S_ .f32 0x3F800000#32)))

/-- The same laid down a column. -/
def d2T (E : IVec S2x2097152 32) : FVec Ideal S131072x1 .f32 :=
  broadcastInDim S131072x1 ![0] bcast_S131072_S131072x1_0 (dinvT E)

/-- The first aggregation, on the three raw features. -/
def aggxT (x : FVec Ideal S131072x3 .f32) (E : IVec S2x2097152 32) : FVec Ideal S131072x3 .f32 :=
  mulf (broadcastInDim S131072x3 ![0, 1] bcast_S131072x1_S131072x3_0_1 (d2T E))
    (Host.scatterAdd scatter_S131072x3_S2097152x1_S2097152x3_1_0_0_1
      (broadcastInDim S131072x3 ![] bcast_S_S131072x3 (constant S_ .f32 0x00000000#32))
      (broadcastInDim S2097152x1 ![0] bcast_S2097152_S2097152x1_0 (colT E))
      (Host.gather gather_S131072x3_S2097152x1_S2097152x3_1_0_n_n_0_1_13
        (mulf x (broadcastInDim S131072x3 ![0, 1] bcast_S131072x1_S131072x3_0_1 (d2T E)))
        (broadcastInDim S2097152x1 ![0] bcast_S2097152_S2097152x1_0 (wrapT (rowT E)))))

/-- The second aggregation, on 128 features already scaled by the source's normalisation. -/
def agg2T (d2 : FVec Ideal S131072x1 .f32) (hsc : FVec Ideal S131072x128 .f32) (r c : IVec S2097152 32) :
    FVec Ideal S131072x128 .f32 :=
  mulf (broadcastInDim S131072x128 ![0, 1] bcast_S131072x1_S131072x128_0_1 d2)
    (Host.scatterAdd scatter_S131072x128_S2097152x1_S2097152x128_1_0_0_1
      (broadcastInDim S131072x128 ![] bcast_S_S131072x128 (constant S_ .f32 0x00000000#32))
      (broadcastInDim S2097152x1 ![0] bcast_S2097152_S2097152x1_0 c)
      (Host.gather gather_S131072x128_S2097152x1_S2097152x128_1_0_n_n_0_1_1128 hsc
        (broadcastInDim S2097152x1 ![0] bcast_S2097152_S2097152x1_0 (wrapT r))))

end Cert.KernelIdeal.Terms

end
-- ==== Proof.KernelHost0.lean ====
/-
  The first stretch of host operations, read: from any contents Z of the buffers, after the stretch the aggregated
  raw features, the normalisation column and the two edge-row vectors hold their named terms of the arguments, and the
  arguments are as before.
-/
import proofs.«107887_j53420803228324_2_alg».proof.Proof.Gen.KernelIdeal.Frame
import Idealize.ShloMosaic.Lib.StableHlo.Run
import Idealize.ShloMosaic.PureOps.Ideal
import proofs.«107887_j53420803228324_2_alg».proof.Proof.KernelTerms

set_option maxRecDepth 16384

noncomputable section

namespace Cert.KernelIdeal.Host0

open Cert.KernelIdeal Cert.KernelIdeal.Gen
open Idealize.ShloMosaic Idealize.ShloMosaic.TcCoe Idealize.SL.Sem Idealize.ShloMosaic.StableHlo
open Cert.KernelIdeal.Terms

set_option maxHeartbeats 4000000

variable (Z : Valuation τ sig (Elt Ideal))

theorem v25 : StableHlo.after (hostOps0 (F := Ideal)) Z (Proc.devRef .tc main_v25)
    = aggxT (Z (Proc.devRef .tc main_arg0)) (Z (Proc.devRef .tc main_arg10)) := by
  unfold hostOps0
  after_results
  rfl

theorem v11 : StableHlo.after (hostOps0 (F := Ideal)) Z (Proc.devRef .tc main_v11) = d2T (Z (Proc.devRef .tc main_arg10)) := by
  unfold hostOps0
  after_results
  rfl

theorem v1 : StableHlo.after (hostOps0 (F := Ideal)) Z (Proc.devRef .tc main_v1) = rowT (Z (Proc.devRef .tc main_arg10)) := by
  unfold hostOps0
  after_results
  rfl

theorem v3 : StableHlo.after (hostOps0 (F := Ideal)) Z (Proc.devRef .tc main_v3) = colT (Z (Proc.devRef .tc main_arg10)) := by
  unfold hostOps0
  after_results
  rfl

end Cert.KernelIdeal.Host0

end
-- ==== Proof.KernelHost0Args.lean ====
/-
  The first stretch of host operations writes none of the float arguments.
-/
import proofs.«107887_j53420803228324_2_alg».proof.Proof.Gen.KernelIdeal.Frame
import Idealize.ShloMosaic.Lib.StableHlo.Run
import Idealize.ShloMosaic.PureOps.Ideal

set_option maxRecDepth 16384

noncomputable section

namespace Cert.KernelIdeal.Host0Args

open Cert.KernelIdeal Cert.KernelIdeal.Gen
open Idealize.ShloMosaic Idealize.ShloMosaic.TcCoe Idealize.SL.Sem Idealize.ShloMosaic.StableHlo

set_option maxHeartbeats 4000000

variable (Z : Valuation τ sig (Elt Ideal))

theorem arg0 : StableHlo.after (hostOps0 (F := Ideal)) Z (Proc.devRef .tc main_arg0) = Z (Proc.devRef .tc main_arg0) := by
  unfold hostOps0; after_results
theorem arg1 : StableHlo.after (hostOps0 (F := Ideal)) Z (Proc.devRef .tc main_arg1) = Z (Proc.devRef .tc main_arg1) := by
  unfold hostOps0; after_results
theorem arg2 : StableHlo.after (hostOps0 (F := Ideal)) Z (Proc.devRef .tc main_arg2) = Z (Proc.devRef .tc main_arg2) := by
  unfold hostOps0; after_results
theorem arg3 : StableHlo.after (hostOps0 (F := Ideal)) Z (Proc.devRef .tc main_arg3) = Z (Proc.devRef .tc main_arg3) := by
  unfold hostOps0; after_results
theorem arg4 : StableHlo.after (hostOps0 (F := Ideal)) Z (Proc.devRef .tc main_arg4) = Z (Proc.devRef .tc main_arg4) := by
  unfold hostOps0; after_results
theorem arg5 : StableHlo.after (hostOps0 (F := Ideal)) Z (Proc.devRef .tc main_arg5) = Z (Proc.devRef .tc main_arg5) := by
  unfold hostOps0; after_results
theorem arg6 : StableHlo.after (hostOps0 (F := Ideal)) Z (Proc.devRef .tc main_arg6) = Z (Proc.devRef .tc main_arg6) := by
  unfold hostOps0; after_results
theorem arg7 : StableHlo.after (hostOps0 (F := Ideal)) Z (Proc.devRef .tc main_arg7) = Z (Proc.devRef .tc main_arg7) := by
  unfold hostOps0; after_results
theorem arg8 : StableHlo.after (hostOps0 (F := Ideal)) Z (Proc.devRef .tc main_arg8) = Z (Proc.devRef .tc main_arg8) := by
  unfold hostOps0; after_results
theorem arg9 : StableHlo.after (hostOps0 (F := Ideal)) Z (Proc.devRef .tc main_arg9) = Z (Proc.devRef .tc main_arg9) := by
  unfold hostOps0; after_results

end Cert.KernelIdeal.Host0Args

end
-- ==== Proof.KernelHost1.lean ====
/-
  The second stretch of host operations (between the two pallas_calls), read: the second aggregation holds its named
  term of the buffers the stretch finds, and every other buffer the second pallas_call reads is as the stretch found it.
  The last stretch is one reshape.
-/
import proofs.«107887_j53420803228324_2_alg».proof.Proof.Gen.KernelIdeal.Frame
import Idealize.ShloMosaic.Lib.StableHlo.Run
import Idealize.ShloMosaic.PureOps.Ideal
import proofs.«107887_j53420803228324_2_alg».proof.Proof.KernelTerms

set_option maxRecDepth 16384

noncomputable section

namespace Cert.KernelIdeal.Host1

open Cert.KernelIdeal Cert.KernelIdeal.Gen
open Idealize.ShloMosaic Idealize.ShloMosaic.TcCoe Idealize.SL.Sem Idealize.ShloMosaic.StableHlo
open Cert.KernelIdeal.Terms

set_option maxHeartbeats 4000000

variable (Z : Valuation τ sig (Elt Ideal))

theorem v38 : StableHlo.after (hostOps1 (F := Ideal)) Z (Proc.devRef .tc main_v38)
    = agg2T (Z (Proc.devRef .tc main_v11)) (Z (Proc.devRef .tc main_v26_1)) (Z (Proc.devRef .tc main_v1)) (Z (Proc.devRef .tc main_v3)) := by
  unfold hostOps1
  after_results
  rfl

theorem v26_0 : StableHlo.after (hostOps1 (F := Ideal)) Z (Proc.devRef .tc main_v26_0) = Z (Proc.devRef .tc main_v26_0) := by
  unfold hostOps1; after_results
theorem v11 : StableHlo.after (hostOps1 (F := Ideal)) Z (Proc.devRef .tc main_v11) = Z (Proc.devRef .tc main_v11) := by
  unfold hostOps1; after_results
theorem arg1 : StableHlo.after (hostOps1 (F := Ideal)) Z (Proc.devRef .tc main_arg1) = Z (Proc.devRef .tc main_arg1) := by
  unfold hostOps1; after_results
theorem arg5 : StableHlo.after (hostOps1 (F := Ideal)) Z (Proc.devRef .tc main_arg5) = Z (Proc.devRef .tc main_arg5) := by
  unfold hostOps1; after_results
theorem arg6 : StableHlo.after (hostOps1 (F := Ideal)) Z (Proc.devRef .tc main_arg6) = Z (Proc.devRef .tc main_arg6) := by
  unfold hostOps1; after_results
theorem arg7 : StableHlo.after (hostOps1 (F := Ideal)) Z (Proc.devRef .tc main_arg7) = Z (Proc.devRef .tc main_arg7) := by
  unfold hostOps1; after_results
theorem arg8 : StableHlo.after (hostOps1 (F := Ideal)) Z (Proc.devRef .tc main_arg8) = Z (Proc.devRef .tc main_arg8) := by
  unfold hostOps1; after_results
theorem arg9 : StableHlo.after (hostOps1 (F := Ideal)) Z (Proc.devRef .tc main_arg9) = Z (Proc.devRef .tc main_arg9) := by
  unfold hostOps1; after_results

theorem v40 : StableHlo.after (hostOps2 (F := Ideal)) Z (Proc.devRef .tc main_v40)
    = shapeCast _ (Z (Proc.devRef .tc main_v39_2)) shapeCasts_S131072x3_S64x2048x3 := by
  unfold hostOps2
  after_results
  rfl
theorem v39_0 : StableHlo.after (hostOps2 (F := Ideal)) Z (Proc.devRef .tc main_v39_0) = Z (Proc.devRef .tc main_v39_0) := by
  unfold hostOps2; after_results
theorem v39_1 : StableHlo.after (hostOps2 (F := Ideal)) Z (Proc.devRef .tc main_v39_1) = Z (Proc.devRef .tc main_v39_1) := by
  unfold hostOps2; after_results

end Cert.KernelIdeal.Host1

end
-- ==== Proof.Spec.lean ====
/-
  The mathematics of the two programs, written once over the extended reals, coordinate by coordinate.

  A node n of the graph carries a row of features; an edge sends the source's row to the destination. One graph
  convolution at node n, column q, is  aggregated(n,q) + dense(n,q) * (dinv n * dinv n) + bias q,  where dense is
  the node features times a weight matrix and aggregated sums the normalised rows of dense over the edges into n.
  The decoder reads the second convolution's 128 columns as a mean (columns 0..63) and a log-variance (columns 64..127),
  draws  z = mean + eps * exp(1/2 * logvar),  and applies two dense layers with a rectifier between them.
-/
import Idealize.ShloMosaic.PureOps.Ideal
import Idealize.ShloMosaic.Lib.ValueIdx

noncomputable section

namespace Cert.Spec

open Idealize.ShloMosaic Idealize.ShloMosaic.ValueIdx

/-- The number of nodes. -/
abbrev Nn : ℕ := 131072
/-- A matrix and a vector of extended reals, indexed as the printed arrays are. -/
abbrev Mat (a b : ℕ) := (⟨2, ![a, b]⟩ : Shape).Idx → EReal
abbrev Vc (a : ℕ) := (⟨1, ![a]⟩ : Shape).Idx → EReal

/-- Row n of a against column q of w. -/
def dot {K M : ℕ} (a : Mat Nn K) (w : Mat K M) (n : Fin Nn) (q : Fin M) : EReal :=
  ∑ k : Fin K, a (ix2 n k) * w (ix2 k q)

/-- One graph convolution's combine at node n, column q: the aggregated messages, the self loop scaled by the
    node's squared normalisation (read off the column d2), and the bias. -/
def comb (agg hw : Fin Nn → Fin 128 → EReal) (d2 : Mat Nn 1) (b : Vc 128) (n : Fin Nn) (q : Fin 128) : EReal :=
  agg n q + hw n q * (d2 (ix2 n 0) * d2 (ix2 n 0)) + b (ix1 q)

/-- The first layer's activation when the aggregation was done on the raw three features aggx before the weights. -/
def h1K (x aggx : Mat Nn 3) (d2 : Mat Nn 1) (W1 : Mat 3 128) (b1 : Vc 128) (n : Fin Nn) (k : Fin 128) : EReal :=
  max (comb (dot aggx W1) (dot x W1) d2 b1 n k) 0

/-- The second layer's dense transform of that activation. -/
def hw2K (x aggx : Mat Nn 3) (d2 : Mat Nn 1) (W1 : Mat 3 128) (b1 : Vc 128) (W2 : Mat 128 128)
    (n : Fin Nn) (f : Fin 128) : EReal :=
  ∑ k : Fin 128, h1K x aggx d2 W1 b1 n k * W2 (ix2 k f)

/-- The same, already scaled by the node's normalisation for the second aggregation. -/
def hw2scK (x aggx : Mat Nn 3) (d2 : Mat Nn 1) (W1 : Mat 3 128) (b1 : Vc 128) (W2 : Mat 128 128)
    (n : Fin Nn) (f : Fin 128) : EReal :=
  hw2K x aggx d2 W1 b1 W2 n f * d2 (ix2 n 0)

/-- The second convolution's combine over whole arrays. -/
def h2K (agg2 hw2 : Mat Nn 128) (d2 : Mat Nn 1) (b2 : Vc 128) (n : Fin Nn) (q : Fin 128) : EReal :=
  comb (fun n q => agg2 (ix2 n q)) (fun n q => hw2 (ix2 n q)) d2 b2 n q

/-- Column q of the mean half and of the log-variance half of a 128-column row. -/
def lo (q : Fin 64) : Fin 128 := ⟨q.val, by omega⟩
def hi (q : Fin 64) : Fin 128 := ⟨64 + q.val, by omega⟩

/-- The literal one half. -/
def half : EReal := Ideal.ofBits .f32 0x3F000000#32

/-- The reparameterised sample from a second-layer output h2. -/
def zOf (h2 : Fin Nn → Fin 128 → EReal) (eps : Mat Nn 64) (n : Fin Nn) (q : Fin 64) : EReal :=
  h2 n (lo q) + eps (ix2 n q) * Ideal.exp (half * h2 n (hi q))

/-- The decoder's hidden layer. -/
def hdOf (h2 : Fin Nn → Fin 128 → EReal) (eps : Mat Nn 64) (Wd1 : Mat 64 128) (bd1 : Vc 128)
    (n : Fin Nn) (k : Fin 128) : EReal :=
  max ((∑ q : Fin 64, zOf h2 eps n q * Wd1 (ix2 q k)) + bd1 (ix1 k)) 0

/-- The reconstruction. -/
def reconOf (h2 : Fin Nn → Fin 128 → EReal) (eps : Mat Nn 64) (Wd1 : Mat 64 128) (bd1 : Vc 128)
    (Wd2 : Mat 128 3) (bd2 : Vc 3) (n : Fin Nn) (j : Fin 3) : EReal :=
  (∑ k : Fin 128, hdOf h2 eps Wd1 bd1 n k * Wd2 (ix2 k j)) + bd2 (ix1 j)

end Cert.Spec

end
-- ==== Proof.KernelResults.lean ====
/-
  What the kernel program computes, as whole-array functions of the arguments: the first pallas_call's two outputs
  from the node features, their aggregation and the normalisation column; the second aggregation of the scaled output; and
  the second pallas_call's three outputs (mean, log-variance, reconstruction) from those.
-/
import proofs.«107887_j53420803228324_2_alg».proof.Proof.Gen.KernelIdeal.Frame
import Idealize.ShloMosaic.Lib.StableHlo.Run
import Idealize.ShloMosaic.PureOps.Ideal
import proofs.«107887_j53420803228324_2_alg».proof.Proof.KernelTerms
import proofs.«107887_j53420803228324_2_alg».proof.Proof.Spec

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo
open Cert.KernelIdeal.Terms Cert.Spec

variable (a0 : FVec Ideal S131072x3 .f32) (a1 : FVec Ideal S131072x64 .f32) (a2 : FVec Ideal S3x128 .f32)
  (a3 : FVec Ideal S128 .f32) (a4 : FVec Ideal S128x128 .f32) (a5 : FVec Ideal S128 .f32) (a6 : FVec Ideal S64x128 .f32)
  (a7 : FVec Ideal S128 .f32) (a8 : FVec Ideal S128x3 .f32) (a9 : FVec Ideal S3 .f32) (E : IVec S2x2097152 32)

/-- The second layer's dense transform, as the first pallas_call writes it. -/
def hw2A : FVec Ideal S131072x128 .f32 := fun i => hw2K a0 (aggxT a0 E) (d2T E) a2 a3 a4 (i 0) (i 1)
/-- The same scaled by the node's normalisation. -/
def hw2scA : FVec Ideal S131072x128 .f32 := fun i => hw2scK a0 (aggxT a0 E) (d2T E) a2 a3 a4 (i 0) (i 1)
/-- The second aggregation. -/
def agg2A : FVec Ideal S131072x128 .f32 := agg2T (d2T E) (hw2scA a0 a2 a3 a4 E) (rowT E) (colT E)
/-- The second convolution's output at node n, column q. -/
def out2A (n : Fin 131072) (q : Fin 128) : EReal := h2K (agg2A a0 a2 a3 a4 E) (hw2A a0 a2 a3 a4 E) (d2T E) a5 n q
/-- The three results. -/
def meanA : FVec Ideal S131072x64 .f32 := fun i => out2A a0 a2 a3 a4 a5 E (i 0) (lo (i 1))
def logvarA : FVec Ideal S131072x64 .f32 := fun i => out2A a0 a2 a3 a4 a5 E (i 0) (hi (i 1))
def reconA : FVec Ideal S131072x3 .f32 := fun i => reconOf (out2A a0 a2 a3 a4 a5 E) a1 a6 a7 a8 a9 (i 0) (i 1)

end Cert.KernelIdeal.Results

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.Region0.lean ====
/-
  The first kernel region's two output arrays as whole-array functions of its six input arrays.

  The region walks 32 blocks of 4096 nodes. At block t it reads rows 4096 t … 4096 t + 4095 of the node features x,
  of the aggregated features aggx and of the normalisation column d2, together with the whole first weights W1,
  bias b1 and second weights W2, and writes the same rows of two [131072,128] outputs: for node n and column q,

    hw2 (n, q)   = ∑ k, max (aggx(n,·)·W1(·,k) + x(n,·)·W1(·,k) * (d2 n * d2 n) + b1 k) 0 * W2 (k, q),
    hw2sc (n, q) = hw2 (n, q) * d2 n.

  Each row of an output depends only on the same row of the row-blocked inputs, so the value a block's point writes
  is the restriction of one whole-array function to that block's rows; the 32 blocks tile the 131072 rows (row r is
  in block r / 4096), so after the region each output array is that function. The arithmetic is read entry by
  entry on the extended reals: a matrix product into the zero splat is the sum over the contracted index, a column
  broadcast along a row reads the row's entry, a bias broadcast down the rows reads the column's entry, and the
  rectifier is the maximum with zero.
-/
import proofs.«107887_j53420803228324_2_alg».proof.Proof.Gen.KernelIdeal.Frame
import proofs.«107887_j53420803228324_2_alg».proof.Proof.Spec
import proofs.«107887_j53420803228324_2_alg».proof.Proof.LibPlainMatmul
import proofs.«107887_j53420803228324_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.Region0

open Cert.KernelIdeal Cert.KernelIdeal.Gen Cert.Spec Idealize.ShloMosaic Idealize.ShloMosaic.ValueIdx
open Idealize.ShloMosaic.TcCoe Idealize.SL.Sem
open Idealize.ShloMosaic.Pipeline (Dat)

/-! ## The body's arithmetic at one entry of a block -/

/-- A [4096,3] block times the [3,128] weights into the zero splat, at row p and column k. -/
theorem mm3_apply (x : FVec Ideal S4096x3 .f32) (w : FVec Ideal S3x128 .f32) (p : Fin 4096) (k : Fin 128) :
    matmul (F := Ideal) dot_S4096x3_S3x128_S4096x128_1_0_0_1_n_n none x w (constant (F := Ideal) S4096x128 .f32 0x00000000#32) (ix2 p k)
      = ∑ j : Fin 3, x (ix2 p j) * w (ix2 j k) :=
  Cert.Lib.PlainMatmul.matmul_zero_apply dot_S4096x3_S3x128_S4096x128_1_0_0_1_n_n rfl rfl rfl rfl rfl rfl none x w p k

/-- A [4096,128] block times the [128,128] weights into the zero splat, at row p and column q. -/
theorem mm128_apply (h : FVec Ideal S4096x128 .f32) (w : FVec Ideal S128x128 .f32) (p : Fin 4096) (q : Fin 128) :
    matmul (F := Ideal) dot_S4096x128_S128x128_S4096x128_1_0_0_1_n_n none h w (constant (F := Ideal) S4096x128 .f32 0x00000000#32) (ix2 p q)
      = ∑ k : Fin 128, h (ix2 p k) * w (ix2 k q) :=
  Cert.Lib.PlainMatmul.matmul_zero_apply dot_S4096x128_S128x128_S4096x128_1_0_0_1_n_n rfl rfl rfl rfl rfl rfl none h w p q

/-- The first stored payload at row p, column q of the block: the rectified first-layer combine of row p against
    column q of the second weights. -/
theorem pay2_apply (v0 : FVec Ideal S4096x1 .f32) (v3 : FVec Ideal S4096x3 .f32) (v4 : FVec Ideal S3x128 .f32)
    (v6 : FVec Ideal S4096x3 .f32) (v8 : FVec Ideal S3x128 .f32) (v13 : FVec Ideal S128 .f32) (v19 : FVec Ideal S128x128 .f32)
    (p : Fin 4096) (q : Fin 128) :
    k0_pay2 v0 v3 v4 v6 v8 v13 v19 (ix2 p q)
      = ∑ k : Fin 128, max ((∑ j : Fin 3, v6 (ix2 p j) * v8 (ix2 j k)) + (∑ j : Fin 3, v3 (ix2 p j) * v4 (ix2 j k))
          * (v0 (ix2 p 0) * v0 (ix2 p 0)) + v13 (ix1 k)) 0 * v19 (ix2 k q) := by
  unfold k0_pay2 k0_pay1
  refine (mm128_apply _ v19 p q).trans (Finset.sum_congr rfl fun k _ => congrArg (· * v19 (ix2 k q)) ?_)
  have h9 : matmul (F := Ideal) dot_S4096x3_S3x128_S4096x128_1_0_0_1_n_n none (shapeCast S4096x3 v6 shapeCasts_S4096x3_S4096x3) v8
      (constant (F := Ideal) S4096x128 .f32 0x00000000#32) (ix2 p k) = ∑ j : Fin 3, v6 (ix2 p j) * v8 (ix2 j k) := by
    rw [shapeCast_self]; exact mm3_apply v6 v8 p k
  have h5 := mm3_apply v3 v4 p k
  have h10 : broadcastTo S4096x128 (mulf (F := Ideal) (shapeCast S4096x1 v0 shapeCasts_S4096x1_S4096x1) (shapeCast S4096x1 v0 shapeCasts_S4096x1_S4096x1))
      broadcasts_S4096x1_S4096x128 (ix2 p k) = v0 (ix2 p 0) * v0 (ix2 p 0) := by
    rw [shapeCast_self]; exact ColumnLayout.broadcastTo_a1_ab_apply _ _ p k
  have h15 : broadcastTo S4096x128 (shapeCast S1x128 v13 shapeCasts_S128_S1x128) broadcasts_S1x128_S4096x128 (ix2 p k) = v13 (ix1 k) :=
    (broadcastTo_1b_ab_apply _ _ p k).trans (shapeCast_a_1a_apply v13 _ 0 k)
  have h17 : (FloatOps.ofBits (F := Ideal) .f32 0x00000000#32) = 0 := Ideal.ofBits_zero_f32
  exact congrArg₂ max (congrArg₂ (· + ·) (congrArg₂ (· + ·) h9 (congrArg₂ (· * ·) h5 h10)) h15) h17

/-- The second stored payload: the first scaled by the row's normalisation. -/
theorem pay3_apply (v0 : FVec Ideal S4096x1 .f32) (v3 : FVec Ideal S4096x3 .f32) (v4 : FVec Ideal S3x128 .f32)
    (v6 : FVec Ideal S4096x3 .f32) (v8 : FVec Ideal S3x128 .f32) (v13 : FVec Ideal S128 .f32) (v19 : FVec Ideal S128x128 .f32)
    (p : Fin 4096) (q : Fin 128) :
    k0_pay3 v0 v3 v4 v6 v8 v13 v19 (ix2 p q) = k0_pay2 v0 v3 v4 v6 v8 v13 v19 (ix2 p q) * v0 (ix2 p 0) := by
  unfold k0_pay3 k0_pay1
  have h22 : broadcastTo S4096x128 (shapeCast S4096x1 v0 shapeCasts_S4096x1_S4096x1) broadcasts_S4096x1_S4096x128 (ix2 p q) = v0 (ix2 p 0) := by
    rw [shapeCast_self]; exact ColumnLayout.broadcastTo_a1_ab_apply _ _ p q
  exact congrArg (k0_pay2 v0 v3 v4 v6 v8 v13 v19 (ix2 p q) * ·) h22

/-! ## Rows of an array -/

theorem hz : (![0, 0] : Fin 2 → Nat) = fun _ => 0 := funext fun a => by fin_cases a <;> rfl
theorem hz1 : (![0] : Fin 1 → Nat) = fun _ => 0 := funext fun a => by fin_cases a <;> rfl

/-- Row p of the t-th block of 4096 rows, as a row of an array with 131072 rows. -/
def rowAt (t : Fin 32) (p : Fin 4096) : Fin 131072 := ⟨t.val * 4096 + p.val, by have h1 := t.isLt; have h2 := p.isLt; omega⟩

/-- Rows 4096 t … 4096 t + 4095 of an array with 131072 rows, as a block with 4096 rows. -/
def rowsOf {b : ℕ} (A : (⟨2, ![131072, b]⟩ : Shape).Idx → EReal) (t : Fin 32) : (⟨2, ![4096, b]⟩ : Shape).Idx → EReal :=
  fun y => A (ix2 (rowAt t ⟨(y 0).val, idx2_lt0 y⟩) (y 1))

/-- On the t-th row blocks of the features, the aggregated features and the normalisation column, and the whole
    weights and bias, the first payload at row p is the second layer's dense transform at node 4096 t + p. -/
theorem pay2_rows (x aggx : Mat Nn 3) (d2 : Mat Nn 1) (W1 : Mat 3 128) (b1 : Vc 128) (W2 : Mat 128 128)
    (t : Fin 32) (p : Fin 4096) (q : Fin 128) :
    k0_pay2 (F := Ideal) (rowsOf d2 t) (rowsOf x t) W1 (rowsOf aggx t) W1 b1 W2 (ix2 p q)
      = hw2K x aggx d2 W1 b1 W2 (rowAt t p) q :=
  (pay2_apply (rowsOf d2 t) (rowsOf x t) W1 (rowsOf aggx t) W1 b1 W2 p q).trans rfl

/-- and the second payload is that, scaled by the node's normalisation. -/
theorem pay3_rows (x aggx : Mat Nn 3) (d2 : Mat Nn 1) (W1 : Mat 3 128) (b1 : Vc 128) (W2 : Mat 128 128)
    (t : Fin 32) (p : Fin 4096) (q : Fin 128) :
    k0_pay3 (F := Ideal) (rowsOf d2 t) (rowsOf x t) W1 (rowsOf aggx t) W1 b1 W2 (ix2 p q)
      = hw2scK x aggx d2 W1 b1 W2 (rowAt t p) q :=
  (pay3_apply (rowsOf d2 t) (rowsOf x t) W1 (rowsOf aggx t) W1 b1 W2 p q).trans
    (congrArg (· * d2 (ix2 (rowAt t p) 0)) (pay2_rows x aggx d2 W1 b1 W2 t p q))

/-! ## The region's input blocks as rows of its input arrays -/

/-- The grid's point as a number below 32. -/
def pt (t : Fin cfg0.N) : Fin 32 := ⟨t.val, by have h := t.isLt; have hN : cfg0.N = 32 := N_0; omega⟩

/-- The printed index maps, decided over the grid: the row-blocked windows sit at block (t, 0), the weights' and
    bias's windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

section Blocks
variable (V : (c : Dev nD) → (b : Ref sig .tc) → Buf (Elt Ideal) ((c : Thread nD τ).loc b))

/-- The feature window's block at point t is rows 4096 t … of the feature array. -/
theorem iblk_0 (c : Dev nD) (t : Fin cfg0.N) :
    (iblk0 V c 0 t : Vec Ideal S4096x3 .f32) = rowsOf (V c (Pipeline.arrRef spec0 0) : S131072x3.Idx → EReal) (pt t) := by
  obtain ⟨e0, e1, -⟩ := idx_facts t
  funext y
  unfold iblk0 rowsOf
  rw [View.read_apply]
  refine congrArg (V c (Pipeline.arrRef spec0 0) : S131072x3.Idx → EReal) (funext fun a => Fin.ext ?_)
  match a with
  | ⟨0, _⟩ => show win0_0.index t (0 : Fin 2) * 4096 + 1 * (y 0).val = t.val * 4096 + (y 0).val; rw [e0]; omega
  | ⟨1, _⟩ => show win0_0.index t (1 : Fin 2) * 3 + 1 * (y 1).val = (y 1).val; rw [e1]; omega

/-- The aggregated-feature window's block at point t is rows 4096 t … of its array. -/
theorem iblk_1 (c : Dev nD) (t : Fin cfg0.N) :
    (iblk0 V c 1 t : Vec Ideal S4096x3 .f32) = rowsOf (V c (Pipeline.arrRef spec0 1) : S131072x3.Idx → EReal) (pt t) := by
  obtain ⟨-, -, e0, e1, -⟩ := idx_facts t
  funext y
  unfold iblk0 rowsOf
  rw [View.read_apply]
  refine congrArg (V c (Pipeline.arrRef spec0 1) : S131072x3.Idx → EReal) (funext fun a => Fin.ext ?_)
  match a with
  | ⟨0, _⟩ => show win0_1.index t (0 : Fin 2) * 4096 + 1 * (y 0).val = t.val * 4096 + (y 0).val; rw [e0]; omega
  | ⟨1, _⟩ => show win0_1.index t (1 : Fin 2) * 3 + 1 * (y 1).val = (y 1).val; rw [e1]; omega

/-- The normalisation column's block at point t is rows 4096 t … of the column. -/
theorem iblk_2 (c : Dev nD) (t : Fin cfg0.N) :
    (iblk0 V c 2 t : Vec Ideal S4096x1 .f32) = rowsOf (V c (Pipeline.arrRef spec0 2) : S131072x1.Idx → EReal) (pt t) := by
  obtain ⟨-, -, -, -, e0, e1, -⟩ := idx_facts t
  funext y
  unfold iblk0 rowsOf
  rw [View.read_apply]
  refine congrArg (V c (Pipeline.arrRef spec0 2) : S131072x1.Idx → EReal) (funext fun a => Fin.ext ?_)
  match a with
  | ⟨0, _⟩ => show win0_2.index t (0 : Fin 2) * 4096 + 1 * (y 0).val = t.val * 4096 + (y 0).val; rw [e0]; omega
  | ⟨1, _⟩ => show win0_2.index t (1 : Fin 2) * 1 + 1 * (y 1).val = (y 1).val; rw [e1]; omega

/-- The first weights' window holds the whole matrix at every point. -/
theorem iblk_3 (c : Dev nD) (t : Fin cfg0.N) :
    (iblk0 V c 3 t : Vec Ideal S3x128 .f32) = (V c (Pipeline.arrRef spec0 3) : S3x128.Idx → EReal) := by
  obtain ⟨-, -, -, -, -, -, e0, e1, -⟩ := idx_facts t
  funext y
  unfold iblk0
  rw [View.read_apply]
  refine congrArg (V c (Pipeline.arrRef spec0 3) : S3x128.Idx → EReal) (funext fun a => Fin.ext ?_)
  match a with
  | ⟨0, _⟩ => show win0_3.index t (0 : Fin 2) * 3 + 1 * (y 0).val = (y 0).val; rw [e0]; omega
  | ⟨1, _⟩ => show win0_3.index t (1 : Fin 2) * 128 + 1 * (y 1).val = (y 1).val; rw [e1]; omega

/-- The bias's window holds the whole vector at every point. -/
theorem iblk_4 (c : Dev nD) (t : Fin cfg0.N) :
    (iblk0 V c 4 t : Vec Ideal S128 .f32) = (V c (Pipeline.arrRef spec0 4) : S128.Idx → EReal) := by
  obtain ⟨-, -, -, -, -, -, -, -, e0, -⟩ := idx_facts t
  funext y
  unfold iblk0
  rw [View.read_apply]
  refine congrArg (V c (Pipeline.arrRef spec0 4) : S128.Idx → EReal) (funext fun a => Fin.ext ?_)
  match a with
  | ⟨0, _⟩ => show win0_4.index t (0 : Fin 1) * 128 + 1 * (y 0).val = (y 0).val; rw [e0]; omega

/-- The second weights' window holds the whole matrix at every point. -/
theorem iblk_5 (c : Dev nD) (t : Fin cfg0.N) :
    (iblk0 V c 5 t : Vec Ideal S128x128 .f32) = (V c (Pipeline.arrRef spec0 5) : S128x128.Idx → EReal) := by
  obtain ⟨-, -, -, -, -, -, -, -, -, e0, e1, -⟩ := idx_facts t
  funext y
  unfold iblk0
  rw [View.read_apply]
  refine congrArg (V c (Pipeline.arrRef spec0 5) : S128x128.Idx → EReal) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-! ## What each point writes back, and the two output arrays -/

/-- The second layer's dense transform as one function of the region's six input arrays. -/
abbrev hw2G (c : Dev nD) : S131072x128.Idx → EReal := fun i =>
  hw2K (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) (i 0) (i 1)

/-- The same scaled by each node's normalisation. -/
abbrev hw2scG (c : Dev nD) : S131072x128.Idx → EReal := fun i =>
  hw2scK (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) (i 0) (i 1)

/-- What point t writes back to the first output is rows 4096 t … of the dense transform. -/
theorem flushed6_eq (c : Dev nD) (t : Fin cfg0.N) :
    (dat0 (F := Ideal) V c).flushed 6 t = ((cfg0.win 6).blk t).view.read (Elt Ideal) (hw2G V c) := by
  show (cfg0.win 6).cut (grid0.coords t) ((dat0 (F := Ideal) V c).after 6 t) = _
  rw [after0_6]
  unfold out0_6
  rw [View.canon_unit_zero hz]
  simp only [View.ld_unit_zero (S := S4096x3) hz, View.ld_unit_zero (S := S4096x1) hz, View.ld_unit_zero (S := S3x128) hz,
    View.ld_unit_zero (S := S128) hz1, View.ld_unit_zero (S := S128x128) hz]
  rw [iblk_0 V c t, iblk_1 V c t, iblk_2 V c t, iblk_3 V c t, iblk_4 V c t, iblk_5 V c t]
  obtain ⟨-, -, -, -, -, -, -, -, -, -, -, e0, e1, -⟩ := idx_facts t
  funext j
  rw [View.read_apply]
  have hj0 : (j 0).val < 4096 := (j 0).isLt
  have hj1 : (j 1).val < 128 := (j 1).isLt
  have hx : (cfg0.win 6).xinj (grid0.coords t) j = ix2 (⟨(j 0).val, hj0⟩ : Fin 4096) (⟨(j 1).val, hj1⟩ : Fin 128) :=
    funext fun a => by match a with | ⟨0, _⟩ => rfl | ⟨1, _⟩ => rfl
  have he : ((cfg0.win 6).blk t).view.emb j = ix2 (rowAt (pt t) ⟨(j 0).val, hj0⟩) (⟨(j 1).val, hj1⟩ : Fin 128) :=
    funext fun a => Fin.ext (by
      match a with
      | ⟨0, _⟩ => show win0_6.index t (0 : Fin 2) * 4096 + 1 * (j 0).val = t.val * 4096 + (j 0).val; rw [e0]; omega
      | ⟨1, _⟩ => show win0_6.index t (1 : Fin 2) * 128 + 1 * (j 1).val = (j 1).val; rw [e1]; omega)
  show k0_pay2 (F := Ideal) _ _ _ _ _ _ _ ((cfg0.win 6).xinj (grid0.coords t) j) = hw2G V c (((cfg0.win 6).blk t).view.emb j)
  rw [hx, he]
  exact pay2_rows (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) (pt t) ⟨(j 0).val, hj0⟩ ⟨(j 1).val, hj1⟩

/-- An index of the first output is in point t's block iff each coordinate is in the block's range on its axis. -/
theorem mem_blk6 (t : Fin cfg0.N) (i : S131072x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v26_0).slice (win0_6.rect t)).set ↔ _
  rw [View.set_slice_whole, Rect.mem_set_unit]
  exact Iff.rfl

/-- Row r of the first output lies in the block of point r / 4096. -/
theorem cover6 (i : S131072x128.Idx) :
    ∃ t : Fin cfg0.N, (cfg0.win 6).flush t = true ∧ i ∈ ((cfg0.win 6).blk t).view.set := by
  have hi0 : (i 0).val < 131072 := idx2_lt0 i
  have hi1 : (i 1).val < 128 := idx2_lt1 i
  have hN : cfg0.N = 32 := N_0
  have ht : (i 0).val / 4096 < cfg0.N := by omega
  obtain ⟨-, -, -, -, -, -, -, -, -, -, -, e0, e1, -⟩ := idx_facts ⟨(i 0).val / 4096, ht⟩
  have e0' : win0_6.index ⟨(i 0).val / 4096, ht⟩ (0 : Fin 2) = (i 0).val / 4096 := e0
  refine ⟨⟨(i 0).val / 4096, ht⟩, flush0_6 _, ?_⟩
  rw [mem_blk6]
  intro a
  match a with
  | ⟨0, _⟩ =>
    show win0_6.index ⟨(i 0).val / 4096, ht⟩ (0 : Fin 2) * 4096 ≤ (i 0).val
      ∧ (i 0).val < win0_6.index ⟨(i 0).val / 4096, ht⟩ (0 : Fin 2) * 4096 + 4096
    rw [e0']; omega
  | ⟨1, _⟩ =>
    show win0_6.index ⟨(i 0).val / 4096, ht⟩ (1 : Fin 2) * 128 ≤ (i 1).val
      ∧ (i 1).val < win0_6.index ⟨(i 0).val / 4096, ht⟩ (1 : Fin 2) * 128 + 128
    rw [e1]; omega

/-- THE FIRST OUTPUT after the region: the second layer's dense transform of the six input arrays as the region
    found them, row by row. -/
theorem hw2_arr (c : Dev nD) : (dat0 (F := Ideal) V c).arrAt 6 cfg0.N = fun i =>
    hw2K (V c (Pipeline.arrRef spec0 0)) (V c (Pipeline.arrRef spec0 1)) (V c (Pipeline.arrRef spec0 2))
      (V c (Pipeline.arrRef spec0 3)) (V c (Pipeline.arrRef spec0 4)) (V c (Pipeline.arrRef spec0 5)) (i 0) (i 1) :=
  (dat0 (F := Ideal) V c).arrAt_eq_of_cover 6 (hw2G V c) (fun t _ => flushed6_eq V c t) cover6

/-- What point t writes back to the second output is rows 4096 t … of the scaled transform. -/
theorem flushed7_eq (c : Dev nD) (t : Fin cfg0.N) :
    (dat0 (F := Ideal) V c).flushed 7 t = ((cfg0.win 7).blk t).view.read (Elt Ideal) (hw2scG V c) := by
  show (cfg0.win 7).cut (grid0.coords t) ((dat0 (F := Ideal) V c).after 7 t) = _
  rw [after0_7]
  unfold out0_7
  rw [View.canon_unit_zero hz]
  simp only [View.ld_unit_zero (S := S4096x3) hz, View.ld_unit_zero (S := S4096x1) hz, View.ld_unit_zero (S := S3x128) hz,
    View.ld_unit_zero (S := S128) hz1, View.ld_unit_zero (S := S128x128) hz]
  rw [iblk_0 V c t, iblk_1 V c t, iblk_2 V c t, iblk_3 V c t, iblk_4 V c t, iblk_5 V c t]
  obtain ⟨-, -, -, -, -, -, -, -, -, -, -, -, -, e0, e1⟩ := idx_facts t
  funext j
  rw [View.read_apply]
  have hj0 : (j 0).val < 4096 := (j 0).isLt
  have hj1 : (j 1).val < 128 := (j 1).isLt
  have hx : (cfg0.win 7).xinj (grid0.coords t) j = ix2 (⟨(j 0).val, hj0⟩ : Fin 4096) (⟨(j 1).val, hj1⟩ : Fin 128) :=
    funext fun a => by match a with | ⟨0, _⟩ => rfl | ⟨1, _⟩ => rfl
  have he : ((cfg0.win 7).blk t).view.emb j = ix2 (rowAt (pt t) ⟨(j 0).val, hj0⟩) (⟨(j 1).val, hj1⟩ : Fin 128) :=
    funext fun a => Fin.ext (by
      match a with
      | ⟨0, _⟩ => show win0_7.index t (0 : Fin 2) * 4096 + 1 * (j 0).val = t.val * 4096 + (j 0).val; rw [e0]; omega
      | ⟨1, _⟩ => show win0_7.index t (1 : Fin 2) * 128 + 1 * (j 1).val = (j 1).val; rw [e1]; omega)
  show k0_pay3 (F := Ideal) _ _ _ _ _ _ _ ((cfg0.win 7).xinj (grid0.coords t) j) = hw2scG V c (((cfg0.win 7).blk t).view.emb j)
  rw [hx, he]
  exact pay3_rows (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) (pt t) ⟨(j 0).val, hj0⟩ ⟨(j 1).val, hj1⟩

/-- An index of the second output is in point t's block iff each coordinate is in the block's range on its axis. -/
theorem mem_blk7 (t : Fin cfg0.N) (i : S131072x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v26_1).slice (win0_7.rect t)).set ↔ _
  rw [View.set_slice_whole, Rect.mem_set_unit]
  exact Iff.rfl

/-- Row r of the second output lies in the block of point r / 4096. -/
theorem cover7 (i : S131072x128.Idx) :
    ∃ t : Fin cfg0.N, (cfg0.win 7).flush t = true ∧ i ∈ ((cfg0.win 7).blk t).view.set := by
  have hi0 : (i 0).val < 131072 := idx2_lt0 i
  have hi1 : (i 1).val < 128 := idx2_lt1 i
  have hN : cfg0.N = 32 := N_0
  have ht : (i 0).val / 4096 < cfg0.N := by omega
  obtain ⟨-, -, -, -, -, -, -, -, -, -, -, -, -, e0, e1⟩ := idx_facts ⟨(i 0).val / 4096, ht⟩
  have e0' : win0_7.index ⟨(i 0).val / 4096, ht⟩ (0 : Fin 2) = (i 0).val / 4096 := e0
  refine ⟨⟨(i 0).val / 4096, ht⟩, flush0_7 _, ?_⟩
  rw [mem_blk7]
  intro a
  match a with
  | ⟨0, _⟩ =>
    show win0_7.index ⟨(i 0).val / 4096, ht⟩ (0 : Fin 2) * 4096 ≤ (i 0).val
      ∧ (i 0).val < win0_7.index ⟨(i 0).val / 4096, ht⟩ (0 : Fin 2) * 4096 + 4096
    rw [e0']; omega
  | ⟨1, _⟩ =>
    show win0_7.index ⟨(i 0).val / 4096, ht⟩ (1 : Fin 2) * 128 ≤ (i 1).val
      ∧ (i 1).val < win0_7.index ⟨(i 0).val / 4096, ht⟩ (1 : Fin 2) * 128 + 128
    rw [e1]; omega

/-- THE SECOND OUTPUT after the region: the same transform, each node's row scaled by its normalisation. -/
theorem hw2sc_arr (c : Dev nD) : (dat0 (F := Ideal) V c).arrAt 7 cfg0.N = fun i =>
    hw2scK (V c (Pipeline.arrRef spec0 0)) (V c (Pipeline.arrRef spec0 1)) (V c (Pipeline.arrRef spec0 2))
      (V c (Pipeline.arrRef spec0 3)) (V c (Pipeline.arrRef spec0 4)) (V c (Pipeline.arrRef spec0 5)) (i 0) (i 1) :=
  (dat0 (F := Ideal) V c).arrAt_eq_of_cover 7 (hw2scG V c) (fun t _ => flushed7_eq V c t) cover7

end Blocks

end Cert.Region0

end
-- ==== Proof.Region1.lean ====
/-
  The decoder region, read as whole arrays.

  The region walks the 131072 nodes in 32 blocks of 4096 rows. On the block at point t it forms, row by row, the second
  convolution's combine  h2 = agg + hw * (d * d) + b  (agg the aggregated messages, hw the dense transform, d the
  node's normalisation, b the bias), writes its columns 0..63 as the mean and its columns 64..127 as the
  log-variance, draws  z = mean + eps * exp (1/2 * logvar),  and writes  max (z W1 + b1, 0) W2 + b2  as the
  reconstruction. A row of a block depends only on the same row of the row-blocked inputs, and the weights and biases
  are read whole at every point; so each of the three output arrays is, row by row, the same formula over the whole
  input arrays, whatever those hold when the region is entered.

  Three parts: the body's arithmetic at one entry of a block; where each block sits in its array (the block at point
  t is rows 4096 t .. 4096 t + 4095 of a row-blocked array and the whole of a weight or bias, decided once over the 32
  points); and, per output, what a point writes back, that the 32 blocks cover the array, and the array after the
  region.
-/
import proofs.«107887_j53420803228324_2_alg».proof.Proof.Gen.KernelIdeal.Frame
import proofs.«107887_j53420803228324_2_alg».proof.Proof.Spec
import proofs.«107887_j53420803228324_2_alg».proof.Proof.LibPlainMatmul
import proofs.«107887_j53420803228324_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region1

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-! ## The body's arithmetic at one entry of a block -/

/-- The combine: the aggregated entry, plus the dense entry scaled by the squared normalisation of its row, plus
    the bias of its column. -/
theorem pay2_apply (v0 : Vec Ideal S4096x1 .f32) (v3 v5 : Vec Ideal S4096x128 .f32) (v10 : Vec Ideal S128 .f32)
    (p : Fin 4096) (q : Fin 128) :
    k1_pay2 v0 v3 v5 v10 (ix2 p q)
      = v3 (ix2 p q) + v5 (ix2 p q) * (v0 (ix2 p (0 : Fin 1)) * v0 (ix2 p (0 : Fin 1))) + v10 (ix1 q) := by
  unfold k1_pay2
  simp only [shapeCast_self]
  refine (addf_apply _ _ _).trans ?_
  refine congrArg₂ (· + ·) ?_ ((broadcastTo_1b_ab_apply _ _ p q).trans (shapeCast_a_1a_apply _ _ _ q))
  refine (addf_apply _ _ _).trans ?_
  refine congrArg (v3 (ix2 p q) + ·) ?_
  refine (mulf_apply _ _ _).trans ?_
  refine congrArg (v5 (ix2 p q) * ·) ?_
  exact ColumnLayout.broadcastTo_a1_ab_apply _ _ p q

/-- The mean half is the combine's columns 0..63. -/
theorem pay3_apply (v0 : Vec Ideal S4096x1 .f32) (v3 v5 : Vec Ideal S4096x128 .f32) (v10 : Vec Ideal S128 .f32)
    (p : Fin 4096) (q : Fin 64) (q' : Fin 128) (hq : q'.val = q.val) :
    k1_pay3 v0 v3 v5 v10 (ix2 p q) = k1_pay2 v0 v3 v5 v10 (ix2 p q') := by
  unfold k1_pay3
  exact slice2_axis1_apply 0 _ _ p q q' (by omega)

/-- The log-variance half is the combine's columns 64..127. -/
theorem pay4_apply (v0 : Vec Ideal S4096x1 .f32) (v3 v5 : Vec Ideal S4096x128 .f32) (v10 : Vec Ideal S128 .f32)
    (p : Fin 4096) (q : Fin 64) (q' : Fin 128) (hq : q'.val = 64 + q.val) :
    k1_pay4 v0 v3 v5 v10 (ix2 p q) = k1_pay2 v0 v3 v5 v10 (ix2 p q') := by
  unfold k1_pay4
  exact slice2_axis1_apply 64 _ _ p q q' hq

/-- The decoder before its last bias: the sample (mean plus noise times the exponential of half the log-variance)
    through the first dense layer and the rectifier, then through the second dense layer. -/
theorem pay5_apply (v0 : Vec Ideal S4096x1 .f32) (v3 v5 : Vec Ideal S4096x128 .f32) (v10 : Vec Ideal S128 .f32)
    (v18 : Vec Ideal S4096x64 .f32) (v24 : Vec Ideal S64x128 .f32) (v26 : Vec Ideal S128 .f32) (v32 : Vec Ideal S128x3 .f32)
    (p : Fin 4096) (j : Fin 3) :
    k1_pay5 v0 v3 v5 v10 v18 v24 v26 v32 (ix2 p j)
      = ∑ k : Fin 128, max ((∑ q : Fin 64, (k1_pay3 v0 v3 v5 v10 (ix2 p q)
            + v18 (ix2 p q) * Ideal.exp (Ideal.ofBits .f32 0x3F000000#32 * k1_pay4 v0 v3 v5 v10 (ix2 p q))) * v24 (ix2 q k))
          + v26 (ix1 k)) 0 * v32 (ix2 k j) := by
  unfold k1_pay5
  refine (Cert.Lib.PlainMatmul.matmul_zero_apply dot_S4096x128_S128x3_S4096x3_1_0_0_1_n_n rfl rfl rfl rfl rfl rfl none _ v32 p j).trans ?_
  refine Finset.sum_congr rfl fun k _ => ?_
  refine congrArg (· * v32 (ix2 k j)) ?_
  refine (maximumf_apply _ _ _).trans ?_
  refine congrArg₂ max ?_ Ideal.ofBits_zero_f32
  refine (addf_apply _ _ _).trans ?_
  refine congrArg₂ (· + ·) ?_ ((broadcastTo_1b_ab_apply _ _ p k).trans (shapeCast_a_1a_apply _ _ _ k))
  refine (Cert.Lib.PlainMatmul.matmul_zero_apply dot_S4096x64_S64x128_S4096x128_1_0_0_1_n_n rfl rfl rfl rfl rfl rfl none _ v24 p k).trans ?_
  refine Finset.sum_congr rfl fun q _ => ?_
  rfl

/-- The last bias, added column by column. -/
theorem pay1_apply (v33 : FVec Ideal S4096x3 .f32) (v34 : Vec Ideal S3 .f32) (p : Fin 4096) (j : Fin 3) :
    k1_pay1 v33 v34 (ix2 p j) = v33 (ix2 p j) + v34 (ix1 j) := by
  unfold k1_pay1
  refine (addf_apply _ _ _).trans ?_
  exact congrArg (v33 (ix2 p j) + ·) ((broadcastTo_1b_ab_apply _ _ p j).trans (shapeCast_a_1a_apply _ _ _ j))

/-! ## Where a block sits in its array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index of every window at every grid point, decided once over the 32 points: a row-blocked window's
    block at point t is block (t, 0) of its array; a weight or bias window's block is its whole array. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_9.index t (0 : Fin 2) = t.val ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0) :=
  (by decide +kernel : ∀ t : Fin grid1.N, _)

/-- Row p of the aggregated block at point t is row 4096 t + p of the aggregated array. -/
theorem iblk0_apply (c : Dev nD) (t : Fin cfg1.N) (p : Fin 4096) (q : Fin 128) (n : Fin Nn)
    (hn : n.val = t.val * 4096 + p.val) :
    (iblk1 V c 0 t : Vec Ideal S4096x128 .f32) (ix2 p q)
      = (V c (Pipeline.arrRef spec1 0) : Mat Nn 128) (ix2 n q) := by
  obtain ⟨⟨e0, e1⟩, -⟩ := idx_facts t
  unfold iblk1
  rw [View.read_apply]
  show V c main_v38 _ = V c main_v38 _
  congr 1
  funext a
  apply Fin.ext
  match a with
  | ⟨0, _⟩ => show win1_0.index t (0 : Fin 2) * 4096 + 1 * p.val = n.val; rw [e0, hn]; omega
  | ⟨1, _⟩ => show win1_0.index t (1 : Fin 2) * 128 + 1 * q.val = q.val; rw [e1]; omega

/-- The same for the dense block. -/
theorem iblk1_apply (c : Dev nD) (t : Fin cfg1.N) (p : Fin 4096) (q : Fin 128) (n : Fin Nn)
    (hn : n.val = t.val * 4096 + p.val) :
    (iblk1 V c 1 t : Vec Ideal S4096x128 .f32) (ix2 p q)
      = (V c (Pipeline.arrRef spec1 1) : Mat Nn 128) (ix2 n q) := by
  obtain ⟨-, ⟨e0, e1⟩, -⟩ := idx_facts t
  unfold iblk1
  rw [View.read_apply]
  show V c main_v26_0 _ = V c main_v26_0 _
  congr 1
  funext a
  apply Fin.ext
  match a with
  | ⟨0, _⟩ => show win1_1.index t (0 : Fin 2) * 4096 + 1 * p.val = n.val; rw [e0, hn]; omega
  | ⟨1, _⟩ => show win1_1.index t (1 : Fin 2) * 128 + 1 * q.val = q.val; rw [e1]; omega

/-- The same for the normalisation column. -/
theorem iblk2_apply (c : Dev nD) (t : Fin cfg1.N) (p : Fin 4096) (n : Fin Nn)
    (hn : n.val = t.val * 4096 + p.val) :
    (iblk1 V c 2 t : Vec Ideal S4096x1 .f32) (ix2 p (0 : Fin 1))
      = (V c (Pipeline.arrRef spec1 2) : Mat Nn 1) (ix2 n (0 : Fin 1)) := by
  obtain ⟨-, -, ⟨e0, e1⟩, -⟩ := idx_facts t
  unfold iblk1
  rw [View.read_apply]
  show V c main_v11 _ = V c main_v11 _
  congr 1
  funext a
  apply Fin.ext
  match a with
  | ⟨0, _⟩ => show win1_2.index t (0 : Fin 2) * 4096 + 1 * p.val = n.val; rw [e0, hn]; omega
  | ⟨1, _⟩ => show win1_2.index t (1 : Fin 2) * 1 + 1 * 0 = 0; rw [e1]

/-- The same for the noise block. -/
theorem iblk3_apply (c : Dev nD) (t : Fin cfg1.N) (p : Fin 4096) (q : Fin 64) (n : Fin Nn)
    (hn : n.val = t.val * 4096 + p.val) :
    (iblk1 V c 3 t : Vec Ideal S4096x64 .f32) (ix2 p q)
      = (V c (Pipeline.arrRef spec1 3) : Mat Nn 64) (ix2 n q) := by
  obtain ⟨-, -, -, ⟨e0, e1⟩, -⟩ := idx_facts t
  unfold iblk1
  rw [View.read_apply]
  show V c main_arg1 _ = V c main_arg1 _
  congr 1
  funext a
  apply Fin.ext
  match a with
  | ⟨0, _⟩ => show win1_3.index t (0 : Fin 2) * 4096 + 1 * p.val = n.val; rw [e0, hn]; omega
  | ⟨1, _⟩ => show win1_3.index t (1 : Fin 2) * 64 + 1 * q.val = q.val; rw [e1]; omega

/-- A bias window's block is the whole bias. -/
theorem iblk4_eq (c : Dev nD) (t : Fin cfg1.N) :
    (iblk1 V c 4 t : Vec Ideal S128 .f32) = (V c (Pipeline.arrRef spec1 4) : Vc 128) := by
  obtain ⟨-, -, -, -, e0, -⟩ := idx_facts t
  funext j
  unfold iblk1
  rw [View.read_apply]
  show V c main_arg5 _ = V c main_arg5 _
  congr 1
  funext a
  apply Fin.ext
  match a with
  | ⟨0, _⟩ => show win1_4.index t (0 : Fin 1) * 128 + 1 * (j 0).val = (j 0).val; rw [e0]; omega

/-- The first decoder weight's block is the whole matrix. -/
theorem iblk5_eq (c : Dev nD) (t : Fin cfg1.N) :
    (iblk1 V c 5 t : Vec Ideal S64x128 .f32) = (V c (Pipeline.arrRef spec1 5) : Mat 64 128) := by
  obtain ⟨-, -, -, -, -, ⟨e0, e1⟩, -⟩ := idx_facts t
  funext j
  unfold iblk1
  rw [View.read_apply]
  show V c main_arg6 _ = V c main_arg6 _
  congr 1
  funext a
  apply Fin.ext
  match a with
  | ⟨0, _⟩ => show win1_5.index t (0 : Fin 2) * 64 + 1 * (j 0).val = (j 0).val; rw [e0]; omega
  | ⟨1, _⟩ => show win1_5.index t (1 : Fin 2) * 128 + 1 * (j 1).val = (j 1).val; rw [e1]; omega

/-- The first decoder bias's block is the whole bias. -/
theorem iblk6_eq (c : Dev nD) (t : Fin cfg1.N) :
    (iblk1 V c 6 t : Vec Ideal S128 .f32) = (V c (Pipeline.arrRef spec1 6) : Vc 128) := by
  obtain ⟨-, -, -, -, -, -, e0, -⟩ := idx_facts t
  funext j
  unfold iblk1
  rw [View.read_apply]
  show V c main_arg7 _ = V c main_arg7 _
  congr 1
  funext a
  apply Fin.ext
  match a with
  | ⟨0, _⟩ => show win1_6.index t (0 : Fin 1) * 128 + 1 * (j 0).val = (j 0).val; rw [e0]; omega

/-- The second decoder weight's block is the whole matrix. -/
theorem iblk7_eq (c : Dev nD) (t : Fin cfg1.N) :
    (iblk1 V c 7 t : Vec Ideal S128x3 .f32) = (V c (Pipeline.arrRef spec1 7) : Mat 128 3) := by
  obtain ⟨-, -, -, -, -, -, -, ⟨e0, e1⟩, -⟩ := idx_facts t
  funext j
  unfold iblk1
  rw [View.read_apply]
  show V c main_arg8 _ = V c main_arg8 _
  congr 1
  funext a
  apply Fin.ext
  match a with
  | ⟨0, _⟩ => show win1_7.index t (0 : Fin 2) * 128 + 1 * (j 0).val = (j 0).val; rw [e0]; omega
  | ⟨1, _⟩ => show win1_7.index t (1 : Fin 2) * 3 + 1 * (j 1).val = (j 1).val; rw [e1]; omega

/-- The second decoder bias's block is the whole bias. -/
theorem iblk8_eq (c : Dev nD) (t : Fin cfg1.N) :
    (iblk1 V c 8 t : Vec Ideal S3 .f32) = (V c (Pipeline.arrRef spec1 8) : Vc 3) := by
  obtain ⟨-, -, -, -, -, -, -, -, e0, -⟩ := idx_facts t
  funext j
  unfold iblk1
  rw [View.read_apply]
  show V c main_arg9 _ = V c main_arg9 _
  congr 1
  funext a
  apply Fin.ext
  match a with
  | ⟨0, _⟩ => show win1_8.index t (0 : Fin 1) * 3 + 1 * (j 0).val = (j 0).val; rw [e0]; omega

/-! ## The second convolution's combine, and its two halves as arrays -/

/-- The second convolution's combine over the arrays the region finds. -/
abbrev H2 (c : Dev nD) : Fin Nn → Fin 128 → EReal :=
  h2K (V c (Pipeline.arrRef spec1 0)) (V c (Pipeline.arrRef spec1 1)) (V c (Pipeline.arrRef spec1 2)) (V c (Pipeline.arrRef spec1 4))

/-- The combine of the blocks at point t, at row p, is the combine of the whole arrays at row 4096 t + p. -/
theorem pay2_blocks (c : Dev nD) (t : Fin cfg1.N) (p : Fin 4096) (q : Fin 128) (n : Fin Nn)
    (hn : n.val = t.val * 4096 + p.val) :
    k1_pay2 (iblk1 V c 2 t) (iblk1 V c 0 t) (iblk1 V c 1 t) (iblk1 V c 4 t) (ix2 p q) = H2 V c n q := by
  refine (pay2_apply (iblk1 V c 2 t) (iblk1 V c 0 t) (iblk1 V c 1 t) (iblk1 V c 4 t) p q).trans ?_
  rw [iblk0_apply V c t p q n hn, iblk1_apply V c t p q n hn, iblk2_apply V c t p n hn, iblk4_eq V c t]
  rfl

/-- What point t writes back to the mean array is block t of the combine's columns 0..63. -/
theorem flushed9_eq (c : Dev nD) (t : Fin cfg1.N) :
    (dat1 (F := Ideal) V c).flushed 9 t
      = ((cfg1.win 9).blk t).view.read (Elt Ideal) (fun i : S131072x64.Idx => H2 V c (i 0) (lo (i 1))) := by
  show (cfg1.win 9).cut (grid1.coords t) ((dat1 V c).after 9 t) = _
  rw [after1_9]
  unfold out1_9
  rw [View.canon_unit_zero hz2]
  simp only [View.ld_unit_zero (S := S4096x1) hz2, View.ld_unit_zero (S := S4096x128) hz2, View.ld_unit_zero (S := S128) hz1]
  obtain ⟨-, -, -, -, -, -, -, -, -, ⟨e0, e1⟩, -⟩ := idx_facts t
  funext j
  obtain ⟨p, q, rfl⟩ : ∃ (p : Fin 4096) (q : Fin 64), j = ix2 p q := ⟨j 0, j 1, eq_ix2 (n0 := 4096) (n1 := 64) j⟩
  rw [View.read_apply]
  have hn : t.val * 4096 + p.val < Nn := by
    have := t.isLt; have hN : cfg1.N = 32 := N_1; show _ < 131072; omega
  show k1_pay3 (iblk1 V c 2 t) (iblk1 V c 0 t) (iblk1 V c 1 t) (iblk1 V c 4 t) (ix2 p q) = _
  refine ((pay3_apply (iblk1 V c 2 t) (iblk1 V c 0 t) (iblk1 V c 1 t) (iblk1 V c 4 t) p q (lo q) rfl).trans
    (pay2_blocks V c t p (lo q) ⟨t.val * 4096 + p.val, hn⟩ rfl)).trans ?_
  refine congrArg₂ (H2 V c) (Fin.ext ?_) (congrArg lo (Fin.ext ?_))
  · show t.val * 4096 + p.val = win1_9.index t (0 : Fin 2) * 4096 + 1 * p.val; rw [e0]; omega
  · show q.val = win1_9.index t (1 : Fin 2) * 64 + 1 * q.val; rw [e1]; omega

/-- An entry of the mean array lies in point t's block iff its coordinates lie in the block's ranges. -/
theorem mem_blk9 (t : Fin cfg1.N) (i : S131072x64.Idx) :
    i ∈ ((cfg1.win 9).blk t).view.set ↔ ∀ a : Fin 2, win1_9.index t a * S4096x64.size a ≤ (i a).val ∧ (i a).val < win1_9.index t a * S4096x64.size a + S4096x64.size a := by
  show i ∈ ((View.whole main_v39_0).slice (win1_9.rect t)).set ↔ _
  rw [View.set_slice_whole, Rect.mem_set_unit]
  exact Iff.rfl

/-- Row r of the mean array is written by point r / 4096. -/
theorem cover9 (i : S131072x64.Idx) : ∃ t : Fin cfg1.N, (cfg1.win 9).flush t = true ∧ i ∈ ((cfg1.win 9).blk t).view.set := by
  have h0 : (i 0).val < 131072 := (i 0).isLt
  have h1 : (i 1).val < 64 := (i 1).isLt
  have hN' : cfg1.N = 32 := N_1
  let t : Fin cfg1.N := ⟨(i 0).val / 4096, by rw [hN']; omega⟩
  obtain ⟨-, -, -, -, -, -, -, -, -, ⟨e0, e1⟩, -⟩ := idx_facts t
  refine ⟨t, flush1_9 t, ?_⟩
  rw [mem_blk9]
  intro a
  match a with
  | ⟨0, _⟩ => show win1_9.index t (0 : Fin 2) * 4096 ≤ (i 0).val ∧ (i 0).val < win1_9.index t (0 : Fin 2) * 4096 + 4096
              rw [e0]; show (i 0).val / 4096 * 4096 ≤ (i 0).val ∧ (i 0).val < (i 0).val / 4096 * 4096 + 4096; omega
  | ⟨1, _⟩ => show win1_9.index t (1 : Fin 2) * 64 ≤ (i 1).val ∧ (i 1).val < win1_9.index t (1 : Fin 2) * 64 + 64
              rw [e1]; omega

/-- THE MEAN ARRAY after the region: the combine's columns 0..63, row by row. -/
theorem mean_arr (c : Dev nD) :
    (dat1 (F := Ideal) V c).arrAt 9 cfg1.N = fun i => H2 V c (i 0) (lo (i 1)) :=
  (dat1 (F := Ideal) V c).arrAt_eq_of_cover 9 (fun i : S131072x64.Idx => H2 V c (i 0) (lo (i 1)))
    (fun t _ => flushed9_eq V c t) cover9

/-- What point t writes back to the log-variance array is block t of the combine's columns 64..127. -/
theorem flushed10_eq (c : Dev nD) (t : Fin cfg1.N) :
    (dat1 (F := Ideal) V c).flushed 10 t
      = ((cfg1.win 10).blk t).view.read (Elt Ideal) (fun i : S131072x64.Idx => H2 V c (i 0) (hi (i 1))) := by
  show (cfg1.win 10).cut (grid1.coords t) ((dat1 V c).after 10 t) = _
  rw [after1_10]
  unfold out1_10
  rw [View.canon_unit_zero hz2]
  simp only [View.ld_unit_zero (S := S4096x1) hz2, View.ld_unit_zero (S := S4096x128) hz2, View.ld_unit_zero (S := S128) hz1]
  obtain ⟨-, -, -, -, -, -, -, -, -, -, ⟨e0, e1⟩, -⟩ := idx_facts t
  funext j
  obtain ⟨p, q, rfl⟩ : ∃ (p : Fin 4096) (q : Fin 64), j = ix2 p q := ⟨j 0, j 1, eq_ix2 (n0 := 4096) (n1 := 64) j⟩
  rw [View.read_apply]
  have hn : t.val * 4096 + p.val < Nn := by
    have := t.isLt; have hN : cfg1.N = 32 := N_1; show _ < 131072; omega
  show k1_pay4 (iblk1 V c 2 t) (iblk1 V c 0 t) (iblk1 V c 1 t) (iblk1 V c 4 t) (ix2 p q) = _
  refine ((pay4_apply (iblk1 V c 2 t) (iblk1 V c 0 t) (iblk1 V c 1 t) (iblk1 V c 4 t) p q (hi q) rfl).trans
    (pay2_blocks V c t p (hi q) ⟨t.val * 4096 + p.val, hn⟩ rfl)).trans ?_
  refine congrArg₂ (H2 V c) (Fin.ext ?_) (congrArg hi (Fin.ext ?_))
  · show t.val * 4096 + p.val = win1_10.index t (0 : Fin 2) * 4096 + 1 * p.val; rw [e0]; omega
  · show q.val = win1_10.index t (1 : Fin 2) * 64 + 1 * q.val; rw [e1]; omega

/-- An entry of the log-variance array lies in point t's block iff its coordinates lie in the block's ranges. -/
theorem mem_blk10 (t : Fin cfg1.N) (i : S131072x64.Idx) :
    i ∈ ((cfg1.win 10).blk t).view.set ↔ ∀ a : Fin 2, win1_10.index t a * S4096x64.size a ≤ (i a).val ∧ (i a).val < win1_10.index t a * S4096x64.size a + S4096x64.size a := by
  show i ∈ ((View.whole main_v39_1).slice (win1_10.rect t)).set ↔ _
  rw [View.set_slice_whole, Rect.mem_set_unit]
  exact Iff.rfl

/-- Row r of the log-variance array is written by point r / 4096. -/
theorem cover10 (i : S131072x64.Idx) : ∃ t : Fin cfg1.N, (cfg1.win 10).flush t = true ∧ i ∈ ((cfg1.win 10).blk t).view.set := by
  have h0 : (i 0).val < 131072 := (i 0).isLt
  have h1 : (i 1).val < 64 := (i 1).isLt
  have hN' : cfg1.N = 32 := N_1
  let t : Fin cfg1.N := ⟨(i 0).val / 4096, by rw [hN']; omega⟩
  obtain ⟨-, -, -, -, -, -, -, -, -, -, ⟨e0, e1⟩, -⟩ := idx_facts t
  refine ⟨t, flush1_10 t, ?_⟩
  rw [mem_blk10]
  intro a
  match a with
  | ⟨0, _⟩ => show win1_10.index t (0 : Fin 2) * 4096 ≤ (i 0).val ∧ (i 0).val < win1_10.index t (0 : Fin 2) * 4096 + 4096
              rw [e0]; show (i 0).val / 4096 * 4096 ≤ (i 0).val ∧ (i 0).val < (i 0).val / 4096 * 4096 + 4096; omega
  | ⟨1, _⟩ => show win1_10.index t (1 : Fin 2) * 64 ≤ (i 1).val ∧ (i 1).val < win1_10.index t (1 : Fin 2) * 64 + 64
              rw [e1]; omega

/-- THE LOG-VARIANCE ARRAY after the region: the combine's columns 64..127, row by row. -/
theorem logvar_arr (c : Dev nD) :
    (dat1 (F := Ideal) V c).arrAt 10 cfg1.N = fun i => H2 V c (i 0) (hi (i 1)) :=
  (dat1 (F := Ideal) V c).arrAt_eq_of_cover 10 (fun i : S131072x64.Idx => H2 V c (i 0) (hi (i 1)))
    (fun t _ => flushed10_eq V c t) cover10

/-! ## The reconstruction as an array -/

/-- The decoder of the blocks at point t, at row p, is the reconstruction at row 4096 t + p. -/
theorem recon_blocks (c : Dev nD) (t : Fin cfg1.N) (p : Fin 4096) (j : Fin 3) (n : Fin Nn)
    (hn : n.val = t.val * 4096 + p.val) :
    k1_pay1 (k1_pay5 (iblk1 V c 2 t) (iblk1 V c 0 t) (iblk1 V c 1 t) (iblk1 V c 4 t) (iblk1 V c 3 t) (iblk1 V c 5 t)
        (iblk1 V c 6 t) (iblk1 V c 7 t)) (iblk1 V c 8 t) (ix2 p j)
      = reconOf (H2 V c) (V c (Pipeline.arrRef spec1 3)) (V c (Pipeline.arrRef spec1 5)) (V c (Pipeline.arrRef spec1 6))
          (V c (Pipeline.arrRef spec1 7)) (V c (Pipeline.arrRef spec1 8)) n j := by
  refine (pay1_apply _ (iblk1 V c 8 t) p j).trans ?_
  rw [iblk8_eq V c t]
  refine congrArg (· + (V c (Pipeline.arrRef spec1 8) : Vc 3) (ix1 j)) ?_
  refine (pay5_apply (iblk1 V c 2 t) (iblk1 V c 0 t) (iblk1 V c 1 t) (iblk1 V c 4 t) (iblk1 V c 3 t) (iblk1 V c 5 t)
    (iblk1 V c 6 t) (iblk1 V c 7 t) p j).trans ?_
  refine Finset.sum_congr rfl fun k _ => ?_
  rw [iblk7_eq V c t]
  refine congrArg (· * (V c (Pipeline.arrRef spec1 7) : Mat 128 3) (ix2 k j)) ?_
  unfold hdOf
  rw [iblk6_eq V c t]
  refine congrArg (fun x => max (x + (V c (Pipeline.arrRef spec1 6) : Vc 128) (ix1 k)) 0) ?_
  refine Finset.sum_congr rfl fun q _ => ?_
  rw [iblk5_eq V c t]
  refine congrArg (· * (V c (Pipeline.arrRef spec1 5) : Mat 64 128) (ix2 q k)) ?_
  unfold zOf half
  rw [pay3_apply (iblk1 V c 2 t) (iblk1 V c 0 t) (iblk1 V c 1 t) (iblk1 V c 4 t) p q (lo q) rfl,
    pay4_apply (iblk1 V c 2 t) (iblk1 V c 0 t) (iblk1 V c 1 t) (iblk1 V c 4 t) p q (hi q) rfl,
    pay2_blocks V c t p (lo q) n hn, pay2_blocks V c t p (hi q) n hn, iblk3_apply V c t p q n hn]

/-- The reconstruction over the arrays the region finds. -/
abbrev Recon (c : Dev nD) : Fin Nn → Fin 3 → EReal :=
  reconOf (H2 V c) (V c (Pipeline.arrRef spec1 3)) (V c (Pipeline.arrRef spec1 5)) (V c (Pipeline.arrRef spec1 6))
    (V c (Pipeline.arrRef spec1 7)) (V c (Pipeline.arrRef spec1 8))

/-- What point t writes back to the reconstruction array is block t of the reconstruction. -/
theorem flushed11_eq (c : Dev nD) (t : Fin cfg1.N) :
    (dat1 (F := Ideal) V c).flushed 11 t
      = ((cfg1.win 11).blk t).view.read (Elt Ideal) (fun i : S131072x3.Idx => Recon V c (i 0) (i 1)) := by
  show (cfg1.win 11).cut (grid1.coords t) ((dat1 V c).after 11 t) = _
  rw [after1_11]
  unfold out1_11
  rw [View.canon_unit_zero hz2]
  simp only [View.ld_unit_zero (S := S4096x1) hz2, View.ld_unit_zero (S := S4096x128) hz2, View.ld_unit_zero (S := S128) hz1,
    View.ld_unit_zero (S := S4096x64) hz2, View.ld_unit_zero (S := S64x128) hz2, View.ld_unit_zero (S := S128x3) hz2,
    View.ld_unit_zero (S := S3) hz1]
  obtain ⟨-, -, -, -, -, -, -, -, -, -, -, e0, e1⟩ := idx_facts t
  funext j
  obtain ⟨p, q, rfl⟩ : ∃ (p : Fin 4096) (q : Fin 3), j = ix2 p q := ⟨j 0, j 1, eq_ix2 (n0 := 4096) (n1 := 3) j⟩
  rw [View.read_apply]
  have hn : t.val * 4096 + p.val < Nn := by
    have := t.isLt; have hN : cfg1.N = 32 := N_1; show _ < 131072; omega
  show k1_pay1 (k1_pay5 (iblk1 V c 2 t) (iblk1 V c 0 t) (iblk1 V c 1 t) (iblk1 V c 4 t) (iblk1 V c 3 t) (iblk1 V c 5 t)
        (iblk1 V c 6 t) (iblk1 V c 7 t)) (iblk1 V c 8 t) (ix2 p q) = _
  refine (recon_blocks V c t p q ⟨t.val * 4096 + p.val, hn⟩ rfl).trans ?_
  refine congrArg₂ (Recon V c) (Fin.ext ?_) (Fin.ext ?_)
  · show t.val * 4096 + p.val = win1_11.index t (0 : Fin 2) * 4096 + 1 * p.val; rw [e0]; omega
  · show q.val = win1_11.index t (1 : Fin 2) * 3 + 1 * q.val; rw [e1]; omega

/-- An entry of the reconstruction array lies in point t's block iff its coordinates lie in the block's ranges. -/
theorem mem_blk11 (t : Fin cfg1.N) (i : S131072x3.Idx) :
    i ∈ ((cfg1.win 11).blk t).view.set ↔ ∀ a : Fin 2, win1_11.index t a * S4096x3.size a ≤ (i a).val ∧ (i a).val < win1_11.index t a * S4096x3.size a + S4096x3.size a := by
  show i ∈ ((View.whole main_v39_2).slice (win1_11.rect t)).set ↔ _
  rw [View.set_slice_whole, Rect.mem_set_unit]
  exact Iff.rfl

/-- Row r of the reconstruction array is written by point r / 4096. -/
theorem cover11 (i : S131072x3.Idx) : ∃ t : Fin cfg1.N, (cfg1.win 11).flush t = true ∧ i ∈ ((cfg1.win 11).blk t).view.set := by
  have h0 : (i 0).val < 131072 := (i 0).isLt
  have h1 : (i 1).val < 3 := (i 1).isLt
  have hN' : cfg1.N = 32 := N_1
  let t : Fin cfg1.N := ⟨(i 0).val / 4096, by rw [hN']; omega⟩
  obtain ⟨-, -, -, -, -, -, -, -, -, -, -, e0, e1⟩ := idx_facts t
  refine ⟨t, flush1_11 t, ?_⟩
  rw [mem_blk11]
  intro a
  match a with
  | ⟨0, _⟩ => show win1_11.index t (0 : Fin 2) * 4096 ≤ (i 0).val ∧ (i 0).val < win1_11.index t (0 : Fin 2) * 4096 + 4096
              rw [e0]; show (i 0).val / 4096 * 4096 ≤ (i 0).val ∧ (i 0).val < (i 0).val / 4096 * 4096 + 4096; omega
  | ⟨1, _⟩ => show win1_11.index t (1 : Fin 2) * 3 ≤ (i 1).val ∧ (i 1).val < win1_11.index t (1 : Fin 2) * 3 + 3
              rw [e1]; omega

/-- THE RECONSTRUCTION ARRAY after the region: the decoder of the sample drawn from the combine's
    two halves, row by row. -/
theorem recon_arr (c : Dev nD) :
    (dat1 (F := Ideal) V c).arrAt 11 cfg1.N = fun i => Recon V c (i 0) (i 1) :=
  (dat1 (F := Ideal) V c).arrAt_eq_of_cover 11 (fun i : S131072x3.Idx => Recon V c (i 0) (i 1))
    (fun t _ => flushed11_eq V c t) cover11

end Cert.Region1

end
-- ==== Proof.KernelValue.lean ====
/-
  The kernel program's three results as whole-array functions of its arguments.

  The program is five stretches: host operations (the edge rows, the degree normalisation, the first aggregation on
  the raw features), the first blocked region (the first layer and the second layer's dense transform, plain and
  scaled), host operations (the second aggregation), the second blocked region (the second convolution's combine, its
  two halves, the sample and the decoder), and one reshape. Each stretch's effect on the buffers is known as a named
  term of what it finds; here they are composed, buffer by buffer, from the launch memory to the last boundary: what a
  stretch finds in a buffer is what the stretch before left there, and a buffer no stretch writes holds the argument.
-/
import proofs.«107887_j53420803228324_2_alg».proof.Proof.KernelRun
import proofs.«107887_j53420803228324_2_alg».proof.Proof.KernelHost0
import proofs.«107887_j53420803228324_2_alg».proof.Proof.KernelHost0Args
import proofs.«107887_j53420803228324_2_alg».proof.Proof.KernelHost1
import proofs.«107887_j53420803228324_2_alg».proof.Proof.KernelTerms
import proofs.«107887_j53420803228324_2_alg».proof.Proof.KernelResults
import proofs.«107887_j53420803228324_2_alg».proof.Proof.Region0
import proofs.«107887_j53420803228324_2_alg».proof.Proof.Region1

set_option maxRecDepth 16384

noncomputable section

namespace Cert.KernelIdeal.Assembled

open Cert.KernelIdeal Cert.KernelIdeal.Gen Cert.Spec
open Idealize.ShloMosaic Idealize.ShloMosaic.TcCoe Idealize.SL.Sem
open Cert.KernelIdeal.Terms Cert.KernelIdeal.Results

variable (m : (ℓ : Loc nD τ sig) → Buf (Elt Ideal) ℓ) (ρ : Dev nD → PrngReg)

/-! ## The arguments as launched -/

abbrev a0 (c : Dev nD) : FVec Ideal S131072x3 .f32 := m ((c : Thread nD τ).loc main_arg0)
abbrev a1 (c : Dev nD) : FVec Ideal S131072x64 .f32 := m ((c : Thread nD τ).loc main_arg1)
abbrev a2 (c : Dev nD) : FVec Ideal S3x128 .f32 := m ((c : Thread nD τ).loc main_arg2)
abbrev a3 (c : Dev nD) : FVec Ideal S128 .f32 := m ((c : Thread nD τ).loc main_arg3)
abbrev a4 (c : Dev nD) : FVec Ideal S128x128 .f32 := m ((c : Thread nD τ).loc main_arg4)
abbrev a5 (c : Dev nD) : FVec Ideal S128 .f32 := m ((c : Thread nD τ).loc main_arg5)
abbrev a6 (c : Dev nD) : FVec Ideal S64x128 .f32 := m ((c : Thread nD τ).loc main_arg6)
abbrev a7 (c : Dev nD) : FVec Ideal S128 .f32 := m ((c : Thread nD τ).loc main_arg7)
abbrev a8 (c : Dev nD) : FVec Ideal S128x3 .f32 := m ((c : Thread nD τ).loc main_arg8)
abbrev a9 (c : Dev nD) : FVec Ideal S3 .f32 := m ((c : Thread nD τ).loc main_arg9)
abbrev aE (c : Dev nD) : IVec S2x2097152 32 := m ((c : Thread nD τ).loc main_arg10)

/-! ## What the first region finds: the arguments, the first aggregation, the normalisation column -/

theorem v1_0 (c : Dev nD) : V1 (F := Ideal) m ρ c (Pipeline.arrRef spec0 0) = a0 m c := Host0Args.arg0 (W0 m ρ c)
theorem v1_1 (c : Dev nD) : V1 (F := Ideal) m ρ c (Pipeline.arrRef spec0 1) = aggxT (a0 m c) (aE m c) := Host0.v25 (W0 m ρ c)
theorem v1_2 (c : Dev nD) : V1 (F := Ideal) m ρ c (Pipeline.arrRef spec0 2) = d2T (aE m c) := Host0.v11 (W0 m ρ c)
theorem v1_3 (c : Dev nD) : V1 (F := Ideal) m ρ c (Pipeline.arrRef spec0 3) = a2 m c := Host0Args.arg2 (W0 m ρ c)
theorem v1_4 (c : Dev nD) : V1 (F := Ideal) m ρ c (Pipeline.arrRef spec0 4) = a3 m c := Host0Args.arg3 (W0 m ρ c)
theorem v1_5 (c : Dev nD) : V1 (F := Ideal) m ρ c (Pipeline.arrRef spec0 5) = a4 m c := Host0Args.arg4 (W0 m ρ c)

/-! ## What the first region leaves -/

/-- The dense transform. -/
theorem w2_v26_0 (c : Dev nD) :
    W2 (F := Ideal) m ρ c (Proc.devRef .tc main_v26_0) = hw2A (a0 m c) (a2 m c) (a3 m c) (a4 m c) (aE m c) := by
  refine (W2_arr m ρ c 6).trans ((Cert.Region0.hw2_arr (V1 m ρ) c).trans ?_)
  rw [v1_0 m ρ c, v1_1 m ρ c, v1_2 m ρ c, v1_3 m ρ c, v1_4 m ρ c, v1_5 m ρ c]
  rfl

/-- The dense transform scaled by the normalisation. -/
theorem w2_v26_1 (c : Dev nD) :
    W2 (F := Ideal) m ρ c (Proc.devRef .tc main_v26_1) = hw2scA (a0 m c) (a2 m c) (a3 m c) (a4 m c) (aE m c) := by
  refine (W2_arr m ρ c 7).trans ((Cert.Region0.hw2sc_arr (V1 m ρ) c).trans ?_)
  rw [v1_0 m ρ c, v1_1 m ρ c, v1_2 m ρ c, v1_3 m ρ c, v1_4 m ρ c, v1_5 m ρ c]
  rfl

/-- The normalisation column, which the region only reads. -/
theorem w2_v11 (c : Dev nD) : W2 (F := Ideal) m ρ c (Proc.devRef .tc main_v11) = d2T (aE m c) :=
  (W2_arr m ρ c 2).trans (((dat0 (V1 m ρ) c).arrAt_in 2 rfl _).trans ((A_eq0 (V1 m ρ) c 2).trans (v1_2 m ρ c)))

/-- The buffers the region does not touch. -/
theorem w2_v1 (c : Dev nD) : W2 (F := Ideal) m ρ c (Proc.devRef .tc main_v1) = rowT (aE m c) :=
  (W2_of_ne m ρ c main_v1 (by decide)).trans (Host0.v1 (W0 m ρ c))
theorem w2_v3 (c : Dev nD) : W2 (F := Ideal) m ρ c (Proc.devRef .tc main_v3) = colT (aE m c) :=
  (W2_of_ne m ρ c main_v3 (by decide)).trans (Host0.v3 (W0 m ρ c))
theorem w2_arg1 (c : Dev nD) : W2 (F := Ideal) m ρ c (Proc.devRef .tc main_arg1) = a1 m c :=
  (W2_of_ne m ρ c main_arg1 (by decide)).trans (Host0Args.arg1 (W0 m ρ c))
theorem w2_arg5 (c : Dev nD) : W2 (F := Ideal) m ρ c (Proc.devRef .tc main_arg5) = a5 m c :=
  (W2_of_ne m ρ c main_arg5 (by decide)).trans (Host0Args.arg5 (W0 m ρ c))
theorem w2_arg6 (c : Dev nD) : W2 (F := Ideal) m ρ c (Proc.devRef .tc main_arg6) = a6 m c :=
  (W2_of_ne m ρ c main_arg6 (by decide)).trans (Host0Args.arg6 (W0 m ρ c))
theorem w2_arg7 (c : Dev nD) : W2 (F := Ideal) m ρ c (Proc.devRef .tc main_arg7) = a7 m c :=
  (W2_of_ne m ρ c main_arg7 (by decide)).trans (Host0Args.arg7 (W0 m ρ c))
theorem w2_arg8 (c : Dev nD) : W2 (F := Ideal) m ρ c (Proc.devRef .tc main_arg8) = a8 m c :=
  (W2_of_ne m ρ c main_arg8 (by decide)).trans (Host0Args.arg8 (W0 m ρ c))
theorem w2_arg9 (c : Dev nD) : W2 (F := Ideal) m ρ c (Proc.devRef .tc main_arg9) = a9 m c :=
  (W2_of_ne m ρ c main_arg9 (by decide)).trans (Host0Args.arg9 (W0 m ρ c))

/-! ## What the second region finds -/

/-- The second aggregation, of the scaled dense transform along the edges. -/
theorem v3_0 (c : Dev nD) :
    V3 (F := Ideal) m ρ c (Pipeline.arrRef spec1 0) = agg2A (a0 m c) (a2 m c) (a3 m c) (a4 m c) (aE m c) := by
  refine (Host1.v38 (W2 m ρ c)).trans ?_
  rw [w2_v11 m ρ c, w2_v26_1 m ρ c, w2_v1 m ρ c, w2_v3 m ρ c]
  rfl
theorem v3_1 (c : Dev nD) :
    V3 (F := Ideal) m ρ c (Pipeline.arrRef spec1 1) = hw2A (a0 m c) (a2 m c) (a3 m c) (a4 m c) (aE m c) :=
  (Host1.v26_0 (W2 m ρ c)).trans (w2_v26_0 m ρ c)
theorem v3_2 (c : Dev nD) : V3 (F := Ideal) m ρ c (Pipeline.arrRef spec1 2) = d2T (aE m c) :=
  (Host1.v11 (W2 m ρ c)).trans (w2_v11 m ρ c)
theorem v3_3 (c : Dev nD) : V3 (F := Ideal) m ρ c (Pipeline.arrRef spec1 3) = a1 m c :=
  (Host1.arg1 (W2 m ρ c)).trans (w2_arg1 m ρ c)
theorem v3_4 (c : Dev nD) : V3 (F := Ideal) m ρ c (Pipeline.arrRef spec1 4) = a5 m c :=
  (Host1.arg5 (W2 m ρ c)).trans (w2_arg5 m ρ c)
theorem v3_5 (c : Dev nD) : V3 (F := Ideal) m ρ c (Pipeline.arrRef spec1 5) = a6 m c :=
  (Host1.arg6 (W2 m ρ c)).trans (w2_arg6 m ρ c)
theorem v3_6 (c : Dev nD) : V3 (F := Ideal) m ρ c (Pipeline.arrRef spec1 6) = a7 m c :=
  (Host1.arg7 (W2 m ρ c)).trans (w2_arg7 m ρ c)
theorem v3_7 (c : Dev nD) : V3 (F := Ideal) m ρ c (Pipeline.arrRef spec1 7) = a8 m c :=
  (Host1.arg8 (W2 m ρ c)).trans (w2_arg8 m ρ c)
theorem v3_8 (c : Dev nD) : V3 (F := Ideal) m ρ c (Pipeline.arrRef spec1 8) = a9 m c :=
  (Host1.arg9 (W2 m ρ c)).trans (w2_arg9 m ρ c)

/-- So the combine the second region forms is the second convolution's output of the arguments. -/
theorem h2_eq (c : Dev nD) :
    Cert.Region1.H2 (V3 (F := Ideal) m ρ) c = out2A (a0 m c) (a2 m c) (a3 m c) (a4 m c) (a5 m c) (aE m c) := by
  funext n q
  show h2K _ _ _ _ n q = _
  rw [v3_0 m ρ c, v3_1 m ρ c, v3_2 m ρ c, v3_4 m ρ c]
  rfl

/-! ## What the second region leaves, and the last reshape -/

theorem w4_mean (c : Dev nD) :
    W4 (F := Ideal) m ρ c (Proc.devRef .tc main_v39_0) = meanA (a0 m c) (a2 m c) (a3 m c) (a4 m c) (a5 m c) (aE m c) := by
  refine (W4_arr m ρ c 9).trans ((Cert.Region1.mean_arr (V3 m ρ) c).trans ?_)
  rw [h2_eq m ρ c]
  rfl

theorem w4_logvar (c : Dev nD) :
    W4 (F := Ideal) m ρ c (Proc.devRef .tc main_v39_1) = logvarA (a0 m c) (a2 m c) (a3 m c) (a4 m c) (a5 m c) (aE m c) := by
  refine (W4_arr m ρ c 10).trans ((Cert.Region1.logvar_arr (V3 m ρ) c).trans ?_)
  rw [h2_eq m ρ c]
  rfl

theorem w4_recon (c : Dev nD) :
    W4 (F := Ideal) m ρ c (Proc.devRef .tc main_v39_2)
      = reconA (a0 m c) (a1 m c) (a2 m c) (a3 m c) (a4 m c) (a5 m c) (a6 m c) (a7 m c) (a8 m c) (a9 m c) (aE m c) := by
  refine (W4_arr m ρ c 11).trans ((Cert.Region1.recon_arr (V3 m ρ) c).trans ?_)
  funext i
  show reconOf (Cert.Region1.H2 (V3 (F := Ideal) m ρ) c) _ _ _ _ _ (i 0) (i 1) = _
  rw [h2_eq m ρ c, v3_3 m ρ c, v3_5 m ρ c, v3_6 m ρ c, v3_7 m ρ c, v3_8 m ρ c]
  rfl

/-- THE MEAN after the last stretch. -/
theorem w5_mean (c : Dev nD) :
    W5 (F := Ideal) m ρ c (Proc.devRef .tc main_v39_0) = meanA (a0 m c) (a2 m c) (a3 m c) (a4 m c) (a5 m c) (aE m c) :=
  (Host1.v39_0 (W4 m ρ c)).trans (w4_mean m ρ c)

/-- THE LOG-VARIANCE after the last stretch. -/
theorem w5_logvar (c : Dev nD) :
    W5 (F := Ideal) m ρ c (Proc.devRef .tc main_v39_1) = logvarA (a0 m c) (a2 m c) (a3 m c) (a4 m c) (a5 m c) (aE m c) :=
  (Host1.v39_1 (W4 m ρ c)).trans (w4_logvar m ρ c)

/-- THE RECONSTRUCTION after the last stretch, reshaped to [64, 2048, 3]. -/
theorem w5_recon (c : Dev nD) :
    W5 (F := Ideal) m ρ c (Proc.devRef .tc main_v40)
      = shapeCast S64x2048x3 (reconA (a0 m c) (a1 m c) (a2 m c) (a3 m c) (a4 m c) (a5 m c) (a6 m c) (a7 m c) (a8 m c) (a9 m c) (aE m c))
          shapeCasts_S131072x3_S64x2048x3 :=
  (Host1.v40 (W4 m ρ c)).trans (congrArg (fun z => shapeCast S64x2048x3 z shapeCasts_S131072x3_S64x2048x3) (w4_recon m ρ c))

/-! ## The run -/

/-- Every execution of the program ends with the three results at these functions of the arguments, and the arguments
    as launched. -/
theorem run_values : θ_run defs (onTc (τ := τ) (main (F := Ideal))) ⟨m, fun _ => 0, ρ⟩ (fun r => ∀ c : Dev nD,
      r.2.mem ((c.tc : Thread nD τ).loc main_v40)
          = shapeCast S64x2048x3 (reconA (a0 m c) (a1 m c) (a2 m c) (a3 m c) (a4 m c) (a5 m c) (a6 m c) (a7 m c) (a8 m c) (a9 m c) (aE m c))
              shapeCasts_S131072x3_S64x2048x3
      ∧ r.2.mem ((c.tc : Thread nD τ).loc main_v39_0) = meanA (a0 m c) (a2 m c) (a3 m c) (a4 m c) (a5 m c) (aE m c)
      ∧ r.2.mem ((c.tc : Thread nD τ).loc main_v39_1) = logvarA (a0 m c) (a2 m c) (a3 m c) (a4 m c) (a5 m c) (aE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c main_v40 (by decide)).trans (w5_recon m ρ c),
     (h c main_v39_0 (by decide)).trans (w5_mean m ρ c),
     (h c main_v39_1 (by decide)).trans (w5_logvar m ρ c),
     (h c main_arg0 (by decide)).trans (W5_main_arg0 m ρ c),
     (h c main_arg1 (by decide)).trans (W5_main_arg1 m ρ c),
     (h c main_arg2 (by decide)).trans (W5_main_arg2 m ρ c),
     (h c main_arg3 (by decide)).trans (W5_main_arg3 m ρ c),
     (h c main_arg4 (by decide)).trans (W5_main_arg4 m ρ c),
     (h c main_arg5 (by decide)).trans (W5_main_arg5 m ρ c),
     (h c main_arg6 (by decide)).trans (W5_main_arg6 m ρ c),
     (h c main_arg7 (by decide)).trans (W5_main_arg7 m ρ c),
     (h c main_arg8 (by decide)).trans (W5_main_arg8 m ρ c),
     (h c main_arg9 (by decide)).trans (W5_main_arg9 m ρ c),
     (h c main_arg10 (by decide)).trans (W5_main_arg10 m ρ c)⟩)
    (Cert.KernelIdeal.RunValues.run_all m ρ)

end Cert.KernelIdeal.Assembled

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LibGraphRows.lean ====
/-
  GATHER AND SCATTER-ADD ALONG THE ROWS OF A MATRIX, READ AT COORDINATES, and the one law of a graph convolution.

  A row gather `x[idx]` of a matrix `[N, C]` (or of a vector `[N]`) at `E` start indices held as a column `[E, 1]` reads,
  for edge `e`, row `clampRow (idx (e, 0))`: the start index read as a signed integer and clamped into `[0, N - 1]`.
  A scatter-add of `E` update rows into the rows of `[N, C]` sends update `(e, c)` to `(idx (e, 0), c)` when the start
  index, read signed and NOT clamped, is a row of the matrix, and drops it otherwise. So an update that lands in row
  `r` has start index exactly `r`, which is a fixed point of jnp's negative-index wrap and of the gather's clamp: the
  degree normalisation gathered at the destination of an edge that lands in row `r` is the normalisation of row `r`.
  That is what lets the factor `dinv r` out of the sum over the edges into `r` — a finite nonnegative factor comes out
  of any finite sum of extended reals (`scaled_sum`); `dinv` is `rsqrt` of a positive degree, or zero.

  Every statement takes the dimension numbers by their lists, so that any printed record with these lists unifies.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«107887_j53420803228324_2_alg».proof.Proof.LibSoftmaxRow

namespace Cert.Lib.GraphRows

open Idealize.ShloMosaic Idealize.ShloMosaic.ValueIdx

/-- The row a start index selects in a gather: read signed, clamped into `[0, N - 1]`. -/
def clampRow {N w : ℕ} (hN : 0 < N) (b : BitVec w) : Fin N := ⟨min b.toInt.toNat (N - 1), by omega⟩

/-- A start index that IS a row (read signed) is the row the gather selects. -/
theorem clampRow_of_toInt {N w : ℕ} (hN : 0 < N) (b : BitVec w) (r : Fin N) (h : b.toInt = (r.val : ℤ)) :
    clampRow hN b = r := by
  apply Fin.ext
  show min b.toInt.toNat (N - 1) = r.val
  rw [h, Int.toNat_natCast]
  have := r.isLt
  omega

/-! ## Row gathers -/

set_option backward.isDefEq.respectTransparency.types false in
/-- A row gather of a matrix `[N, C]` at start indices `[E, 1]`: result `(e, c)` reads the operand at
    `(clampRow (idx (e, 0)), c)`. -/
theorem gatherRows_operandIdx {N E C w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (clampRow hN (idx (ix2 e (0 : Fin 1)))) c := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show ¬ (1 : Fin 2) ∈ [(0 : Fin 2)] by decide)]
    unfold GatherDims.offCoord
    rw [dif_pos ((GatherDims.mem_sKept _ _).2 ⟨show ¬ (1 : Fin 2) ∈ [(0 : Fin 2)] by decide, List.not_mem_nil⟩)]
    simp only [Nat.zero_add]
    rfl

set_option backward.isDefEq.respectTransparency.types false in
/-- A gather of a vector `[N]` at start indices `[E, 1]`: result `e` reads the operand at `clampRow (idx (e, 0))`. -/
theorem gatherVec_operandIdx {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow hN (idx (ix2 e (0 : Fin 1)))) := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ : GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The row scatter -/

/-- The row scatter's dimension numbers as a literal record. -/
private abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
private theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : ℤ) ∧ (i 1).val = c.val := by
  have hs0 : (rowScatter N E C wf).start (ix2 e c) idx 0 = (idx (ix2 e (0 : Fin 1))).toInt := by
    unfold ScatterDims.start
    rw [dif_pos (List.mem_singleton.mpr rfl)]
    have hsi : (rowScatter N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatter N E C wf).window (ix2 e c) 0 = 0 := by
    unfold ScatterDims.window
    rw [dif_neg (by simp [ScatterDims.sKept, Shape.kept])]
  have hs1 : (rowScatter N E C wf).start (ix2 e c) idx 1 = 0 := by
    unfold ScatterDims.start
    rw [dif_neg (show ¬ (1 : Fin 2) ∈ [(0 : Fin 2)] by decide)]
  have hw1 : (rowScatter N E C wf).window (ix2 e c) 1 = c.val := by
    unfold ScatterDims.window
    rw [dif_pos (by simp [ScatterDims.sKept, Shape.kept])]
    rfl
  unfold ScatterDims.resultIdx? at h
  split at h
  · rename_i hb
    have hi := Option.some.inj h
    have e0 : ((rowScatter N E C wf).start (ix2 e c) idx 0 + ((rowScatter N E C wf).window (ix2 e c) 0 : ℕ)).toNat = (i 0).val :=
      congrArg Fin.val (congrFun hi 0)
    have e1 : ((rowScatter N E C wf).start (ix2 e c) idx 1 + ((rowScatter N E C wf).window (ix2 e c) 1 : ℕ)).toNat = (i 1).val :=
      congrArg Fin.val (congrFun hi 1)
    have hb0 := (hb 0).1
    rw [hs0, hw0] at e0 hb0
    rw [hs1, hw1] at e1
    simp only [Nat.cast_zero, add_zero] at e0 hb0
    constructor
    · rw [← e0]; exact (Int.toNat_of_nonneg hb0).symm
    · rw [← e1]; simp
  · exact absurd h (by simp)

/-- A row scatter into `[N, C]` at scatter indices `[E, 1]`: update `(e, c)` lands at `i` only if its start index, read
    signed, is the row of `i`, and then in column `c`. -/
theorem scatterRows_lands {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C)
    (i : (⟨2, ![N, C]⟩ : Shape).Idx) (h : d.resultIdx? (ix2 e c) idx = some i) :
    (idx (ix2 e (0 : Fin 1))).toInt = ((i 0).val : ℤ) ∧ (i 1).val = c.val := by
  obtain ⟨uw, iw, sd, iv, wf⟩ := d
  dsimp only at h1 h2 h3 h4
  subst h1 h2 h3 h4
  exact rowScatter_lands wf idx e c i h

/-! ## A gather, a scatter-add and a splat constant read at an index (by definition, stated once for abstract shapes) -/

/-- A gather reads the operand at the gather's operand index. -/
theorem gather_apply {α : Type} {s si t : Shape} {w : ℕ} (d : GatherDims s si t) (x : s.Idx → α) (idx : IVec si w)
    (j : t.Idx) : Host.gather d x idx j = x (d.operandIdx j idx) := rfl

/-- On the extended reals a scatter-add is the operand's element plus the sum of the updates that land on it. -/
theorem scatterAdd_apply {s si su : Shape} {φ : FTy} {w : ℕ} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- A scalar constant broadcast to any shape reads the constant. -/
theorem splat_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-- A gathered array widened to another float format reads the operand at the gather's operand index. -/
theorem extf_gather_apply {s si t : Shape} {φ ψ : FTy} {w : ℕ} (d : GatherDims s si t) (x : FVec Ideal s φ)
    (idx : IVec si w) (hb : φ.bits < ψ.bits) (j : t.Idx) :
    extf ψ (Host.gather d x idx) hb j = x (d.operandIdx j idx) := rfl

/-- A gathered array times another, elementwise. -/
theorem mulf_gather_apply {s si t : Shape} {φ : FTy} {w : ℕ} (d : GatherDims s si t) (x : FVec Ideal s φ)
    (idx : IVec si w) (y : FVec Ideal t φ) (j : t.Idx) :
    mulf (Host.gather d x idx) y j = x (d.operandIdx j idx) * y j := rfl

/-! ## jnp's wrap of a negative index -/

/-- `where(v < z, v + n, v)` with `z` the zero word leaves a nonnegative index as it is. -/
theorem wrap_of_nonneg {w : ℕ} (v z n : BitVec w) (hz : z.toInt = 0) (h : 0 ≤ v.toInt) :
    Scalar.select (IntOp.cmpi .slt v z) (IntOp.addi v n) v = v := by
  have : IntOp.cmpi .slt v z = 0#1 := by
    show BitVec.ofBool (v.slt z) = 0#1
    have hs : v.slt z = false := by
      rw [BitVec.slt_eq_decide, hz]
      exact decide_eq_false (not_lt.mpr h)
    rw [hs]; rfl
  rw [this]
  exact select_zero _ _

/-! ## The normalisation factor and the law -/

/-- `where(deg > 0, rsqrt deg, 0)` is a finite nonnegative number, whatever `deg` is. -/
theorem dinv_bounds (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc, select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      show BitVec.ofBool (decide ((0 : EReal) < d)) = 0#1
      rw [decide_eq_false h]; rfl
    rw [hc, select_zero]
    exact ⟨le_refl _, EReal.zero_ne_top⟩

/-- THE LAW: a sum of messages `a j * s j` scaled afterwards by a finite nonnegative `c` is the sum of the messages each
    scaled by `s j * t j`, when `t j = c` on the summed set. (Both sums start from the zero the scatter adds into.) -/
theorem scaled_sum {ι : Type*} (L : Finset ι) (a s t : ι → EReal) (c : EReal) (h0 : 0 ≤ c) (ht : c ≠ ⊤)
    (hc : ∀ j ∈ L, t j = c) :
    (0 + ∑ j ∈ L, a j * s j) * c = 0 + ∑ j ∈ L, a j * (s j * t j) := by
  rw [zero_add, zero_add, Cert.Lib.SoftmaxRow.sum_mul_of_nonneg_of_ne_top _ _ h0 ht]
  exact Finset.sum_congr rfl fun j hj => by rw [hc j hj, mul_assoc]

/-! ## One graph convolution, both ways -/

set_option backward.isDefEq.respectTransparency.types false in
/-- A GRAPH CONVOLUTION AT NODE `r`, COLUMN `q`. With `h` the dense transform `[N, C]`, `dinv` the normalisation of the
    nodes, `srcI` / `dstNI` the wrapped source and destination start indices the gathers read and `dstI` the raw
    destination indices the scatter reads: summing into `(r, q)` the rows of `h` ALREADY SCALED by `dinv` of their own node
    and scaling the sum by `dinv r` afterwards is summing the rows of `h` each times
    `norm e = dinv[src e] * dinv[dst e]` — because an edge that lands in row `r` has destination `r`, a fixed point of
    the wrap (`hwrap`) and of the gather's clamp. -/
theorem conv_at {N E C w : ℕ} (hN : 0 < N)
    (sc : ScatterDims ⟨2, ![N, C]⟩ ⟨2, ![E, 1]⟩ ⟨2, ![E, C]⟩)
    (s1 : sc.updateWindowDims = [1]) (s2 : sc.insertedWindowDims = [0]) (s3 : sc.scatterDimsToOperandDims = [0])
    (s4 : sc.indexVectorDim = 1)
    (g : GatherDims ⟨2, ![N, C]⟩ ⟨2, ![E, 1]⟩ ⟨2, ![E, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (dinv : (⟨1, ![N]⟩ : Shape).Idx → EReal) (hd : ∀ i, 0 ≤ dinv i ∧ dinv i ≠ ⊤)
    (h : (⟨2, ![N, C]⟩ : Shape).Idx → EReal)
    (srcI dstI dstNI : IVec ⟨2, ![E, 1]⟩ w)
    (hwrap : ∀ e : Fin E, 0 ≤ (dstI (ix2 e (0 : Fin 1))).toInt → dstNI (ix2 e (0 : Fin 1)) = dstI (ix2 e (0 : Fin 1)))
    (r : Fin N) (q : Fin C) :
    (0 + ∑ j ∈ Finset.univ.filter (fun j => sc.resultIdx? j dstI = some (ix2 r q)),
        (h (g.operandIdx j srcI) * dinv (ix1 ((g.operandIdx j srcI) 0)))) * dinv (ix1 r)
      = 0 + ∑ j ∈ Finset.univ.filter (fun j => sc.resultIdx? j dstI = some (ix2 r q)),
          h (g.operandIdx j srcI)
            * (dinv (gv.operandIdx (ix1 (j 0)) srcI) * dinv (gv.operandIdx (ix1 (j 0)) dstNI)) := by
  have key := scaled_sum (Finset.univ.filter (fun j => sc.resultIdx? j dstI = some (ix2 r q)))
    (fun j => h (g.operandIdx j srcI)) (fun j => dinv (ix1 ((g.operandIdx j srcI) 0)))
    (fun j => dinv (gv.operandIdx (ix1 (j 0)) dstNI)) (dinv (ix1 r)) (hd _).1 (hd _).2 (by
      intro j hj
      have hl := (Finset.mem_filter.mp hj).2
      rw [eq_ix2 j] at hl
      obtain ⟨hrow, -⟩ := scatterRows_lands sc s1 s2 s3 s4 dstI (j 0) (j 1) (ix2 r q) hl
      have hrow' : (dstI (ix2 (j 0) (0 : Fin 1))).toInt = (r.val : ℤ) := hrow
      have hnn : 0 ≤ (dstI (ix2 (j 0) (0 : Fin 1))).toInt := by rw [hrow']; exact Int.natCast_nonneg _
      show dinv (gv.operandIdx (ix1 (j 0)) dstNI) = dinv (ix1 r)
      rw [gatherVec_operandIdx hN gv v1 v2 v3 v4 v5 v6 v7 dstNI (j 0), hwrap (j 0) hnn,
        clampRow_of_toInt hN _ r hrow'])
  refine key.trans ?_
  refine congrArg (0 + ·) (Finset.sum_congr rfl fun j _ => ?_)
  show h (g.operandIdx j srcI) * (dinv (ix1 ((g.operandIdx j srcI) 0)) * dinv (gv.operandIdx (ix1 (j 0)) dstNI)) = _
  have e0 : g.operandIdx j srcI = ix2 (clampRow hN (srcI (ix2 (j 0) (0 : Fin 1)))) (j 1) :=
    (congrArg (fun j' => g.operandIdx j' srcI) (eq_ix2 j)).trans
      (gatherRows_operandIdx hN g g1 g2 g3 g4 g5 g6 g7 srcI (j 0) (j 1))
  have e1 : ix1 ((g.operandIdx j srcI) 0) = gv.operandIdx (ix1 (j 0)) srcI :=
    (congrArg (fun z : (⟨2, ![N, C]⟩ : Shape).Idx => ix1 (z 0)) e0).trans
      (gatherVec_operandIdx hN gv v1 v2 v3 v4 v5 v6 v7 srcI (j 0)).symm
  exact congrArg (fun z => h (g.operandIdx j srcI) * (dinv z * dinv (gv.operandIdx (ix1 (j 0)) dstNI))) e1

end Cert.Lib.GraphRows
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.RefValue.lean ====
/-
  The reference program read coordinate by coordinate: a two-layer graph convolution encoder followed by a
  variational decoder. Each stage of the program is a whole array; the statements below say what one element of a
  stage is in terms of elements of earlier stages, down to the arguments.

  One graph convolution at node n, column q is  aggregated(n,q) + dense(n,q) * (dinv n * dinv n) + bias q.
  The aggregation is a scatter-add into a zero array of the gathered rows of dense, each scaled by the edge norm
  dinv[src] * dinv[dst]. The second convolution's 128 columns split into a mean (columns 0..63) and a log-variance
  (columns 64..127); the decoder draws  z = mean + eps * exp(1/2 * logvar)  and applies two dense layers with a
  rectifier between them.
-/
import proofs.«107887_j53420803228324_2_alg».proof.Proof.Gen.ReferenceIdeal.Read
import proofs.«107887_j53420803228324_2_alg».proof.Proof.Spec
import proofs.«107887_j53420803228324_2_alg».proof.Proof.LibGraphRows
import proofs.«107887_j53420803228324_2_alg».proof.Proof.LibPlainDotGeneral

noncomputable section

namespace Cert.RefValue

open Cert.ReferenceIdeal Cert.ReferenceIdeal.Read Cert.Spec Idealize.ShloMosaic Idealize.ShloMosaic.ValueIdx

variable (x0 : (⟨S131072x3, .f32⟩ : BufTy).Contents (Elt Ideal))
  (x1 : (⟨S131072x64, .f32⟩ : BufTy).Contents (Elt Ideal))
  (x2 : (⟨S3x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S64x128, .f32⟩ : BufTy).Contents (Elt Ideal))
  (x7 : (⟨S128, .f32⟩ : BufTy).Contents (Elt Ideal))
  (x8 : (⟨S128x3, .f32⟩ : BufTy).Contents (Elt Ideal))
  (x9 : (⟨S3, .f32⟩ : BufTy).Contents (Elt Ideal))
  (x10 : (⟨S2x2097152, .i32⟩ : BufTy).Contents (Elt Ideal))

/-! ## The two halves of the second convolution's output -/

/-- The mean is the low 64 columns of the second convolution. -/
theorem mean_eq :
    val_main_v69 (F := Ideal) x0 x2 x3 x4 x5 x10
      = fun i => val_main_v68 (F := Ideal) x0 x2 x3 x4 x5 x10 (ix2 (n0 := 131072) (n1 := 128) (i 0) (lo (i 1))) := by
  funext i
  rw [val_main_v69_apply]
  refine congrArg _ ?_
  funext a
  match a with
  | ⟨0, _⟩ => rfl
  | ⟨1, _⟩ => rfl

/-- The log-variance is the high 64 columns of the second convolution. -/
theorem logvar_eq :
    val_main_v70 (F := Ideal) x0 x2 x3 x4 x5 x10
      = fun i => val_main_v68 (F := Ideal) x0 x2 x3 x4 x5 x10 (ix2 (n0 := 131072) (n1 := 128) (i 0) (hi (i 1))) := by
  funext i
  rw [val_main_v70_apply]
  refine congrArg _ ?_
  funext a
  match a with
  | ⟨0, _⟩ => rfl
  | ⟨1, _⟩ => rfl

/-- The mean at node n, latent column q. -/
theorem mean_at (n : Fin 131072) (q : Fin 64) :
    val_main_v69 (F := Ideal) x0 x2 x3 x4 x5 x10 (ix2 n q)
      = val_main_v68 (F := Ideal) x0 x2 x3 x4 x5 x10 (ix2 n (lo q)) := by
  rw [val_main_v69_apply]
  refine congrArg _ ?_
  funext a
  match a with
  | ⟨0, _⟩ => rfl
  | ⟨1, _⟩ => rfl

/-- The log-variance at node n, latent column q. -/
theorem logvar_at (n : Fin 131072) (q : Fin 64) :
    val_main_v70 (F := Ideal) x0 x2 x3 x4 x5 x10 (ix2 n q)
      = val_main_v68 (F := Ideal) x0 x2 x3 x4 x5 x10 (ix2 n (hi q)) := by
  rw [val_main_v70_apply]
  refine congrArg _ ?_
  funext a
  match a with
  | ⟨0, _⟩ => rfl
  | ⟨1, _⟩ => rfl

/-! ## The combine of a convolution: aggregated + dense * dinv² + bias -/

/-- The second convolution at node n, column q. -/
theorem out2_at (n : Fin 131072) (q : Fin 128) :
    val_main_v68 (F := Ideal) x0 x2 x3 x4 x5 x10 (ix2 n q)
      = val_main_v62 (F := Ideal) x0 x2 x3 x4 x10 (ix2 n q)
        + val_main_v49 (F := Ideal) x0 x2 x3 x4 x10 (ix2 n q)
          * (val_main_v10 (F := Ideal) x10 (ix1 n) * val_main_v10 (F := Ideal) x10 (ix1 n))
        + x5 (ix1 q) := by
  have e1 : idx_main_v66 (idx_main_v67 (ix2 n q)) = ix1 q := by
    funext a; match a with | ⟨0, _⟩ => rfl
  have e2 : idx_main_v27 (idx_main_v63 (ix2 n q)) = ix1 n := by
    funext a; match a with | ⟨0, _⟩ => rfl
  rw [val_main_v68_apply, val_main_v65_apply, val_main_v64_apply, val_main_v63_apply, val_main_v27_apply,
    val_main_v26_apply, val_main_v67_apply, val_main_v66_apply, e1, e2]
  rfl

/-- The first dense transform is the node features times the first weights. -/
theorem hw1_at (n : Fin 131072) (k : Fin 128) :
    val_main_v28 (F := Ideal) x0 x2 (ix2 n k) = dot x0 x2 n k := by
  rw [val_main_v28_apply]
  unfold dot
  refine Finset.sum_congr rfl fun j _ => ?_
  have el : lidx_main_v28 (ix2 n k) j = ix2 n j := by
    funext a; match a with | ⟨0, _⟩ => rfl | ⟨1, _⟩ => rfl
  have er : ridx_main_v28 (ix2 n k) j = ix2 j k := by
    funext a; match a with | ⟨0, _⟩ => rfl | ⟨1, _⟩ => rfl
  rw [el, er]

/-- The first convolution before the rectifier, at node n, column k. -/
theorem pre1_at (n : Fin 131072) (k : Fin 128) :
    val_main_v47 (F := Ideal) x0 x2 x3 x10 (ix2 n k)
      = val_main_v41 (F := Ideal) x0 x2 x10 (ix2 n k)
        + dot x0 x2 n k * (val_main_v10 (F := Ideal) x10 (ix1 n) * val_main_v10 (F := Ideal) x10 (ix1 n))
        + x3 (ix1 k) := by
  have e1 : idx_main_v45 (idx_main_v46 (ix2 n k)) = ix1 k := by
    funext a; match a with | ⟨0, _⟩ => rfl
  have e2 : idx_main_v27 (idx_main_v42 (ix2 n k)) = ix1 n := by
    funext a; match a with | ⟨0, _⟩ => rfl
  rw [val_main_v47_apply, val_main_v44_apply, val_main_v43_apply, val_main_v42_apply, val_main_v27_apply,
    val_main_v26_apply, val_main_v46_apply, val_main_v45_apply, e1, e2, hw1_at]
  rfl

/-- The second dense transform: the rectified first convolution times the second weights. -/
theorem hw2_at (n : Fin 131072) (f : Fin 128) :
    val_main_v49 (F := Ideal) x0 x2 x3 x4 x10 (ix2 n f)
      = ∑ k : Fin 128, max (val_main_v47 (F := Ideal) x0 x2 x3 x10 (ix2 n k)) 0 * x4 (ix2 k f) := by
  rw [val_main_v49_apply]
  refine Finset.sum_congr rfl fun k _ => ?_
  have el : lidx_main_v49 (ix2 n f) k = ix2 n k := by
    funext a; match a with | ⟨0, _⟩ => rfl | ⟨1, _⟩ => rfl
  have er : ridx_main_v49 (ix2 n f) k = ix2 k f := by
    funext a; match a with | ⟨0, _⟩ => rfl | ⟨1, _⟩ => rfl
  rw [el, er, val_main_v48_apply, val_main_call0_v0_apply, val_main_call0_cst_apply, Ideal.maximumf_def,
    Ideal.ofBits_def, Ideal.ofBits_zero_f32]

/-! ## The aggregation: a scatter-add, into zeros, of gathered rows scaled by the edge norm -/

/-- The edge norm broadcast along the columns, read at edge row j: dinv at the source times dinv at the destination. -/
private theorem norm_idx (j : S2097152x128.Idx) :
    idx_main_v36 (idx_main_v37 j) = ix1 (n := 2097152) (j 0) := by
  funext a; match a with | ⟨0, _⟩ => rfl

private theorem norm_idx' (j : S2097152x128.Idx) :
    idx_main_v57 (idx_main_v58 j) = ix1 (n := 2097152) (j 0) := by
  funext a; match a with | ⟨0, _⟩ => rfl

/-- The edge norm at edge e. -/
private theorem enorm_at (e : S2097152.Idx) :
    val_main_v25 (F := Ideal) x10 e
      = val_main_v10 (F := Ideal) x10
          (gather_S131072_S2097152x1_S2097152_n_0_n_n_0_1_1.operandIdx e (val_main_v16 (F := Ideal) x10))
        * val_main_v10 (F := Ideal) x10
          (gather_S131072_S2097152x1_S2097152_n_0_n_n_0_1_1.operandIdx e (val_main_v23 (F := Ideal) x10)) := by
  rw [val_main_v25_apply]
  unfold val_main_v17 val_main_v24
  rw [Cert.Lib.GraphRows.gather_apply, Cert.Lib.GraphRows.gather_apply, Ideal.mulf_def]

/-- The first aggregation at an index: zero plus the sum, over the edge rows that land there, of the gathered dense
    row times the edge norm. -/
theorem agg1_at (i : S131072x128.Idx) :
    val_main_v41 (F := Ideal) x0 x2 x10 i
      = 0 + ∑ j ∈ Finset.univ.filter (fun j =>
            scatter_S131072x128_S2097152x1_S2097152x128_1_0_0_1.resultIdx? j (val_main_v40 (F := Ideal) x10) = some i),
          val_main_v28 (F := Ideal) x0 x2
              (gather_S131072x128_S2097152x1_S2097152x128_1_0_n_n_0_1_1128.operandIdx j (val_main_v34 (F := Ideal) x10))
            * (val_main_v10 (F := Ideal) x10
                  (gather_S131072_S2097152x1_S2097152_n_0_n_n_0_1_1.operandIdx (ix1 (n := 2097152) (j 0)) (val_main_v16 (F := Ideal) x10))
                * val_main_v10 (F := Ideal) x10
                  (gather_S131072_S2097152x1_S2097152_n_0_n_n_0_1_1.operandIdx (ix1 (n := 2097152) (j 0)) (val_main_v23 (F := Ideal) x10))) := by
  unfold val_main_v41
  rw [Cert.Lib.GraphRows.scatterAdd_apply, val_main_v39_apply, val_main_cst_7_apply, Ideal.ofBits_def,
    Ideal.ofBits_zero_f32]
  refine congrArg (fun s => (0 : EReal) + s) (Finset.sum_congr rfl fun j _ => ?_)
  rw [val_main_v38_apply, val_main_v37_apply, val_main_v36_apply, norm_idx, enorm_at, Ideal.mulf_def]
  unfold val_main_v35
  rw [Cert.Lib.GraphRows.gather_apply]

/-- The second aggregation at an index, the same with the second dense transform. -/
theorem agg2_at (i : S131072x128.Idx) :
    val_main_v62 (F := Ideal) x0 x2 x3 x4 x10 i
      = 0 + ∑ j ∈ Finset.univ.filter (fun j =>
            scatter_S131072x128_S2097152x1_S2097152x128_1_0_0_1.resultIdx? j (val_main_v61 (F := Ideal) x10) = some i),
          val_main_v49 (F := Ideal) x0 x2 x3 x4 x10
              (gather_S131072x128_S2097152x1_S2097152x128_1_0_n_n_0_1_1128.operandIdx j (val_main_v55 (F := Ideal) x10))
            * (val_main_v10 (F := Ideal) x10
                  (gather_S131072_S2097152x1_S2097152_n_0_n_n_0_1_1.operandIdx (ix1 (n := 2097152) (j 0)) (val_main_v16 (F := Ideal) x10))
                * val_main_v10 (F := Ideal) x10
                  (gather_S131072_S2097152x1_S2097152_n_0_n_n_0_1_1.operandIdx (ix1 (n := 2097152) (j 0)) (val_main_v23 (F := Ideal) x10))) := by
  unfold val_main_v62
  rw [Cert.Lib.GraphRows.scatterAdd_apply, val_main_v60_apply, val_main_cst_10_apply, Ideal.ofBits_def,
    Ideal.ofBits_zero_f32]
  refine congrArg (fun s => (0 : EReal) + s) (Finset.sum_congr rfl fun j _ => ?_)
  rw [val_main_v59_apply, val_main_v58_apply, val_main_v57_apply, norm_idx', enorm_at, Ideal.mulf_def]
  unfold val_main_v56
  rw [Cert.Lib.GraphRows.gather_apply]

/-! ## The decoder -/

/-- The reparameterised sample at node n, latent column q. -/
theorem z_at (n : Fin 131072) (q : Fin 64) :
    val_main_v75 (F := Ideal) x0 x1 x2 x3 x4 x5 x10 (ix2 n q)
      = zOf (fun n q => val_main_v68 (F := Ideal) x0 x2 x3 x4 x5 x10 (ix2 n q)) x1 n q := by
  have e1 : idx_main_v69 (ix2 n q) = ix2 n (lo q) := by
    funext a; match a with | ⟨0, _⟩ => rfl | ⟨1, _⟩ => rfl
  have e2 : idx_main_v70 (ix2 n q) = ix2 n (hi q) := by
    funext a; match a with | ⟨0, _⟩ => rfl | ⟨1, _⟩ => rfl
  rw [val_main_v75_apply, val_main_v74_apply, val_main_v73_apply, val_main_v72_apply, val_main_v71_apply,
    val_main_cst_11_apply, val_main_v69_apply, val_main_v70_apply, e1, e2]
  simp only [Ideal.addf_def, Ideal.mulf_def, Ideal.hostUnary_exp_def, Ideal.ofBits_def]
  unfold zOf half
  rfl

/-- The decoder's hidden layer at node n, column k. -/
theorem hd_at (n : Fin 131072) (k : Fin 128) :
    val_main_v80 (F := Ideal) x0 x1 x2 x3 x4 x5 x6 x7 x10 (ix2 n k)
      = hdOf (fun n q => val_main_v68 (F := Ideal) x0 x2 x3 x4 x5 x10 (ix2 n q)) x1 x6 x7 n k := by
  have e1 : idx_main_v77 (idx_main_v78 (ix2 n k)) = ix1 k := by
    funext a; match a with | ⟨0, _⟩ => rfl
  rw [val_main_v80_apply, val_main_call1_v0_apply, val_main_call1_cst_apply, val_main_v79_apply,
    val_main_v76_apply, val_main_v78_apply, val_main_v77_apply, e1, Ideal.maximumf_def, Ideal.ofBits_def,
    Ideal.ofBits_zero_f32, Ideal.addf_def]
  unfold hdOf
  refine congrArg (fun s => max (s + x7 (ix1 k)) (0 : EReal)) (Finset.sum_congr rfl fun q _ => ?_)
  have el : lidx_main_v76 (ix2 n k) q = ix2 n q := by
    funext a; match a with | ⟨0, _⟩ => rfl | ⟨1, _⟩ => rfl
  have er : ridx_main_v76 (ix2 n k) q = ix2 q k := by
    funext a; match a with | ⟨0, _⟩ => rfl | ⟨1, _⟩ => rfl
  rw [el, er, z_at]

/-- The reconstruction, as a whole array. -/
theorem recon_eq :
    val_main_v84 (F := Ideal) x0 x1 x2 x3 x4 x5 x6 x7 x8 x9 x10
      = fun i => reconOf (fun n q => val_main_v68 (F := Ideal) x0 x2 x3 x4 x5 x10 (ix2 n q)) x1 x6 x7 x8 x9
          (i 0) (i 1) := by
  funext i
  have e1 : idx_main_v82 (idx_main_v83 i) = ix1 (n := 3) (i 1) := by
    funext a; match a with | ⟨0, _⟩ => rfl
  rw [val_main_v84_apply, val_main_v81_apply, val_main_v83_apply, val_main_v82_apply, e1, Ideal.addf_def]
  unfold reconOf
  refine congrArg (fun s => s + x9 (ix1 (n := 3) (i 1))) (Finset.sum_congr rfl fun k _ => ?_)
  have el : lidx_main_v81 i k = ix2 (n0 := 131072) (n1 := 128) (i 0) k := by
    funext a; match a with | ⟨0, _⟩ => rfl | ⟨1, _⟩ => rfl
  have er : ridx_main_v81 i k = ix2 (n0 := 128) (n1 := 3) k (i 1) := by
    funext a; match a with | ⟨0, _⟩ => rfl | ⟨1, _⟩ => rfl
  rw [el, er]
  exact congrArg (fun s => s * x8 (ix2 (n0 := 128) (n1 := 3) k (i 1))) (hd_at x0 x1 x2 x3 x4 x5 x6 x7 x10 (i 0) k)

end Cert.RefValue

end
-- ==== Proof.LibScatterEdges.lean ====
/-
  A ROW SCATTER-ADD AS A SUM OVER EDGES, and the linearity of the aggregation in the features.

  A row scatter into [N, C] at scatter indices [E, 1] sends update (e, c) to (idx (e, 0), c) exactly when the start
  index, read signed, is a row of the matrix. So the updates that land on (r, q) are the (e, q) with idx (e, 0) = r, and
  the sum the scatter-add forms at (r, q) is a sum over those EDGES e, the same set of edges for every column q and every
  number of columns C. That is what lets an aggregation of C = 3 raw features followed by a dense layer be compared
  with the aggregation of the C = 128 transformed features: over the reals (all entries finite) both are the double sum
  over the edges into r and the contracted coordinate.
-/
import proofs.«107887_j53420803228324_2_alg».proof.Proof.LibGraphRows

namespace Cert.Lib.ScatterEdges

open Idealize.ShloMosaic Idealize.ShloMosaic.ValueIdx

/-- The row scatter's dimension numbers as a literal record. -/
abbrev rowSc (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
theorem rowSc_hits {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (r : Fin N)
    (h : (idx (ix2 e (0 : Fin 1))).toInt = (r.val : ℤ)) :
    (rowSc N E C wf).resultIdx? (ix2 e c) idx = some (ix2 r c) := by
  have hs0 : (rowSc N E C wf).start (ix2 e c) idx 0 = (idx (ix2 e (0 : Fin 1))).toInt := by
    unfold ScatterDims.start
    rw [dif_pos (List.mem_singleton.mpr rfl)]
    have hsi : (rowSc N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowSc N E C wf).window (ix2 e c) 0 = 0 := by
    unfold ScatterDims.window
    rw [dif_neg (by simp [ScatterDims.sKept, Shape.kept])]
  have hs1 : (rowSc N E C wf).start (ix2 e c) idx 1 = 0 := by
    unfold ScatterDims.start
    rw [dif_neg (show ¬ (1 : Fin 2) ∈ [(0 : Fin 2)] by decide)]
  have hw1 : (rowSc N E C wf).window (ix2 e c) 1 = c.val := by
    unfold ScatterDims.window
    rw [dif_pos (by simp [ScatterDims.sKept, Shape.kept])]
    rfl
  have hr := r.isLt
  have hc := c.isLt
  have hb : ∀ a, 0 ≤ (rowSc N E C wf).start (ix2 e c) idx a + ((rowSc N E C wf).window (ix2 e c) a : ℕ)
      ∧ (rowSc N E C wf).start (ix2 e c) idx a + ((rowSc N E C wf).window (ix2 e c) a : ℕ) < (⟨2, ![N, C]⟩ : Shape).size a := by
    refine Fin.forall_fin_two.mpr ⟨?_, ?_⟩
    · rw [hs0, hw0, h]
      show (0 : ℤ) ≤ (r.val : ℤ) + ((0 : ℕ) : ℤ) ∧ (r.val : ℤ) + ((0 : ℕ) : ℤ) < ((N : ℕ) : ℤ)
      omega
    · rw [hs1, hw1]
      show (0 : ℤ) ≤ 0 + ((c.val : ℕ) : ℤ) ∧ (0 : ℤ) + ((c.val : ℕ) : ℤ) < ((C : ℕ) : ℤ)
      omega
  unfold ScatterDims.resultIdx?
  rw [dif_pos hb]
  refine congrArg some (funext fun a => Fin.ext ?_)
  revert a
  refine Fin.forall_fin_two.mpr ⟨?_, ?_⟩
  · show ((rowSc N E C wf).start (ix2 e c) idx 0 + ((rowSc N E C wf).window (ix2 e c) 0 : ℕ)).toNat = r.val
    rw [hs0, hw0, h]; simp
  · show ((rowSc N E C wf).start (ix2 e c) idx 1 + ((rowSc N E C wf).window (ix2 e c) 1 : ℕ)).toNat = c.val
    rw [hs1, hw1]; simp

/-- An update (e, c) whose start index, read signed, is the row r lands at (r, c). -/
theorem scatterRows_hits {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (r : Fin N)
    (h : (idx (ix2 e (0 : Fin 1))).toInt = (r.val : ℤ)) :
    d.resultIdx? (ix2 e c) idx = some (ix2 r c) := by
  obtain ⟨uw, iw, sd, iv, wf⟩ := d
  dsimp only at h1 h2 h3 h4
  subst h1 h2 h3 h4
  exact rowSc_hits wf idx e c r h

/-- The edges whose destination, read signed, is the row r. -/
def into {N E w : ℕ} (idx : IVec ⟨2, ![E, 1]⟩ w) (r : Fin N) : Finset (Fin E) :=
  Finset.univ.filter fun e => (idx (ix2 e (0 : Fin 1))).toInt = (r.val : ℤ)

/-- The sum a row scatter-add forms at (r, q) is the sum over the edges into r of the update at (e, q). -/
theorem sum_lands {N E C w : ℕ} {M : Type*} [AddCommMonoid M]
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (r : Fin N) (q : Fin C)
    (F : (⟨2, ![E, C]⟩ : Shape).Idx → M) :
    ∑ j ∈ Finset.univ.filter (fun j => d.resultIdx? j idx = some (ix2 r q)), F j
      = ∑ e ∈ into idx r, F (ix2 e q) := by
  have key : ∀ j : (⟨2, ![E, C]⟩ : Shape).Idx, d.resultIdx? j idx = some (ix2 r q) →
      (idx (ix2 (j 0) (0 : Fin 1))).toInt = (r.val : ℤ) ∧ j = ix2 (j 0) q := by
    intro j hj
    have hj' := hj
    rw [eq_ix2 j] at hj'
    obtain ⟨hrow, hcol⟩ := Cert.Lib.GraphRows.scatterRows_lands d h1 h2 h3 h4 idx (j 0) (j 1) (ix2 r q) hj'
    refine ⟨hrow, ?_⟩
    have hq : j 1 = q := Fin.ext hcol.symm
    exact (eq_ix2 j).trans (congrArg (fun z : Fin C => (ix2 (j 0) z : (⟨2, ![E, C]⟩ : Shape).Idx)) hq)
  refine Finset.sum_bij' (fun j _ => j 0) (fun e _ => ix2 e q) ?_ ?_ ?_ ?_ ?_
  · intro j hj
    exact Finset.mem_filter.mpr ⟨Finset.mem_univ _, (key j (Finset.mem_filter.mp hj).2).1⟩
  · intro e he
    exact Finset.mem_filter.mpr ⟨Finset.mem_univ _, scatterRows_hits d h1 h2 h3 h4 idx e q r (Finset.mem_filter.mp he).2⟩
  · intro j hj
    exact ((key j (Finset.mem_filter.mp hj).2).2).symm
  · intro e _
    rfl
  · intro j hj
    exact congrArg F (key j (Finset.mem_filter.mp hj).2).2

/-! ## Linearity over the reals -/

/-- The coercion of the reals into the extended reals commutes with finite sums. -/
theorem coe_sum {ι : Type*} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- LINEARITY OF THE AGGREGATION. With real features x (per edge, per raw coordinate j), real weights W, a real
    normalisation a per edge and d of the destination: aggregating the raw coordinates (each edge's scaled by its a),
    scaling the sum by d, and THEN contracting with the weights is aggregating the contracted rows each times a e * d. -/
theorem aggregate_then_transform {ι κ : Type*} [Fintype κ] (S : Finset ι) (x : ι → κ → ℝ) (a : ι → ℝ) (W : κ → ℝ) (d : ℝ) :
    ∑ j : κ, ((d : EReal) * (0 + ∑ e ∈ S, (x e j : EReal) * (a e : EReal))) * (W j : EReal)
      = 0 + ∑ e ∈ S, (∑ j : κ, (x e j : EReal) * (W j : EReal)) * ((a e : EReal) * (d : EReal)) := by
  simp only [zero_add, ← EReal.coe_mul, ← coe_sum]
  refine congrArg _ ?_
  simp only [Finset.mul_sum, Finset.sum_mul]
  rw [Finset.sum_comm]
  refine Finset.sum_congr rfl fun e _ => Finset.sum_congr rfl fun j _ => ?_
  ring

end Cert.Lib.ScatterEdges
-- ==== Proof.Dinv.lean ====
/-
  The degree normalisation is a positive real: the in-degree of a node is a count of edges, a natural number; one
  more than it is at least one; and the reciprocal square root of a positive real is a positive real.
-/
import Idealize.ShloMosaic.PureOps.Ideal
import Idealize.ShloMosaic.PureOps.Ideal.Laws

noncomputable section

namespace Cert.Dinv

open Idealize.ShloMosaic

/-- The literal one. -/
theorem one_f32 : Ideal.ofBits .f32 0x3F800000#32 = 1 := by
  simp [Ideal.ofBits, Ideal.ieee]
  rw [← EReal.coe_mul, ← EReal.coe_one]
  exact congrArg _ (by norm_num)

/-- A count of ones over a finite set, plus one, as a real. -/
theorem count_succ {ι : Type*} (S : Finset ι) :
    (0 + ∑ _j ∈ S, (1 : EReal)) + 1 = (((S.card : ℝ) + 1 : ℝ) : EReal) := by
  rw [zero_add, Finset.sum_const, nsmul_one, EReal.coe_add, EReal.coe_one, EReal.coe_natCast]

/-- The reciprocal square root of a count plus one is a nonnegative real. -/
theorem rsqrt_count {ι : Type*} (S : Finset ι) :
    ∃ r : ℝ, 0 ≤ r ∧ Ideal.rsqrt ((0 + ∑ _j ∈ S, (1 : EReal)) + 1) = (r : EReal) := by
  rw [count_succ]
  have hpos : (0 : ℝ) < (S.card : ℝ) + 1 := by positivity
  rw [Ideal.rsqrt_coe, if_neg (not_lt.mpr hpos.le), if_neg hpos.ne']
  exact ⟨_, inv_nonneg.mpr (Real.sqrt_nonneg _), rfl⟩

end Cert.Dinv

end
-- ==== Proof.RefEdges.lean ====
/-
  The two aggregations of the reference program as sums over EDGES, and the degree normalisation as a real number.

  The row scatter-add at (n, k) collects the update rows of the edges e whose destination index, read signed, is n.
  For such an edge the destination's wrapped index is the index itself (it is nonnegative) and clamps to n, so the edge
  norm dinv[src e] * dinv[dst e] is dinv (src e) * dinv n; the gathered row is the dense row of node src e, where
  src e is the wrapped source index read signed and clamped into the node range. The normalisation of a node is the
  reciprocal square root of one plus a count of edges, a nonnegative real.
-/
import proofs.«107887_j53420803228324_2_alg».proof.Proof.RefValue
import proofs.«107887_j53420803228324_2_alg».proof.Proof.LibScatterEdges
import proofs.«107887_j53420803228324_2_alg».proof.Proof.Dinv

noncomputable section

namespace Cert.RefEdges

open Cert.ReferenceIdeal Cert.ReferenceIdeal.Read Cert.Spec Cert.RefValue Idealize.ShloMosaic Idealize.ShloMosaic.ValueIdx

variable (x0 : (⟨S131072x3, .f32⟩ : BufTy).Contents (Elt Ideal))
  (x2 : (⟨S3x128, .f32⟩ : BufTy).Contents (Elt Ideal))
  (x3 : (⟨S128, .f32⟩ : BufTy).Contents (Elt Ideal))
  (x4 : (⟨S128x128, .f32⟩ : BufTy).Contents (Elt Ideal))
  (x10 : (⟨S2x2097152, .i32⟩ : BufTy).Contents (Elt Ideal))

/-- There is at least one node. -/
theorem hN : 0 < 131072 := by decide

/-! ## The index buffers the program computes more than once -/

/-- The source start indices of the first row gather are those of the edge norm's source gather. -/
theorem src1_eq : val_main_v34 (F := Ideal) x10 = val_main_v16 (F := Ideal) x10 := rfl

/-- The source start indices of the second row gather are those of the edge norm's source gather. -/
theorem src2_eq : val_main_v55 (F := Ideal) x10 = val_main_v16 (F := Ideal) x10 := rfl

/-- The two row scatters read the same destination indices ... -/
theorem dst_eq : val_main_v61 (F := Ideal) x10 = val_main_v40 (F := Ideal) x10 := rfl

/-- ... and so does the scatter that counts the in-degrees. -/
theorem dst0_eq : val_main_v6 (F := Ideal) x10 = val_main_v40 (F := Ideal) x10 := rfl

/-! ## The normalisation is a nonnegative real -/

/-- dinv of a node is the reciprocal square root of one plus a count of edges: a nonnegative real. -/
theorem dinv_real (i : S131072.Idx) : ∃ r : ℝ, 0 ≤ r ∧ val_main_v10 (F := Ideal) x10 i = (r : EReal) := by
  have h4 : ∀ j, val_main_v4 (F := Ideal) j = (1 : EReal) := fun j => by
    rw [val_main_v4_apply, val_main_cst_apply, Ideal.ofBits_def, Cert.Dinv.one_f32]
  rw [val_main_v10_apply, val_main_v9_apply, Ideal.hostUnary_rsqrt_def, Ideal.addf_def, val_main_v8_apply,
    val_main_cst_1_apply, Ideal.ofBits_def, Cert.Dinv.one_f32]
  unfold val_main_v7
  rw [Cert.Lib.GraphRows.scatterAdd_apply, val_main_v5_apply, val_main_cst_0_apply, Ideal.ofBits_def,
    Ideal.ofBits_zero_f32, Finset.sum_congr rfl (fun j _ => h4 j)]
  exact Cert.Dinv.rsqrt_count _

/-- Hence it is nonnegative and finite. -/
theorem dinv_bounds (i : S131072.Idx) :
    0 ≤ val_main_v10 (F := Ideal) x10 i ∧ val_main_v10 (F := Ideal) x10 i ≠ ⊤ := by
  obtain ⟨r, hr, h⟩ := dinv_real x10 i
  rw [h]
  exact ⟨EReal.coe_nonneg.mpr hr, EReal.coe_ne_top r⟩

/-! ## The aggregations as sums over the edges into a node -/

/-- The source node of edge e: its wrapped source index, read signed and clamped into the node range. -/
abbrev src (e : Fin 2097152) : Fin 131072 :=
  Cert.Lib.GraphRows.clampRow hN (val_main_v16 (F := Ideal) x10 (ix2 e (0 : Fin 1)))

/-- For an edge whose destination index, read signed, is the node n, the destination's wrapped index is the index
    itself, and the normalisation gathered there is that of n. -/
theorem dstN_at (e : Fin 2097152) (n : Fin 131072)
    (h : (val_main_v40 (F := Ideal) x10 (ix2 e (0 : Fin 1))).toInt = (n.val : ℤ)) :
    gather_S131072_S2097152x1_S2097152_n_0_n_n_0_1_1.operandIdx (ix1 e) (val_main_v23 (F := Ideal) x10) = ix1 n := by
  rw [Cert.Lib.GraphRows.gatherVec_operandIdx hN gather_S131072_S2097152x1_S2097152_n_0_n_n_0_1_1
    rfl rfl rfl rfl rfl rfl rfl (val_main_v23 (F := Ideal) x10) e]
  refine congrArg (fun r : Fin 131072 => ix1 r) ?_
  refine Cert.Lib.GraphRows.clampRow_of_toInt hN _ n ?_
  have h' : (val_main_v3 (F := Ideal) x10 (idx_main_v40 (ix2 e (0 : Fin 1)))).toInt = (n.val : ℤ) := by
    rw [← val_main_v40_apply]; exact h
  have hnn : 0 ≤ (val_main_v3 (F := Ideal) x10 (idx_main_v40 (ix2 e (0 : Fin 1)))).toInt := by
    rw [h']; exact Int.natCast_nonneg _
  have hz : (val_main_v18 (F := Ideal) (idx_main_v40 (ix2 e (0 : Fin 1)))).toInt = 0 := by
    rw [val_main_v18_apply, val_main_c_3_apply]; decide
  have hv : val_main_v23 (F := Ideal) x10 (ix2 e (0 : Fin 1))
      = val_main_v3 (F := Ideal) x10 (idx_main_v40 (ix2 e (0 : Fin 1))) := by
    rw [val_main_v23_apply, val_main_v22_apply, val_main_v19_apply, val_main_v21_apply]
    exact Cert.Lib.GraphRows.wrap_of_nonneg _ _ _ hz hnn
  rw [hv]
  exact h'

/-- One edge's term of an aggregation, for an edge into n: the row of node src e of the gathered matrix, times
    dinv (src e) * dinv n. -/
theorem edge_term (h : S131072x128.Idx → EReal) (n : Fin 131072) (k : Fin 128) (e : Fin 2097152)
    (he : (val_main_v40 (F := Ideal) x10 (ix2 e (0 : Fin 1))).toInt = (n.val : ℤ)) :
    h (gather_S131072x128_S2097152x1_S2097152x128_1_0_n_n_0_1_1128.operandIdx (ix2 e k) (val_main_v16 (F := Ideal) x10))
        * (val_main_v10 (F := Ideal) x10
              (gather_S131072_S2097152x1_S2097152_n_0_n_n_0_1_1.operandIdx (ix1 e) (val_main_v16 (F := Ideal) x10))
            * val_main_v10 (F := Ideal) x10
              (gather_S131072_S2097152x1_S2097152_n_0_n_n_0_1_1.operandIdx (ix1 e) (val_main_v23 (F := Ideal) x10)))
      = h (ix2 (src x10 e) k)
        * (val_main_v10 (F := Ideal) x10 (ix1 (src x10 e)) * val_main_v10 (F := Ideal) x10 (ix1 n)) := by
  rw [Cert.Lib.GraphRows.gatherRows_operandIdx hN gather_S131072x128_S2097152x1_S2097152x128_1_0_n_n_0_1_1128
      rfl rfl rfl rfl rfl rfl rfl (val_main_v16 (F := Ideal) x10) e k,
    Cert.Lib.GraphRows.gatherVec_operandIdx hN gather_S131072_S2097152x1_S2097152_n_0_n_n_0_1_1
      rfl rfl rfl rfl rfl rfl rfl (val_main_v16 (F := Ideal) x10) e,
    dstN_at x10 e n he]

/-- The first aggregation at node n, column k, as a sum over the edges into n. -/
theorem agg1_edges (n : Fin 131072) (k : Fin 128) :
    val_main_v41 (F := Ideal) x0 x2 x10 (ix2 n k)
      = 0 + ∑ e ∈ Cert.Lib.ScatterEdges.into (val_main_v40 (F := Ideal) x10) n,
          dot x0 x2 (src x10 e) k
            * (val_main_v10 (F := Ideal) x10 (ix1 (src x10 e)) * val_main_v10 (F := Ideal) x10 (ix1 n)) := by
  rw [agg1_at, src1_eq]
  refine congrArg (fun s => (0 : EReal) + s) ?_
  refine (Cert.Lib.ScatterEdges.sum_lands scatter_S131072x128_S2097152x1_S2097152x128_1_0_0_1 rfl rfl rfl rfl
    (val_main_v40 (F := Ideal) x10) n k _).trans ?_
  refine Finset.sum_congr rfl fun e he => ?_
  refine (edge_term x10 (val_main_v28 (F := Ideal) x0 x2) n k e (Finset.mem_filter.mp he).2).trans ?_
  rw [hw1_at]

/-- The second aggregation at node n, column k, as a sum over the edges into n. -/
theorem agg2_edges (n : Fin 131072) (k : Fin 128) :
    val_main_v62 (F := Ideal) x0 x2 x3 x4 x10 (ix2 n k)
      = 0 + ∑ e ∈ Cert.Lib.ScatterEdges.into (val_main_v40 (F := Ideal) x10) n,
          val_main_v49 (F := Ideal) x0 x2 x3 x4 x10 (ix2 (src x10 e) k)
            * (val_main_v10 (F := Ideal) x10 (ix1 (src x10 e)) * val_main_v10 (F := Ideal) x10 (ix1 n)) := by
  rw [agg2_at, src2_eq, dst_eq]
  refine congrArg (fun s => (0 : EReal) + s) ?_
  refine (Cert.Lib.ScatterEdges.sum_lands scatter_S131072x128_S2097152x1_S2097152x128_1_0_0_1 rfl rfl rfl rfl
    (val_main_v40 (F := Ideal) x10) n k _).trans ?_
  refine Finset.sum_congr rfl fun e he => ?_
  exact edge_term x10 (val_main_v49 (F := Ideal) x0 x2 x3 x4 x10) n k e (Finset.mem_filter.mp he).2

end Cert.RefEdges

end
-- ==== Proof.LibHostColumns.lean ====
/-
  The host's keepdims layouts read at coordinates, for any element type and extents: a vector [a] laid down a
  column [a, 1] (broadcast_in_dim with dims = [0]) reads the vector at the row; a column [a, 1] repeated along the row
  into [a, b] (dims = [0, 1]) reads the column at the row.
-/
import Idealize.ShloMosaic.Lib.Pipeline.Value
import Idealize.ShloMosaic.Lib.ValueIdx

namespace Cert.Lib.HostColumns

open Idealize.ShloMosaic Idealize.ShloMosaic.ValueIdx

variable {α : Type}

/-- A vector laid down a column reads the vector at the row. -/
theorem bcast_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x (ix2 i u) (ix1 i) (fun k => by
    match k with
    | ⟨0, _⟩ =>
      show i.val = if a = 1 then 0 else i.val
      split_ifs with h1
      · have := i.isLt; omega
      · rfl)

/-- A column repeated along the row reads the column at the row. -/
theorem bcast_a1_ab_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) (fun k => by
    match k with
    | ⟨0, _⟩ =>
      show i.val = if a = 1 then 0 else i.val
      split_ifs with h1
      · have := i.isLt; omega
      · rfl
    | ⟨1, _⟩ =>
      show (0 : ℕ) = if (1 : ℕ) = 1 then 0 else j.val
      rfl)

end Cert.Lib.HostColumns
-- ==== Proof.KernelEdges.lean ====
/-
  The kernel program's two aggregations as sums over edges. An edge e lands on node n when its destination row, read
  signed, is n; its source row is its wrapped source index clamped into the matrix. The first aggregation at (n, j) is
  dinv n times the sum over the edges into n of x (src e, j) * dinv (src e); the second at (n, k) is dinv n times the sum
  over the same edges of the gathered (already scaled) row entry.
-/
import proofs.«107887_j53420803228324_2_alg».proof.Proof.Gen.KernelIdeal.Frame
import Idealize.ShloMosaic.Lib.StableHlo.Run
import Idealize.ShloMosaic.PureOps.Ideal
import proofs.«107887_j53420803228324_2_alg».proof.Proof.KernelTerms
import proofs.«107887_j53420803228324_2_alg».proof.Proof.LibScatterEdges
import proofs.«107887_j53420803228324_2_alg».proof.Proof.LibHostColumns
import Idealize.ShloMosaic.PureOps.Ideal.Laws

set_option maxRecDepth 16384

noncomputable section

namespace Cert.KernelIdeal.Edges

open Cert.KernelIdeal Cert.KernelIdeal.Gen
open Idealize.ShloMosaic Idealize.ShloMosaic.TcCoe Idealize.SL.Sem Idealize.ShloMosaic.StableHlo
open Cert.KernelIdeal.Terms Cert.Lib.GraphRows Cert.Lib.ScatterEdges Cert.Lib.HostColumns Idealize.ShloMosaic.ValueIdx

theorem hN : 0 < 131072 := by norm_num

/-- The destination rows as the scatter reads them, and the wrapped source rows as the gathers read them. -/
def colI (E : IVec S2x2097152 32) : IVec S2097152x1 32 :=
  broadcastInDim S2097152x1 ![0] bcast_S2097152_S2097152x1_0 (colT E)
def rowI (E : IVec S2x2097152 32) : IVec S2097152x1 32 :=
  broadcastInDim S2097152x1 ![0] bcast_S2097152_S2097152x1_0 (wrapT (rowT E))

/-- The source node of edge e. -/
def src (E : IVec S2x2097152 32) (e : Fin 2097152) : Fin 131072 := clampRow hN (rowI E (ix2 e (0 : Fin 1)))

/-- A product of two arrays read at an index. -/
theorem mul_at {s : Shape} (a b : FVec Ideal s .f32) (i : s.Idx) : mulf a b i = a i * b i := rfl

/-- A gathered row entry: the operand at the clamped source row. -/
theorem gather3_at (y : FVec Ideal S131072x3 .f32) (E : IVec S2x2097152 32) (e : Fin 2097152) (j : Fin 3) :
    Host.gather gather_S131072x3_S2097152x1_S2097152x3_1_0_n_n_0_1_13 y (rowI E) (ix2 e j) = y (ix2 (src E e) j) :=
  congrArg y (gatherRows_operandIdx hN gather_S131072x3_S2097152x1_S2097152x3_1_0_n_n_0_1_13 rfl rfl rfl rfl rfl rfl rfl
    (rowI E) e j)

theorem gather128_at (y : FVec Ideal S131072x128 .f32) (E : IVec S2x2097152 32) (e : Fin 2097152) (k : Fin 128) :
    Host.gather gather_S131072x128_S2097152x1_S2097152x128_1_0_n_n_0_1_1128 y (rowI E) (ix2 e k) = y (ix2 (src E e) k) :=
  congrArg y (gatherRows_operandIdx hN gather_S131072x128_S2097152x1_S2097152x128_1_0_n_n_0_1_1128 rfl rfl rfl rfl rfl rfl rfl
    (rowI E) e k)

/-- A row scatter-add into zeros, read at (n, j): the sum over the edges into n. -/
theorem scatter3_at (u : FVec Ideal S2097152x3 .f32) (E : IVec S2x2097152 32) (n : Fin 131072) (j : Fin 3) :
    Host.scatterAdd scatter_S131072x3_S2097152x1_S2097152x3_1_0_0_1
        (broadcastInDim S131072x3 ![] bcast_S_S131072x3 (constant S_ .f32 0x00000000#32)) (colI E) u (ix2 n j)
      = 0 + ∑ e ∈ into (colI E) n, u (ix2 e j) := by
  refine (scatterAdd_apply _ _ _ _ _).trans ?_
  refine congrArg₂ (· + ·) ?_ ?_
  · exact (splat_apply _ _ _ _).trans Ideal.ofBits_zero_f32
  · exact sum_lands scatter_S131072x3_S2097152x1_S2097152x3_1_0_0_1 rfl rfl rfl rfl (colI E) n j u

theorem scatter128_at (u : FVec Ideal S2097152x128 .f32) (E : IVec S2x2097152 32) (n : Fin 131072) (k : Fin 128) :
    Host.scatterAdd scatter_S131072x128_S2097152x1_S2097152x128_1_0_0_1
        (broadcastInDim S131072x128 ![] bcast_S_S131072x128 (constant S_ .f32 0x00000000#32)) (colI E) u (ix2 n k)
      = 0 + ∑ e ∈ into (colI E) n, u (ix2 e k) := by
  refine (scatterAdd_apply _ _ _ _ _).trans ?_
  refine congrArg₂ (· + ·) ?_ ?_
  · exact (splat_apply _ _ _ _).trans Ideal.ofBits_zero_f32
  · exact sum_lands scatter_S131072x128_S2097152x1_S2097152x128_1_0_0_1 rfl rfl rfl rfl (colI E) n k u

/-- The first aggregation at node n, raw feature j. -/
theorem aggx_edges (x : FVec Ideal S131072x3 .f32) (E : IVec S2x2097152 32) (n : Fin 131072) (j : Fin 3) :
    aggxT x E (ix2 n j) = d2T E (ix2 n (0 : Fin 1))
      * (0 + ∑ e ∈ into (colI E) n, x (ix2 (src E e) j) * d2T E (ix2 (src E e) (0 : Fin 1))) := by
  unfold aggxT
  refine (mul_at _ _ _).trans ?_
  refine congrArg₂ (· * ·) (bcast_a1_ab_apply _ (d2T E) n j) ?_
  refine (scatter3_at _ E n j).trans ?_
  refine congrArg (fun z => 0 + z) (Finset.sum_congr rfl fun e _ => ?_)
  refine (gather3_at _ E e j).trans ?_
  refine (mul_at _ _ _).trans ?_
  exact congrArg (x (ix2 (src E e) j) * ·) (bcast_a1_ab_apply _ (d2T E) (src E e) j)

/-- The second aggregation at node n, column k, for any normalisation column and any gathered matrix. -/
theorem agg2_edges (d2 : FVec Ideal S131072x1 .f32) (hsc : FVec Ideal S131072x128 .f32) (E : IVec S2x2097152 32)
    (n : Fin 131072) (k : Fin 128) :
    agg2T d2 hsc (rowT E) (colT E) (ix2 n k)
      = d2 (ix2 n (0 : Fin 1)) * (0 + ∑ e ∈ into (colI E) n, hsc (ix2 (src E e) k)) := by
  unfold agg2T
  refine (mul_at _ _ _).trans ?_
  refine congrArg₂ (· * ·) (bcast_a1_ab_apply _ d2 n k) ?_
  refine (scatter128_at _ E n k).trans ?_
  exact congrArg (fun z => 0 + z) (Finset.sum_congr rfl fun e _ => gather128_at hsc E e k)

end Cert.KernelIdeal.Edges

end
-- ==== Proof.BridgeLaw.lean ====
/-
  Two laws of the graph aggregation over the extended reals, for any finite set S of edges with source nodes s.

  The aggregation sums, over the edges into a node, the source rows already scaled by the source's normalisation,
  and then scales the sum by the node's own normalisation d n. The first law says that aggregating the three raw
  features and then contracting with a weight matrix is aggregating the contracted rows: with every entry real
  this is the exchange of two finite sums and the ring laws. The second says that the node's normalisation, a
  finite nonnegative factor, goes inside the sum onto each edge's own factor, whatever the summed rows are.
-/
import proofs.«107887_j53420803228324_2_alg».proof.Proof.Spec
import proofs.«107887_j53420803228324_2_alg».proof.Proof.LibScatterEdges
import proofs.«107887_j53420803228324_2_alg».proof.Proof.LibGraphRows

namespace Cert.BridgeLaw

open Cert.Spec Idealize.ShloMosaic Idealize.ShloMosaic.ValueIdx

/-- AGGREGATE, THEN TRANSFORM. With real features x, real weights W and a real normalisation d: contracting with
    column k of W the aggregate of the raw features at node n (each edge's source row scaled by the source's d, the
    sum by d n) is aggregating the transformed source rows, each times d of its source times d n. -/
theorem aggregate_then_dot {ι : Type*} (S : Finset ι) (s : ι → Fin Nn) (x : Mat Nn 3) (W : Mat 3 128) (d : Fin Nn → EReal)
    (hx : ∀ i, ∃ r : ℝ, x i = (r : EReal)) (hW : ∀ i, ∃ r : ℝ, W i = (r : EReal))
    (hd : ∀ n, ∃ r : ℝ, 0 ≤ r ∧ d n = (r : EReal)) (n : Fin Nn) (k : Fin 128) :
    ∑ j : Fin 3, (d n * (0 + ∑ e ∈ S, x (ix2 (s e) j) * d (s e))) * W (ix2 j k)
      = 0 + ∑ e ∈ S, dot x W (s e) k * (d (s e) * d n) := by
  choose xr hxr using hx
  choose Wr hWr using hW
  choose dr hdr using hd
  have hd' : ∀ m, d m = (dr m : EReal) := fun m => (hdr m).2
  have h := Cert.Lib.ScatterEdges.aggregate_then_transform S (fun e (j : Fin 3) => xr (ix2 (s e) j)) (fun e => dr (s e))
    (fun j : Fin 3 => Wr (ix2 j k)) (dr n)
  unfold dot
  simp only [hxr, hWr, hd']
  exact h

/-- THE NODE'S NORMALISATION GOES INSIDE. For any rows h and a finite nonnegative normalisation d: the sum over the
    edges of the source rows scaled by the source's d, scaled afterwards by d n, is the sum of the source rows each
    times d of its source times d n. -/
theorem scale_into_sum {ι : Type*} (S : Finset ι) (s : ι → Fin Nn) (h : Fin Nn → EReal) (d : Fin Nn → EReal)
    (hd : ∀ n, 0 ≤ d n ∧ d n ≠ ⊤) (n : Fin Nn) :
    d n * (0 + ∑ e ∈ S, h (s e) * d (s e)) = 0 + ∑ e ∈ S, h (s e) * (d (s e) * d n) := by
  rw [mul_comm]
  exact Cert.Lib.GraphRows.scaled_sum S (fun e => h (s e)) (fun e => d (s e)) (fun _ => d n) (d n) (hd n).1 (hd n).2
    (fun _ _ => rfl)

end Cert.BridgeLaw
-- ==== Proof.Bridge.lean ====
/-
  The bridge between the two programs' encoders. The kernel program aggregates the three raw features first and
  applies the first weight matrix afterwards, scaling by the normalisation before the gather and after the
  scatter; the reference transforms first and aggregates the 128 transformed features with the edge norm
  dinv[src] * dinv[dst]. With real features and weights the two first layers agree (aggregation is linear, and the
  normalisation is a nonnegative real); the second layers agree for any rows, because the destination's normalisation,
  a finite nonnegative factor, goes inside the sum over the edges. Hence the second convolution's outputs agree
  entry by entry, and with them the mean, the log-variance and the reconstruction.
-/
import proofs.«107887_j53420803228324_2_alg».proof.Proof.RefValue
import proofs.«107887_j53420803228324_2_alg».proof.Proof.RefEdges
import proofs.«107887_j53420803228324_2_alg».proof.Proof.KernelTerms
import proofs.«107887_j53420803228324_2_alg».proof.Proof.KernelResults
import proofs.«107887_j53420803228324_2_alg».proof.Proof.KernelEdges
import proofs.«107887_j53420803228324_2_alg».proof.Proof.LibHostColumns
import proofs.«107887_j53420803228324_2_alg».proof.Proof.BridgeLaw

set_option maxRecDepth 16384

noncomputable section

namespace Cert.Bridge

open Cert.ReferenceIdeal.Read Cert.Spec Cert.KernelIdeal.Terms Cert.KernelIdeal.Results
open Idealize.ShloMosaic Idealize.ShloMosaic.ValueIdx

variable (a0 : FVec Ideal Cert.KernelIdeal.S131072x3 .f32) (a1 : FVec Ideal Cert.KernelIdeal.S131072x64 .f32)
  (a2 : FVec Ideal Cert.KernelIdeal.S3x128 .f32) (a3 : FVec Ideal Cert.KernelIdeal.S128 .f32)
  (a4 : FVec Ideal Cert.KernelIdeal.S128x128 .f32) (a5 : FVec Ideal Cert.KernelIdeal.S128 .f32)
  (a6 : FVec Ideal Cert.KernelIdeal.S64x128 .f32) (a7 : FVec Ideal Cert.KernelIdeal.S128 .f32)
  (a8 : FVec Ideal Cert.KernelIdeal.S128x3 .f32) (a9 : FVec Ideal Cert.KernelIdeal.S3 .f32)
  (E : IVec Cert.KernelIdeal.S2x2097152 32)

/-! ## The two programs' host terms are the same terms -/

/-- The degree normalisation. -/
theorem dinv_id : dinvT E = val_main_v10 (F := Ideal) E := rfl

/-- The destination indices the scatters read. -/
theorem colI_id : Cert.KernelIdeal.Edges.colI E = val_main_v40 (F := Ideal) E := rfl

/-- The wrapped source indices the gathers read. -/
theorem rowI_id : Cert.KernelIdeal.Edges.rowI E = val_main_v16 (F := Ideal) E := rfl

/-- The source node of an edge. -/
theorem src_id (e : Fin 2097152) : Cert.KernelIdeal.Edges.src E e = Cert.RefEdges.src E e := by
  unfold Cert.KernelIdeal.Edges.src
  rw [rowI_id]

/-- The normalisation column at node n is the normalisation of n. -/
theorem d2_at (n : Fin 131072) : d2T E (ix2 n (0 : Fin 1)) = val_main_v10 (F := Ideal) E (ix1 n) := by
  unfold d2T
  rw [Cert.Lib.HostColumns.bcast_a_a1_apply, dinv_id]

/-! ## The first layer -/

/-- Aggregating the raw features and then applying the first weights is the reference's first aggregation. -/
theorem layer1 (hx : ∀ i, ∃ r : ℝ, a0 i = (r : EReal)) (hW : ∀ i, ∃ r : ℝ, a2 i = (r : EReal))
    (n : Fin 131072) (k : Fin 128) :
    dot (aggxT a0 E) a2 n k = val_main_v41 (F := Ideal) a0 a2 E (ix2 n k) := by
  rw [Cert.RefEdges.agg1_edges]
  show ∑ j : Fin 3, aggxT a0 E (ix2 n j) * a2 (ix2 j k) = _
  simp only [Cert.KernelIdeal.Edges.aggx_edges, d2_at, colI_id, src_id]
  exact Cert.BridgeLaw.aggregate_then_dot (Cert.Lib.ScatterEdges.into (val_main_v40 (F := Ideal) E) n)
    (Cert.RefEdges.src E) a0 a2 (fun r => val_main_v10 (F := Ideal) E (ix1 r)) hx hW
    (fun r => Cert.RefEdges.dinv_real E (ix1 r)) n k

/-- The first convolution before the rectifier. -/
theorem pre1_id (hx : ∀ i, ∃ r : ℝ, a0 i = (r : EReal)) (hW : ∀ i, ∃ r : ℝ, a2 i = (r : EReal))
    (n : Fin 131072) (k : Fin 128) :
    comb (dot (aggxT a0 E) a2) (dot a0 a2) (d2T E) a3 n k = val_main_v47 (F := Ideal) a0 a2 a3 E (ix2 n k) := by
  unfold comb
  rw [Cert.RefValue.pre1_at, layer1 a0 a2 E hx hW n k, d2_at]

/-- The second layer's dense transform. -/
theorem hw2_id (hx : ∀ i, ∃ r : ℝ, a0 i = (r : EReal)) (hW : ∀ i, ∃ r : ℝ, a2 i = (r : EReal))
    (n : Fin 131072) (f : Fin 128) :
    hw2K a0 (aggxT a0 E) (d2T E) a2 a3 a4 n f = val_main_v49 (F := Ideal) a0 a2 a3 a4 E (ix2 n f) := by
  unfold hw2K h1K
  rw [Cert.RefValue.hw2_at]
  refine Finset.sum_congr rfl fun k _ => ?_
  rw [pre1_id a0 a2 a3 E hx hW n k]

/-! ## The second layer -/

/-- The scaled second dense transform at node r, column k. -/
theorem hw2sc_at (hx : ∀ i, ∃ r : ℝ, a0 i = (r : EReal)) (hW : ∀ i, ∃ r : ℝ, a2 i = (r : EReal))
    (r : Fin 131072) (k : Fin 128) :
    hw2scA a0 a2 a3 a4 E (ix2 r k)
      = val_main_v49 (F := Ideal) a0 a2 a3 a4 E (ix2 r k) * val_main_v10 (F := Ideal) E (ix1 r) := by
  show hw2scK a0 (aggxT a0 E) (d2T E) a2 a3 a4 r k = _
  unfold hw2scK
  rw [hw2_id a0 a2 a3 a4 E hx hW r k, d2_at]

/-- The second aggregation. -/
theorem layer2 (hx : ∀ i, ∃ r : ℝ, a0 i = (r : EReal)) (hW : ∀ i, ∃ r : ℝ, a2 i = (r : EReal))
    (n : Fin 131072) (q : Fin 128) :
    agg2A a0 a2 a3 a4 E (ix2 n q) = val_main_v62 (F := Ideal) a0 a2 a3 a4 E (ix2 n q) := by
  unfold agg2A
  rw [Cert.KernelIdeal.Edges.agg2_edges, Cert.RefEdges.agg2_edges, d2_at, colI_id]
  simp only [src_id, hw2sc_at a0 a2 a3 a4 E hx hW]
  exact Cert.BridgeLaw.scale_into_sum (Cert.Lib.ScatterEdges.into (val_main_v40 (F := Ideal) E) n)
    (Cert.RefEdges.src E) (fun r => val_main_v49 (F := Ideal) a0 a2 a3 a4 E (ix2 r q))
    (fun r => val_main_v10 (F := Ideal) E (ix1 r)) (fun r => Cert.RefEdges.dinv_bounds E (ix1 r)) n

/-! ## The second convolution and the three results -/

/-- The second convolution's outputs agree entry by entry. -/
theorem out2_eq (hx : ∀ i, ∃ r : ℝ, a0 i = (r : EReal)) (hW : ∀ i, ∃ r : ℝ, a2 i = (r : EReal))
    (n : Fin 131072) (q : Fin 128) :
    val_main_v68 (F := Ideal) a0 a2 a3 a4 a5 E (ix2 n q) = out2A a0 a2 a3 a4 a5 E n q := by
  have hA : hw2A a0 a2 a3 a4 E (ix2 n q) = val_main_v49 (F := Ideal) a0 a2 a3 a4 E (ix2 n q) :=
    hw2_id a0 a2 a3 a4 E hx hW n q
  rw [Cert.RefValue.out2_at]
  show _ = agg2A a0 a2 a3 a4 E (ix2 n q)
      + hw2A a0 a2 a3 a4 E (ix2 n q) * (d2T E (ix2 n (0 : Fin 1)) * d2T E (ix2 n (0 : Fin 1))) + a5 (ix1 q)
  rw [layer2 a0 a2 a3 a4 E hx hW n q, hA, d2_at]

/-- The means agree. -/
theorem mean_eq (hx : ∀ i, ∃ r : ℝ, a0 i = (r : EReal)) (hW : ∀ i, ∃ r : ℝ, a2 i = (r : EReal)) :
    val_main_v69 (F := Ideal) a0 a2 a3 a4 a5 E = meanA a0 a2 a3 a4 a5 E := by
  rw [Cert.RefValue.mean_eq]
  funext i
  exact out2_eq a0 a2 a3 a4 a5 E hx hW (i 0) (lo (i 1))

/-- The log-variances agree. -/
theorem logvar_eq (hx : ∀ i, ∃ r : ℝ, a0 i = (r : EReal)) (hW : ∀ i, ∃ r : ℝ, a2 i = (r : EReal)) :
    val_main_v70 (F := Ideal) a0 a2 a3 a4 a5 E = logvarA a0 a2 a3 a4 a5 E := by
  rw [Cert.RefValue.logvar_eq]
  funext i
  exact out2_eq a0 a2 a3 a4 a5 E hx hW (i 0) (hi (i 1))

/-- The reconstructions agree. -/
theorem recon_eq (hx : ∀ i, ∃ r : ℝ, a0 i = (r : EReal)) (hW : ∀ i, ∃ r : ℝ, a2 i = (r : EReal)) :
    val_main_v84 (F := Ideal) a0 a1 a2 a3 a4 a5 a6 a7 a8 a9 E = reconA a0 a1 a2 a3 a4 a5 a6 a7 a8 a9 E := by
  have h2 : (fun n q => val_main_v68 (F := Ideal) a0 a2 a3 a4 a5 E (ix2 n q)) = out2A a0 a2 a3 a4 a5 E :=
    funext fun n => funext fun q => out2_eq a0 a2 a3 a4 a5 E hx hW n q
  rw [Cert.RefValue.recon_eq, h2]
  rfl

end Cert.Bridge

end
-- ==== Proof.Finite.lean ====
/-
  The precondition, read: every entry of the node features x and of the first weight matrix W1 is a real number.

  The precondition is the conjunction, over the ten float arguments, of "every entry has absolute value below +inf".
  Peeling the conjunction from the outside reaches the first and the third conjunct; each is a reduction by "and" over
  all entries, so it holds entry by entry; and an extended real whose absolute value is below +inf is a real.
-/
import proofs.«107887_j53420803228324_2_alg».proof.Pre_finite_inputs
import Idealize.ShloMosaic.Lib.ReduceAll
import Idealize.ShloMosaic.PureOps.Ideal.Laws
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value is below +inf is a real. -/
theorem real_of_lt (x : EReal)
    (h : FloatOps.cmpf (F := Ideal) .olt (FloatOps.hostAbsf (F := Ideal) x) (Ideal.ofBits .f32 0x7F800000#32) = 1#1) :
    ∃ r : ℝ, x = (r : EReal) := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hlt : max x (-x) < ⊤ := by
    by_contra hc
    rw [decide_eq_false hc] at h'
    exact absurd h' (by decide)
  induction x using EReal.rec with
  | bot => simp at hlt
  | top => simp at hlt
  | coe r => exact ⟨r, rfl⟩

variable [Cert.Pre_finite_inputs.Facts]

/-- Under the precondition the node features and the first weight matrix hold reals. -/
theorem x_W1_real (a0 : FVec Ideal S131072x3 .f32) (a1 : FVec Ideal S131072x64 .f32) (a2 : FVec Ideal S3x128 .f32)
    (a3 : FVec Ideal S128 .f32) (a4 : FVec Ideal S128x128 .f32) (a5 : FVec Ideal S128 .f32) (a6 : FVec Ideal S64x128 .f32)
    (a7 : FVec Ideal S128 .f32) (a8 : FVec Ideal S128x3 .f32) (a9 : FVec Ideal S3 .f32) (a10 : IVec S2x2097152 32)
    (h : fn (F := Ideal) a0 a1 a2 a3 a4 a5 a6 a7 a8 a9 a10 = fun _ => 1#1) :
    (∀ i, ∃ r : ℝ, a0 i = (r : EReal)) ∧ (∀ i, ∃ r : ℝ, a2 i = (r : EReal)) := by
  have h0 := congrFun h ValueIdx.ix0
  dsimp only [fn, fn_part1, fn_part2] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨h7, -⟩ := IntOp.andi_eq_one.1 h6
  obtain ⟨h8, hW⟩ := IntOp.andi_eq_one.1 h7
  obtain ⟨hx, -⟩ := IntOp.andi_eq_one.1 h8
  refine ⟨fun i => real_of_lt (a0 i) ?_, fun i => real_of_lt (a2 i) ?_⟩
  · exact Host.reduce_andi_all _ _ _ _ _ hx i
  · exact Host.reduce_andi_all _ _ _ _ _ hW i

end Cert.Finite

end
-- ==== Proof.lean ====
/-
  The certificate's claims, assembled.

  Both programs are a two-layer graph convolution encoder followed by a dense decoder, on 131072 nodes and 2097152
  directed edges: a node's row is its dense transform scaled by its squared normalisation plus the sum over its
  incoming edges of the source's transformed row times the two ends' normalisations, plus a bias, the normalisation being
  the reciprocal square root of the in-degree plus one; the second layer's 128 columns are read as a mean and a
  log-variance, a sample is drawn as mean + eps * exp (1/2 * logvar), and two dense layers with a rectifier between
  them give the reconstruction. The kernel program does the dense parts in two blocked regions and the edge sums on
  the host, aggregating the three raw features before the first weights; the reference transforms first and
  aggregates with the product of the two normalisations as an edge weight.

  The three frames are the generated ones (the reference's is its generated run with the results dropped). The
  idealization rewrote no operation, so what it preserves is trivially true. For the algebraic claim the kernel
  program's run ends with the three results at named functions of the arguments; the reference's run ends with its own
  composed terms of its arguments, which are the kernel's arguments; and those terms are the same functions, because
  aggregation is linear in real features and weights (the precondition makes the node features and the first weights
  real) and a finite nonnegative factor moves inside a sum.
-/
import proofs.«107887_j53420803228324_2_alg».proof.Defs
import proofs.«107887_j53420803228324_2_alg».proof.Proof.Gen.Kernel
import proofs.«107887_j53420803228324_2_alg».proof.Proof.Gen.Kernel.Skeleton
import proofs.«107887_j53420803228324_2_alg».proof.Proof.Gen.Kernel.Launch
import proofs.«107887_j53420803228324_2_alg».proof.Proof.Gen.Kernel.Points
import proofs.«107887_j53420803228324_2_alg».proof.Proof.Gen.Kernel.Frame
import proofs.«107887_j53420803228324_2_alg».proof.Proof.Gen.KernelIdeal
import proofs.«107887_j53420803228324_2_alg».proof.Proof.Gen.KernelIdeal.Skeleton
import proofs.«107887_j53420803228324_2_alg».proof.Proof.Gen.KernelIdeal.Launch
import proofs.«107887_j53420803228324_2_alg».proof.Proof.Gen.KernelIdeal.Points
import proofs.«107887_j53420803228324_2_alg».proof.Proof.Gen.KernelIdeal.Frame
import proofs.«107887_j53420803228324_2_alg».proof.Proof.Gen.ReferenceIdeal
import proofs.«107887_j53420803228324_2_alg».proof.Proof.Gen.Pre_finite_inputs
import proofs.«107887_j53420803228324_2_alg».proof.Proof.Gen.ReferenceIdeal.Run
import proofs.«107887_j53420803228324_2_alg».proof.Proof.Gen.ReferenceIdeal.Read
import proofs.«107887_j53420803228324_2_alg».proof.Proof.KernelValue
import proofs.«107887_j53420803228324_2_alg».proof.Proof.Bridge
import proofs.«107887_j53420803228324_2_alg».proof.Proof.Finite
import Idealize.ShloMosaic.Adequacy
import Idealize.ShloMosaic.Init

set_option maxRecDepth 16384

noncomputable section

namespace Cert.Proof

open Idealize.ShloMosaic Idealize.SL.Sem
open Cert.KernelIdeal.Assembled Cert.KernelIdeal.Results

/-- The word-level kernel program runs and leaves its arguments as launched. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- So does the reference: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Over the extended reals, from memories that agree on the arguments, the two programs end with the same
    reconstruction, mean and log-variance, and their arguments as launched. -/
theorem algebraic : Cert.algebraic_KernelIdeal_ReferenceIdeal := by
  intro m ρ m' ρ' hpre hagree
  refine ⟨fun c => shapeCast Cert.KernelIdeal.S64x2048x3
      (reconA (a0 m c) (a1 m c) (a2 m c) (a3 m c) (a4 m c) (a5 m c) (a6 m c) (a7 m c) (a8 m c) (a9 m c) (aE m c))
      Cert.KernelIdeal.Gen.shapeCasts_S131072x3_S64x2048x3,
    fun c => meanA (a0 m c) (a2 m c) (a3 m c) (a4 m c) (a5 m c) (aE m c),
    fun c => logvarA (a0 m c) (a2 m c) (a3 m c) (a4 m c) (a5 m c) (aE m c),
    Cert.KernelIdeal.Assembled.run_values m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10⟩ := hagree c
  obtain ⟨hx, hW⟩ := Cert.Finite.x_W1_real (a0 m c) (a1 m c) (a2 m c) (a3 m c) (a4 m c) (a5 m c) (a6 m c) (a7 m c)
    (a8 m c) (a9 m c) (aE m c) (hpre c)
  obtain ⟨r0, r1, r2, rargs⟩ := h c
  refine ⟨r0.trans ?_, r1.trans ?_, r2.trans ?_, rargs⟩
  · rw [Cert.ReferenceIdeal.Read.val_main_v85_eq m' c, g0, g1, g2, g3, g4, g5, g6, g7, g8, g9, g10]
    unfold Cert.ReferenceIdeal.Read.val_main_v85
    exact congrArg
      (fun z => shapeCast Cert.KernelIdeal.S64x2048x3 z Cert.KernelIdeal.Gen.shapeCasts_S131072x3_S64x2048x3)
      (Cert.Bridge.recon_eq (a0 m c) (a1 m c) (a2 m c) (a3 m c) (a4 m c) (a5 m c) (a6 m c) (a7 m c) (a8 m c) (a9 m c)
        (aE m c) hx hW)
  · rw [Cert.ReferenceIdeal.Read.val_main_v69_eq m' c, g0, g2, g3, g4, g5, g10]
    exact Cert.Bridge.mean_eq (a0 m c) (a2 m c) (a3 m c) (a4 m c) (a5 m c) (aE m c) hx hW
  · rw [Cert.ReferenceIdeal.Read.val_main_v70_eq m' c, g0, g2, g3, g4, g5, g10]
    exact Cert.Bridge.logvar_eq (a0 m c) (a2 m c) (a3 m c) (a4 m c) (a5 m c) (aE m c) hx hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
